-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x256 : Shape := ⟨3, ![2, 2048, 256]⟩
abbrev S2048x256 : Shape := ⟨2, ![2048, 256]⟩
abbrev S256x2048 : Shape := ⟨2, ![256, 2048]⟩
abbrev S256 : Shape := ⟨1, ![256]⟩
abbrev S_ : Shape := ⟨0, ![]⟩

class Facts : Prop where
  bcast_S_S2x2048x256 : S_.BroadcastsInDim S2x2048x256 (![] : Fin 0 → Fin S2x2048x256.rank)
  reducesTo_S2x2048x256_S_d0_1_2 : S2x2048x256.ReducesTo [0, 1, 2] S_
  h_S_ : 0 < S_.numel
  bcast_S_S2048x256 : S_.BroadcastsInDim S2048x256 (![] : Fin 0 → Fin S2048x256.rank)
  reducesTo_S2048x256_S_d0_1 : S2048x256.ReducesTo [0, 1] S_
  bcast_S_S256x2048 : S_.BroadcastsInDim S256x2048 (![] : Fin 0 → Fin S256x2048.rank)
  reducesTo_S256x2048_S_d0_1 : S256x2048.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256x2048 .f32) (main_arg5 : FVec F S256 .f32) (main_v13 : IVec S_ 1) (main_v16 : IVec S2048x256 1) : IVec S_ 1 :=
  let main_c_5 : IVec S_ 1 := constantI S_ 1 1#1
  let main_v17 : IVec S_ 1 := (fun x v => Host.reduce IntOp.andi x v reducesTo_S2048x256_S_d0_1 h_S_) main_v16 main_c_5
  let main_v18 : IVec S_ 1 := andi main_v13 main_v17
  let main_v19 : FVec F S256x2048 .f32 := Host.absf main_arg4
  let main_cst_6 : FVec F S_ .f32 := constant S_ .f32 0x7F800000#32
  let main_v20 : FVec F S256x2048 .f32 := broadcastInDim S256x2048 ![] bcast_S_S256x2048 main_cst_6
  let main_v21 : IVec S256x2048 1 := cmpf .olt main_v19 main_v20
  let main_c_7 : IVec S_ 1 := constantI S_ 1 1#1
  let main_v22 : IVec S_ 1 := (fun x v => Host.reduce IntOp.andi x v reducesTo_S256x2048_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  main_v28

def fn {F : FTy → Type} [FloatOps F] (main_arg0 : FVec F S2x2048x256 .f32) (main_arg1 : FVec F S2048x256 .f32) (main_arg2 : FVec F S2048x256 .f32) (main_arg3 : FVec F S2048x256 .f32) (main_arg4 : FVec F S256x2048 .f32) (main_arg5 : FVec F S256 .f32) : IVec S_ 1 :=
  let main_v0 : FVec F S2x2048x256 .f32 := Host.absf main_arg0
  let main_cst : FVec F S_ .f32 := constant S_ .f32 0x7F800000#32
  let main_v1 : FVec F S2x2048x256 .f32 := broadcastInDim S2x2048x256 ![] bcast_S_S2x2048x256 main_cst
  let main_v2 : IVec S2x2048x256 1 := cmpf .olt main_v0 main_v1
  let main_c : IVec S_ 1 := constantI S_ 1 1#1
  let main_v3 : IVec S_ 1 := (fun x v => Host.reduce IntOp.andi x v reducesTo_S2x2048x256_S_d0_1_2 h_S_) main_v2 main_c
  let main_v4 : FVec F S2048x256 .f32 := Host.absf main_arg1
  let main_cst_0 : FVec F S_ .f32 := constant S_ .f32 0x7F800000#32
  let main_v5 : FVec F S2048x256 .f32 := broadcastInDim S2048x256 ![] bcast_S_S2048x256 main_cst_0
  let main_v6 : IVec S2048x256 1 := cmpf .olt main_v4 main_v5
  let main_c_1 : IVec S_ 1 := constantI S_ 1 1#1
  let main_v7 : IVec S_ 1 := (fun x v => Host.reduce IntOp.andi x v reducesTo_S2048x256_S_d0_1 h_S_) main_v6 main_c_1
  let main_v8 : IVec S_ 1 := andi main_v3 main_v7
  let main_v9 : FVec F S2048x256 .f32 := Host.absf main_arg2
  let main_cst_2 : FVec F S_ .f32 := constant S_ .f32 0x7F800000#32
  let main_v10 : FVec F S2048x256 .f32 := broadcastInDim S2048x256 ![] bcast_S_S2048x256 main_cst_2
  let main_v11 : IVec S2048x256 1 := cmpf .olt main_v9 main_v10
  let main_c_3 : IVec S_ 1 := constantI S_ 1 1#1
  let main_v12 : IVec S_ 1 := (fun x v => Host.reduce IntOp.andi x v reducesTo_S2048x256_S_d0_1 h_S_) main_v11 main_c_3
  let main_v13 : IVec S_ 1 := andi main_v8 main_v12
  let main_v14 : FVec F S2048x256 .f32 := Host.absf main_arg3
  let main_cst_4 : FVec F S_ .f32 := constant S_ .f32 0x7F800000#32
  let main_v15 : FVec F S2048x256 .f32 := broadcastInDim S2048x256 ![] bcast_S_S2048x256 main_cst_4
  let main_v16 : IVec S2048x256 1 := cmpf .olt main_v14 main_v15
  fn_part1 (F := F) main_arg4 main_arg5 main_v13 main_v16
-- ==== Kernel.lean ====
abbrev S2x2048x256 : Shape := ⟨3, ![2, 2048, 256]⟩
abbrev S2048x256 : Shape := ⟨2, ![2048, 256]⟩
abbrev S256x2048 : Shape := ⟨2, ![256, 2048]⟩
abbrev S256 : Shape := ⟨1, ![256]⟩
abbrev S4096x256 : Shape := ⟨2, ![4096, 256]⟩
abbrev S_ : Shape := ⟨0, ![]⟩
abbrev S256x6144 : Shape := ⟨2, ![256, 6144]⟩
abbrev S1x256 : Shape := ⟨2, ![1, 256]⟩
abbrev S4096x6144 : Shape := ⟨2, ![4096, 6144]⟩
abbrev S512x256 : Shape := ⟨2, ![512, 256]⟩
abbrev S256x1024 : Shape := ⟨2, ![256, 1024]⟩
abbrev S512x1024 : Shape := ⟨2, ![512, 1024]⟩
abbrev S4096x2048 : Shape := ⟨2, ![4096, 2048]⟩
abbrev S512x2048 : Shape := ⟨2, ![512, 2048]⟩
abbrev S512 : Shape := ⟨1, ![512]⟩
abbrev S512x1 : Shape := ⟨2, ![512, 1]⟩
abbrev S512x512 : Shape := ⟨2, ![512, 512]⟩

abbrev nBuf : Space → Nat
  | .hbm => 26
  | .vmem => 22
  | .smem => 0
  | _ => 0

abbrev bufTy : (tb : Table) → Fin (tcTables nBuf tb) → BufTy
  | .hbm, ⟨0, _⟩ => ⟨S2x2048x256, .f32⟩
  | .hbm, ⟨1, _⟩ => ⟨S2048x256, .f32⟩
  | .hbm, ⟨2, _⟩ => ⟨S2048x256, .f32⟩
  | .hbm, ⟨3, _⟩ => ⟨S2048x256, .f32⟩
  | .hbm, ⟨4, _⟩ => ⟨S256x2048, .f32⟩
  | .hbm, ⟨5, _⟩ => ⟨S256, .f32⟩
  | .hbm, ⟨6, _⟩ => ⟨S4096x256, .f32⟩
  | .hbm, ⟨7, _⟩ => ⟨S4096x256, .bf16⟩
  | .hbm, ⟨8, _⟩ => ⟨S256x2048, .f32⟩
  | .hbm, ⟨9, _⟩ => ⟨S_, .f32⟩
  | .hbm, ⟨10, _⟩ => ⟨S256x2048, .f32⟩
  | .hbm, ⟨11, _⟩ => ⟨S256x2048, .f32⟩
  | .hbm, ⟨12, _⟩ => ⟨S256x2048, .f32⟩
  | .hbm, ⟨13, _⟩ => ⟨S_, .f32⟩
  | .hbm, ⟨14, _⟩ => ⟨S256x2048, .f32⟩
  | .hbm, ⟨15, _⟩ => ⟨S256x2048, .f32⟩
  | .hbm, ⟨16, _⟩ => ⟨S256x2048, .f32⟩
  | .hbm, ⟨17, _⟩ => ⟨S256x6144, .f32⟩
  | .hbm, ⟨18, _⟩ => ⟨S256x6144, .bf16⟩
  | .hbm, ⟨19, _⟩ => ⟨S2048x256, .f32⟩
  | .hbm, ⟨20, _⟩ => ⟨S2048x256, .bf16⟩
  | .hbm, ⟨21, _⟩ => ⟨S1x256, .f32⟩
  | .hbm, ⟨22, _⟩ => ⟨S4096x6144, .bf16⟩
  | .hbm, ⟨23, _⟩ => ⟨S4096x2048, .bf16⟩
  | .hbm, ⟨24, _⟩ => ⟨S4096x256, .f32⟩
  | .hbm, ⟨25, _⟩ => ⟨S2x2048x256, .f32⟩
  | .local _ .vmem, ⟨0, _⟩ => ⟨S512x256, .bf16⟩
  | .local _ .vmem, ⟨1, _⟩ => ⟨S512x256, .bf16⟩
  | .local _ .vmem, ⟨2, _⟩ => ⟨S256x1024, .bf16⟩
  | .local _ .vmem, ⟨3, _⟩ => ⟨S256x1024, .bf16⟩
  | .local _ .vmem, ⟨4, _⟩ => ⟨S512x1024, .bf16⟩
  | .local _ .vmem, ⟨5, _⟩ => ⟨S512x1024, .bf16⟩
  | .local _ .vmem, ⟨6, _⟩ => ⟨S512x256, .bf16⟩
  | .local _ .vmem, ⟨7, _⟩ => ⟨S512x256, .bf16⟩
  | .local _ .vmem, ⟨8, _⟩ => ⟨S2048x256, .bf16⟩
  | .local _ .vmem, ⟨9, _⟩ => ⟨S2048x256, .bf16⟩
  | .local _ .vmem, ⟨10, _⟩ => ⟨S2048x256, .bf16⟩
  | .local _ .vmem, ⟨11, _⟩ => ⟨S2048x256, .bf16⟩
  | .local _ .vmem, ⟨12, _⟩ => ⟨S512x256, .bf16⟩
  | .local _ .vmem, ⟨13, _⟩ => ⟨S512x256, .bf16⟩
  | .local _ .vmem, ⟨14, _⟩ => ⟨S512x512, .bf16⟩
  | .local _ .vmem, ⟨15, _⟩ => ⟨S512x512, .bf16⟩
  | .local _ .vmem, ⟨16, _⟩ => ⟨S512x256, .bf16⟩
  | .local _ .vmem, ⟨17, _⟩ => ⟨S512x256, .bf16⟩
  | .local _ .vmem, ⟨18, _⟩ => ⟨S1x256, .f32⟩
  | .local _ .vmem, ⟨19, _⟩ => ⟨S512x256, .f32⟩
  | .local _ .vmem, ⟨20, _⟩ => ⟨S512x256, .f32⟩
  | .local _ .vmem, ⟨21, _⟩ => ⟨S512x256, .f32⟩
  | _, _ => ⟨S2x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc2_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem3_1 : DmaSem sig := 20

abbrev nD : Nat := 1
abbrev τ : Topo := Topo.v7x

variable {F : FTy → Type} [FloatOps F]

abbrev grid0 : Pipeline.Grid := ⟨2, ![8, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨3, ![2, 8, 4], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage1_0 : Fin 2 → Memref sig .tc .vmem S512x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S2048x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S2048x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S512x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev grid2 : Pipeline.Grid := ⟨2, ![8, 4], ![false, false]⟩

def k2_cond2 (i : grid2.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S512x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S512x256 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S512x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

class Facts₀ : Prop where
  shapeCasts_S2x2048x256_S4096x256 : S2x2048x256.ShapeCasts S4096x256
  bitsLt_bf16_f32 : FTy.bits .bf16 < FTy.bits .f32
  transposes_S2048x256_S256x2048_1_0 : S2048x256.Transposes [1, 0] S256x2048
  bcast_S_S256x2048 : S_.BroadcastsInDim S256x2048 (![] : Fin 0 → Fin S256x2048.rank)
  concatenates_S256x2048_S256x2048_S256x2048_S256x6144_d1 : Shape.Concatenates [S256x2048, S256x2048, S256x2048] S256x6144 1
  transposes_S256x2048_S2048x256_1_0 : S256x2048.Transposes [1, 0] S2048x256
  shapeCasts_S256_S1x256 : S256.ShapeCasts S1x256
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S512x1024_S512x1024_0_0 : ∀ a, (![0, 0] : Fin 2 → Nat) a + S512x1024.size a ≤ S512x1024.size a
  h_S512x1024 : 0 < S512x1024.numel
  packedbf16_S512x1024_S512x1024_0_0 : (Rect.unit (s := S512x1024) ![0, 0] S512x1024.size inb_S512x1024_S512x1024_0_0).PackedRows (EltTy.packing .bf16)
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  reduces_S512x2048_S512 : S512x2048.Reduces [1] S512
  shapeCasts_S512_S512x1 : S512.ShapeCasts S512x1
  broadcasts_S512x1_S512x2048 : S512x1.Broadcasts S512x2048
  packedbf16_S512x256_S512x256_0_0 : (Rect.unit (s := S512x256) ![0, 0] S512x256.size inb_S512x256_S512x256_0_0).PackedRows (EltTy.packing .bf16)
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  shapeCasts_S4096x256_S2x2048x256 : S4096x256.ShapeCasts S2x2048x256
  dot_S512x256_S256x1024_S512x1024_1_0_0_1_n_n_wf : DotDims.WF S512x256 S256x1024 S512x1024 [1] [0] [0] [1] [] []
  dot_S512x256_S2048x256_S512x2048_1_1_0_0_n_n_wf : DotDims.WF S512x256 S2048x256 S512x2048 [1] [1] [0] [0] [] []
  dot_S512x2048_S2048x256_S512x256_1_0_0_1_n_n_wf : DotDims.WF S512x2048 S2048x256 S512x256 [1] [0] [0] [1] [] []
  dot_S512x512_S512x256_S512x256_1_0_0_1_n_n_wf : DotDims.WF S512x512 S512x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S4096x256.size a
  hwx0_0 : ∀ i : grid0.Coords, EltTy.bits .bf16 = 32 ∨ (Rect.block (s := S4096x256) S512x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S256x6144.size a
  hwx0_1 : ∀ i : grid0.Coords, EltTy.bits .bf16 = 32 ∨ (Rect.block (s := S256x6144) S256x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S4096x6144.size a
  hwx0_2 : ∀ i : grid0.Coords, EltTy.bits .bf16 = 32 ∨ (Rect.block (s := S4096x6144) S512x1024.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x256.size a ≤ S4096x6144.size a
  hwx1_0 : ∀ i : grid1.Coords, EltTy.bits .bf16 = 32 ∨ (Rect.block (s := S4096x6144) S512x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x256.size a ≤ S4096x6144.size a
  hwx1_1 : ∀ i : grid1.Coords, EltTy.bits .bf16 = 32 ∨ (Rect.block (s := S4096x6144) S2048x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x256.size a ≤ S4096x6144.size a
  hwx1_2 : ∀ i : grid1.Coords, EltTy.bits .bf16 = 32 ∨ (Rect.block (s := S4096x6144) S2048x256.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x256.size a ≤ S4096x2048.size a
  hwx1_3 : ∀ i : grid1.Coords, EltTy.bits .bf16 = 32 ∨ (Rect.block (s := S4096x2048) S512x256.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x512.size a ≤ S4096x2048.size a
  hwx2_0 : ∀ i : grid2.Coords, EltTy.bits .bf16 = 32 ∨ (Rect.block (s := S4096x2048) S512x512.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x256.size a ≤ S2048x256.size a
  hwx2_1 : ∀ i : grid2.Coords, EltTy.bits .bf16 = 32 ∨ (Rect.block (s := S2048x256) S512x256.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x256.size a ≤ S4096x256.size a
  hwx2_3 : ∀ i : grid2.Coords, EltTy.bits .f32 = 32 ∨ (Rect.block (s := S4096x256) S512x256.size (cc2_transform_3 i) (hinb2_3 i)).WholeWords (EltTy.packing .f32)

variable [Facts₀]

def dot_S512x256_S256x1024_S512x1024_1_0_0_1_n_n : DotDims S512x256 S256x1024 S512x1024 where
  lhsContracting := [1]
  rhsContracting := [0]
  lhsNonContracting := [0]
  rhsNonContracting := [1]
  lhsBatch := []
  rhsBatch := []
  wf := dot_S512x256_S256x1024_S512x1024_1_0_0_1_n_n_wf
def dot_S512x256_S2048x256_S512x2048_1_1_0_0_n_n : DotDims S512x256 S2048x256 S512x2048 where
  lhsContracting := [1]
  rhsContracting := [1]
  lhsNonContracting := [0]
  rhsNonContracting := [0]
  lhsBatch := []
  rhsBatch := []
  wf := dot_S512x256_S2048x256_S512x2048_1_1_0_0_n_n_wf
def dot_S512x2048_S2048x256_S512x256_1_0_0_1_n_n : DotDims S512x2048 S2048x256 S512x256 where
  lhsContracting := [1]
  rhsContracting := [0]
  lhsNonContracting := [0]
  rhsNonContracting := [1]
  lhsBatch := []
  rhsBatch := []
  wf := dot_S512x2048_S2048x256_S512x256_1_0_0_1_n_n_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf

abbrev win0_0 : Pipeline.Window sig grid0 :=
  Pipeline.Window.ofSpec (Memref.whole main_v1) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v14) S512x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S2048x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S2048x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v15) S512x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v15) S512x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S512x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v13) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v16) S512x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

class Facts : Prop extends Facts₀ where

variable [Facts]
-- ==== ReferenceIdeal.lean ====
abbrev S2x2048x256 : Shape := ⟨3, ![2, 2048, 256]⟩
abbrev S2048x256 : Shape := ⟨2, ![2048, 256]⟩
abbrev S256x2048 : Shape := ⟨2, ![256, 2048]⟩
abbrev S256 : Shape := ⟨1, ![256]⟩
abbrev S2x2048x2048 : Shape := ⟨3, ![2, 2048, 2048]⟩
abbrev S2x2048x8x256 : Shape := ⟨4, ![2, 2048, 8, 256]⟩
abbrev S2x8x2048x256 : Shape := ⟨4, ![2, 8, 2048, 256]⟩
abbrev S_ : Shape := ⟨0, ![]⟩
abbrev S2x8x2048x2048 : Shape := ⟨4, ![2, 8, 2048, 2048]⟩
abbrev S2x8x2048 : Shape := ⟨3, ![2, 8, 2048]⟩
abbrev S2x8x2048x1 : Shape := ⟨4, ![2, 8, 2048, 1]⟩
abbrev S1x1x256 : Shape := ⟨3, ![1, 1, 256]⟩

abbrev nBuf : Space → Nat
  | .hbm => 43
  | .vmem => 0
  | .smem => 0
  | _ => 0

abbrev bufTy : (tb : Table) → Fin (tcTables nBuf tb) → BufTy
  | .hbm, ⟨0, _⟩ => ⟨S2x2048x256, .f32⟩
  | .hbm, ⟨1, _⟩ => ⟨S2048x256, .f32⟩
  | .hbm, ⟨2, _⟩ => ⟨S2048x256, .f32⟩
  | .hbm, ⟨3, _⟩ => ⟨S2048x256, .f32⟩
  | .hbm, ⟨4, _⟩ => ⟨S256x2048, .f32⟩
  | .hbm, ⟨5, _⟩ => ⟨S256, .f32⟩
  | .hbm, ⟨6, _⟩ => ⟨S2x2048x2048, .f32⟩
  | .hbm, ⟨7, _⟩ => ⟨S2x2048x8x256, .f32⟩
  | .hbm, ⟨8, _⟩ => ⟨S2x8x2048x256, .f32⟩
  | .hbm, ⟨9, _⟩ => ⟨S_, .f32⟩
  | .hbm, ⟨10, _⟩ => ⟨S2x8x2048x256, .f32⟩
  | .hbm, ⟨11, _⟩ => ⟨S2x8x2048x256, .f32⟩
  | .hbm, ⟨12, _⟩ => ⟨S2x2048x2048, .f32⟩
  | .hbm, ⟨13, _⟩ => ⟨S2x2048x8x256, .f32⟩
  | .hbm, ⟨14, _⟩ => ⟨S2x8x2048x256, .f32⟩
  | .hbm, ⟨15, _⟩ => ⟨S_, .f32⟩
  | .hbm, ⟨16, _⟩ => ⟨S2x8x2048x256, .f32⟩
  | .hbm, ⟨17, _⟩ => ⟨S2x8x2048x256, .f32⟩
  | .hbm, ⟨18, _⟩ => ⟨S2x2048x2048, .f32⟩
  | .hbm, ⟨19, _⟩ => ⟨S2x2048x8x256, .f32⟩
  | .hbm, ⟨20, _⟩ => ⟨S2x8x2048x256, .f32⟩
  | .hbm, ⟨21, _⟩ => ⟨S2x8x2048x2048, .f32⟩
  | .hbm, ⟨22, _⟩ => ⟨S_, .f32⟩
  | .hbm, ⟨23, _⟩ => ⟨S2x8x2048, .f32⟩
  | .hbm, ⟨24, _⟩ => ⟨S_, .f32⟩
  | .hbm, ⟨25, _⟩ => ⟨S2x8x2048, .f32⟩
  | .hbm, ⟨26, _⟩ => ⟨S2x8x2048, .f32⟩
  | .hbm, ⟨27, _⟩ => ⟨S2x8x2048x1, .f32⟩
  | .hbm, ⟨28, _⟩ => ⟨S2x8x2048x2048, .f32⟩
  | .hbm, ⟨29, _⟩ => ⟨S2x8x2048x2048, .f32⟩
  | .hbm, ⟨30, _⟩ => ⟨S2x8x2048x2048, .f32⟩
  | .hbm, ⟨31, _⟩ => ⟨S_, .f32⟩
  | .hbm, ⟨32, _⟩ => ⟨S2x8x2048, .f32⟩
  | .hbm, ⟨33, _⟩ => ⟨S2x8x2048x1, .f32⟩
  | .hbm, ⟨34, _⟩ => ⟨S2x8x2048x2048, .f32⟩
  | .hbm, ⟨35, _⟩ => ⟨S2x8x2048x2048, .f32⟩
  | .hbm, ⟨36, _⟩ => ⟨S2x8x2048x256, .f32⟩
  | .hbm, ⟨37, _⟩ => ⟨S2x2048x8x256, .f32⟩
  | .hbm, ⟨38, _⟩ => ⟨S2x2048x2048, .f32⟩
  | .hbm, ⟨39, _⟩ => ⟨S2x2048x256, .f32⟩
  | .hbm, ⟨40, _⟩ => ⟨S1x1x256, .f32⟩
  | .hbm, ⟨41, _⟩ => ⟨S2x2048x256, .f32⟩
  | .hbm, ⟨42, _⟩ => ⟨S2x2048x256, .f32⟩
  | _, _ => ⟨S2x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]

class Facts₀ : Prop where
  shapeCasts_S2x2048x2048_S2x2048x8x256 : S2x2048x2048.ShapeCasts S2x2048x8x256
  transposes_S2x2048x8x256_S2x8x2048x256_0_2_1_3 : S2x2048x8x256.Transposes [0, 2, 1, 3] S2x8x2048x256
  bcast_S_S2x8x2048x256 : S_.BroadcastsInDim S2x8x2048x256 (![] : Fin 0 → Fin S2x8x2048x256.rank)
  reducesTo_S2x8x2048x2048_S2x8x2048_d3 : S2x8x2048x2048.ReducesTo [3] S2x8x2048
  h_S_ : 0 < S_.numel
  bcast_S_S2x8x2048 : S_.BroadcastsInDim S2x8x2048 (![] : Fin 0 → Fin S2x8x2048.rank)
  bcast_S2x8x2048_S2x8x2048x1_0_1_2 : S2x8x2048.BroadcastsInDim S2x8x2048x1 (![0, 1, 2] : Fin 3 → Fin S2x8x2048x1.rank)
  bcast_S2x8x2048x1_S2x8x2048x2048_0_1_2_3 : S2x8x2048x1.BroadcastsInDim S2x8x2048x2048 (![0, 1, 2, 3] : Fin 4 → Fin S2x8x2048x2048.rank)
  transposes_S2x8x2048x256_S2x2048x8x256_0_2_1_3 : S2x8x2048x256.Transposes [0, 2, 1, 3] S2x2048x8x256
  shapeCasts_S2x2048x8x256_S2x2048x2048 : S2x2048x8x256.ShapeCasts S2x2048x2048
  bcast_S256_S1x1x256_2 : S256.BroadcastsInDim S1x1x256 (![2] : Fin 1 → Fin S1x1x256.rank)
  bcast_S1x1x256_S2x2048x256_0_1_2 : S1x1x256.BroadcastsInDim S2x2048x256 (![0, 1, 2] : Fin 3 → Fin S2x2048x256.rank)
  dot_S2x2048x256_S2048x256_S2x2048x2048_2_1_01_0_n_n_wf : DotDims.WF S2x2048x256 S2048x256 S2x2048x2048 [2] [1] [0, 1] [0] [] []
  dot_S2x8x2048x256_S2x8x2048x256_S2x8x2048x2048_3_3_2_2_01_01_wf : DotDims.WF S2x8x2048x256 S2x8x2048x256 S2x8x2048x2048 [3] [3] [2] [2] [0, 1] [0, 1]
  dot_S2x8x2048x2048_S2x8x2048x256_S2x8x2048x256_3_2_2_3_01_01_wf : DotDims.WF S2x8x2048x2048 S2x8x2048x256 S2x8x2048x256 [3] [2] [2] [3] [0, 1] [0, 1]
  dot_S2x2048x2048_S256x2048_S2x2048x256_2_1_01_0_n_n_wf : DotDims.WF S2x2048x2048 S256x2048 S2x2048x256 [2] [1] [0, 1] [0] [] []

variable [Facts₀]

def dot_S2x2048x256_S2048x256_S2x2048x2048_2_1_01_0_n_n : DotDims S2x2048x256 S2048x256 S2x2048x2048 where
  lhsContracting := [2]
  rhsContracting := [1]
  lhsNonContracting := [0, 1]
  rhsNonContracting := [0]
  lhsBatch := []
  rhsBatch := []
  wf := dot_S2x2048x256_S2048x256_S2x2048x2048_2_1_01_0_n_n_wf
def dot_S2x8x2048x256_S2x8x2048x256_S2x8x2048x2048_3_3_2_2_01_01 : DotDims S2x8x2048x256 S2x8x2048x256 S2x8x2048x2048 where
  lhsContracting := [3]
  rhsContracting := [3]
  lhsNonContracting := [2]
  rhsNonContracting := [2]
  lhsBatch := [0, 1]
  rhsBatch := [0, 1]
  wf := dot_S2x8x2048x256_S2x8x2048x256_S2x8x2048x2048_3_3_2_2_01_01_wf
def dot_S2x8x2048x2048_S2x8x2048x256_S2x8x2048x256_3_2_2_3_01_01 : DotDims S2x8x2048x2048 S2x8x2048x256 S2x8x2048x256 where
  lhsContracting := [3]
  rhsContracting := [2]
  lhsNonContracting := [2]
  rhsNonContracting := [3]
  lhsBatch := [0, 1]
  rhsBatch := [0, 1]
  wf := dot_S2x8x2048x2048_S2x8x2048x256_S2x8x2048x256_3_2_2_3_01_01_wf
def dot_S2x2048x2048_S256x2048_S2x2048x256_2_1_01_0_n_n : DotDims S2x2048x2048 S256x2048 S2x2048x256 where
  lhsContracting := [2]
  rhsContracting := [1]
  lhsNonContracting := [0, 1]
  rhsNonContracting := [0]
  lhsBatch := []
  rhsBatch := []
  wf := dot_S2x2048x2048_S256x2048_S2x2048x256_2_1_01_0_n_n_wf

class Facts : Prop extends Facts₀ where

variable [Facts]
-- ==== Proof.K.Region0.lean ====
/- Region 0 of the program: the fused query/key/value projection. At grid point (i, j) the kernel multiplies the
   512-row block i of the activations [4096, 256] by the 1024-column block j of the fused weights [256, 6144] and
   stores the 512 x 1024 product as block (i, j) of the projection [4096, 6144]. Stated at the contents `V` the
   buffers hold when the region is entered: each window's block at a point, what the body leaves in the output's
   buffer (its one store, over the two loaded blocks), the body's triple, the proof data of the pipeline, and the body
   obligation at every point. -/
import proofs.«160521_j42159398978166_2_alg».proof.Proof.Gen.Kernel.Launch
import proofs.«160521_j42159398978166_2_alg».proof.Proof.Gen.Kernel.Skeleton
import proofs.«160521_j42159398978166_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' buffer holds row block i at every point, fetched there or not (the block index moves only when
    i does). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weights' buffer holds column block j at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the store go through the whole buffer -/

abbrev rA0 : Rect S512x256 := Rect.unit (s := S512x256) ![0, 0] S512x256.size inb_S512x256_S512x256_0_0
abbrev rB0 : Rect S256x1024 := Rect.unit (s := S256x1024) ![0, 0] S256x1024.size inb_S256x1024_S256x1024_0_0
abbrev rC0 : Rect S512x1024 := Rect.unit (s := S512x1024) ![0, 0] S512x1024.size inb_S512x1024_S512x1024_0_0

/-- The output's buffer after the body: the product of the two loaded blocks, stored through the whole buffer. -/
def out0_2 (x0 : Vec F S512x256 .bf16) (x1 : Vec F S256x1024 .bf16) : Vec F S512x1024 .bf16 :=
  View.canon [⟨rC0, k0_pay1 (View.ld x0 rA0) (View.ld x1 rB0)⟩]

/-- The one store covers the buffer. -/
theorem cover0_2 (p0 : Vec F S512x1024 .bf16) (y : S512x1024.Idx) :
    ∃ pc ∈ ([⟨rC0, p0⟩] : List (View.Piece (Elt F) S512x1024 .bf16)), y ∈ pc.1.set :=
  View.cover_of_tiled [⟨rC0, p0⟩] S512x1024.size (by rfl) y

/-! ## The body's triple -/

set_option maxHeartbeats 1000000 in
/-- On whole staging memrefs, the two inputs' at read contents `x0`, `x1` and the output's at anything, the body runs to
    the continuation with the inputs as they were and the output at the product. -/
theorem sound_kernel0 (c : Dev nD) (E : Set ℕ) (i : grid0.Coords)
    (arg2 : Memref sig .tc .vmem S512x256 .bf16) (harg2 : arg2.IsWhole) (arg3 : Memref sig .tc .vmem S256x1024 .bf16) (harg3 : arg3.IsWhole)
    (arg4 : Memref sig .tc .vmem S512x1024 .bf16) (harg4 : arg4.IsWhole)
    (x0 : Vec F S512x256 .bf16) (x1 : Vec F S256x1024 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (out0_2 x0 x1)) -∗ K ⟨⟩))
      ⊢ wp frame (wpE (defs₀ (F := F)) Variants.none c none) E (cc0__linear_nk1_kernel i arg2 harg2 arg3 harg3 arg4 harg4) K := by
  simp only [cc0__linear_nk1_kernel_eq_skeleton]; unfold cc0__linear_nk1_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The arrays as the region finds them; after the body at point `t` each input's buffer at its block and the
    output's at the product of the two blocks; the invariant is the scoped rest and the generator register,
    untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Region1.lean ====
import proofs.«160521_j42159398978166_2_alg».proof.Proof.Gen.Kernel.Launch
import proofs.«160521_j42159398978166_2_alg».proof.Proof.Gen.Kernel.Skeleton
import proofs.«160521_j42159398978166_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 1 of @main: the attention kernel (custom_call 1, pipeline 1), at the entry contents V

The region's four windows: the query tile (window 0), the key rows (window 1) and the value rows (window 2), all
three read off ONE array, and the output tile (window 3) on an array of its own. The body loads the three input
buffers whole and stores one payload over the whole output buffer, so what it leaves there is a closed function of
the three input blocks. The shared array is held by the three input windows at three shares that compose to the
full share; it is split among them when the region is entered and joined back when it is left. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when the region is entered
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (an unfetched
    window's block index has not moved since the last fetch), for any proof data whose array is the entry contents
    and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S512x256 := Rect.unit (s := S512x256) ![0, 0] S512x256.size inb_S512x256_S512x256_0_0
abbrev r1_1 : Rect S2048x256 := Rect.unit (s := S2048x256) ![0, 0] S2048x256.size inb_S2048x256_S2048x256_0_0

/-! ## What the body leaves in the output window's buffer -/

/-- Window 3's staging buffer after the body, from the three input blocks: its one store as a piece. -/
def out1_3 (x0 : Vec F S512x256 .bf16) (x1 x2 : Vec F S2048x256 .bf16) : Vec F S512x256 .bf16 :=
  View.canon [⟨r1_0, k1_pay1 (View.ld x0 r1_0) (View.ld x1 r1_1) (View.ld x2 r1_1)⟩]

/-- The store's rectangle is the whole buffer, so it covers it. -/
theorem cover1_3 (p0 : Vec F S512x256 .bf16) (y : S512x256.Idx) :
    ∃ pc ∈ ([⟨r1_0, p0⟩] : List (View.Piece (Elt F) S512x256 .bf16)), y ∈ pc.1.set :=
  View.cover_of_tiled [⟨r1_0, p0⟩] S512x256.size (by rfl) y

/-! ## The body's triple -/

set_option maxHeartbeats 1000000 in
/-- The kernel body on whole staging memrefs, the inputs' at read contents x0, x1, x2 and the output's at anything,
    runs to the continuation holding the inputs' as they were and the output's at out1_3 of the inputs'. -/
theorem sound_kernel1 (c : Dev nD) (E : Set ℕ) (i : grid1.Coords)
    (arg0 : Memref sig .tc .vmem S512x256 .bf16) (harg0 : arg0.IsWhole)
    (arg1 : Memref sig .tc .vmem S2048x256 .bf16) (harg1 : arg1.IsWhole)
    (arg2 : Memref sig .tc .vmem S2048x256 .bf16) (harg2 : arg2.IsWhole)
    (arg3 : Memref sig .tc .vmem S512x256 .bf16) (harg3 : arg3.IsWhole)
    (x0 : Vec F S512x256 .bf16) (x1 x2 : Vec F S2048x256 .bf16) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out1_3 x0 x1 x2)) -∗ K ⟨⟩))
      ⊢ wp frame (wpE (defs₀ (F := F)) Variants.none c none) E (cc1__attn_kernel i arg0 harg0 arg1 harg1 arg2 harg2 arg3 harg3) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The shares the three input windows hold their common array at: the left half of the full share, and the two
    halves of its right half; they compose to the full share. The output window's entry is unread (an output's
    array is held at the full share). -/
def q1 : Fin cfg1.W → PosShare TreeShare
  | ⟨0, _⟩ => fullShare.left
  | ⟨1, _⟩ => fullShare.right.left
  | ⟨2, _⟩ => fullShare.right.right
  | _ => fullShare

/-- The proof data of pipeline 1 on core c: the arrays as the region finds them; after the body at point t each
    input's buffer at its block and the output's at out1_3 of the three input blocks; the invariant the scoped rest
    and the generator register, untouched; nothing owed; the shared array dealt among the input windows by q1. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q := q1
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the kernel's triple applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The shared array: dealt among the three input windows at entry, joined back at exit -/

/-- The distinct buffers behind the region's arrays are two: the array the three input windows read and the
    output window's. -/
theorem arrBufs1_eq (c : Dev nD) (V₀ : (b : Ref sig .tc) → Buf (Elt F) ((c : Thread nD τ).loc b)) :
    (Pipeline.arrBufs (Ix := Unit) (Name := ℕ) (U := UR sig nD τ) (Lvl := ℕ) spec1 c V₀ : sProp 𝕄)
      = iprop((((c : Thread nD τ).loc main_v14) ↦{fullShare} V₀ main_v14) ∗ (((c : Thread nD τ).loc main_v15) ↦{fullShare} V₀ main_v15)) := by
  unfold Pipeline.arrBufs
  exact bigSep_eq_bigSepL_of_eq [main_v14, main_v15] (by decide) (by decide) _

/-- The core's unscoped buffers are those two and the rest. -/
theorem unscopedBufs_split1 (c : Dev nD) (V₀ : (b : Ref sig .tc) → Buf (Elt F) ((c : Thread nD τ).loc b)) :
    (unscopedBufs c V₀ : sProp 𝕄)
      = iprop(((((c : Thread nD τ).loc main_v14) ↦{fullShare} V₀ main_v14) ∗ (((c : Thread nD τ).loc main_v15) ↦{fullShare} V₀ main_v15))
          ∗ Pipeline.unscopedRest (Ix := Unit) (Name := ℕ) (U := UR sig nD τ) (Lvl := ℕ) spec1 c V₀) := by
  rw [← arrBufs1_eq]
  exact Pipeline.unscopedBufs_split₀ cfgs 1 winFacts₀1.arr_unscoped c V₀

/-- The shares the proof data hold the arrays at. -/
theorem share1_0 (c : Dev nD) : (dat1 V c).share 0 = fullShare.left := rfl
theorem share1_1 (c : Dev nD) : (dat1 V c).share 1 = fullShare.right.left := rfl
theorem share1_2 (c : Dev nD) : (dat1 V c).share 2 = fullShare.right.right := rfl
theorem share1_3 (c : Dev nD) : (dat1 V c).share 3 = fullShare := rfl

/-- The proof data's arrays at contents G, window by window: the shared array three times, at the three shares,
    and the output's array at the full share. -/
theorem arrays1_eq (c : Dev nD) (G : (w : Fin cfg1.W) → Buf (Elt F) ((cfg1.win w).arr.view.loc (c : Thread nD τ))) :
    ((dat1 V c).arrays G : sProp 𝕄)
      = iprop((((c : Thread nD τ).loc main_v14) ↦{fullShare.left} G 0) ∗ (((c : Thread nD τ).loc main_v14) ↦{fullShare.right.left} G 1)
          ∗ (((c : Thread nD τ).loc main_v14) ↦{fullShare.right.right} G 2) ∗ (((c : Thread nD τ).loc main_v15) ↦{fullShare} G 3)) := by
  unfold Dat.arrays
  rw [bigSep_W1, share1_0, share1_1, share1_2, share1_3,
    (arr_whole1 0).set_eq_univ, (arr_whole1 3).set_eq_univ]

/-- ENTRY: the core's unscoped buffers at the entry contents are the proof data's arrays at their entry contents
    — the shared array split along the full share's left half and the two halves of its right half, the output's
    array whole — and the unscoped rest. -/
theorem split1 (c : Dev nD) :
    (unscopedBufs c (V c) : sProp 𝕄)
      ⊢ iprop((dat1 V c).arrays ((dat1 V c).arrAt · 0)
          ∗ Pipeline.unscopedRest (Ix := Unit) (Name := ℕ) (U := UR sig nD τ) (Lvl := ℕ) spec1 c (V c)) := by
  rw [unscopedBufs_split1, arrays1_eq]
  refine sep_mono ?_ .rfl
  rw [show (dat1 V c).arrAt 0 0 = V c main_v14 from rfl, show (dat1 V c).arrAt 1 0 = V c main_v14 from rfl,
    show (dat1 V c).arrAt 2 0 = V c main_v14 from rfl, show (dat1 V c).arrAt 3 0 = V c main_v15 from rfl]
  iintro ⟨H14, H15⟩
  ihave H := (pointsTo_share (PosShare.mem_left_op_right fullShare)).1 $$ H14
  icases H with ⟨Hl, Hr⟩
  ihave H := (pointsTo_share (PosShare.mem_left_op_right fullShare.right)).1 $$ Hr
  icases H with ⟨Hrl, Hrr⟩
  isplitl [Hl]; · iexact Hl
  isplitl [Hrl]; · iexact Hrl
  isplitl [Hrr]; · iexact Hrr
  iexact H15

/-- EXIT: the proof data's arrays at what the pipeline leaves (the input windows' array as entered, the output's
    array at its write-backs folded) and the unscoped rest are the core's unscoped buffers at any contents that
    have the arrays there and agree with the entry contents off them: the three shares of the input array join to
    the full share. -/
theorem join1 (V' : (c : Dev nD) → (b : Ref sig .tc) → Buf (Elt F) ((c : Thread nD τ).loc b)) (c : Dev nD)
    (hF : ∀ w, (dat1 V c).arrAt w cfg1.N = V' c (Pipeline.arrRef spec1 w))
    (hrest : ∀ b, b ∉ Finset.univ.image (Pipeline.arrRef spec1) → V' c b = V c b) :
    iprop((dat1 V c).arrays ((dat1 V c).arrAt · cfg1.N)
        ∗ Pipeline.unscopedRest (Ix := Unit) (Name := ℕ) (U := UR sig nD τ) (Lvl := ℕ) spec1 c (V c))
      ⊢ (unscopedBufs c (V' c) : sProp 𝕄) := by
  rw [unscopedBufs_split1, arrays1_eq]
  refine sep_mono ?_ (Entails.of_eq ?_)
  · rw [hF 0, hF 1, hF 2, hF 3]
    iintro ⟨Hl, Hrl, Hrr, H15⟩
    isplitr [H15]
    · iapply (pointsTo_share (PosShare.mem_left_op_right fullShare)).2
      isplitl [Hl]; · iexact Hl
      iapply (pointsTo_share (PosShare.mem_left_op_right fullShare.right)).2
      isplitl [Hrl]; · iexact Hrl
      iexact Hrr
    · iexact H15
  · unfold Pipeline.unscopedRest
    exact bigSep_congr fun b hb => by rw [hrest b (Finset.mem_sdiff.mp hb).2]

end Region1

end Cert.Kernel.Hand

end
-- ==== Proof.K.Region2.lean ====
/- REGION 2 of @main (custom_call 2, the out-projection): the frame half of pipeline 2 at the contents `V`
   its region is entered with. The body accumulates, over the four points of a row block, the products of the
   attention block and the weight block in a VMEM scratch (reset at the first point of the row block), and at the
   last point adds the bias and stores the output block. The scratch's contents after each point are stated by
   recursion on the point (`acc2`); the output window is idle at the points that do not store it. -/
import proofs.«160521_j42159398978166_2_alg».proof.Proof.Gen.Kernel.Launch
import proofs.«160521_j42159398978166_2_alg».proof.Proof.Gen.Kernel.Skeleton
import proofs.«160521_j42159398978166_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not, for any proof
    data whose array is `V`'s and whose body leaves the block in place (the windows are uncut and never idle). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's two conditions, in closed form over the grid -/

/-- The first conditional's condition (the scratch is reset), from the grid coordinates. -/
abbrev cond2_0 (i : grid2.Coords) : Prop := (Scalar.cmpi .ne (Scalar.extui (Scalar.cmpi .eq (BitVec.ofNat 32 (i 1).val) 0#32)) 0#32) = 1#1
/-- It holds at the points ≡ 0 (mod 4). -/
theorem hcond2_0 : ∀ t : Fin cfg2.N, cond2_0 (grid2.coords t) ↔ t.val % 4 = 0 :=
  (by decide +kernel : ∀ t : Fin grid2.N, cond2_0 (grid2.coords t) ↔ t.val % 4 = 0)

/-- The second conditional's condition (the output block is stored). -/
abbrev cond2_1 (i : grid2.Coords) : Prop := k2_cond2 i = 1#1
/-- It holds at the points ≡ 3 (mod 4). -/
theorem hcond2_1 : ∀ t : Fin cfg2.N, cond2_1 (grid2.coords t) ↔ t.val % 4 = 3 :=
  (by decide +kernel : ∀ t : Fin grid2.N, cond2_1 (grid2.coords t) ↔ t.val % 4 = 3)

/-! ## Where the windows are idle -/

theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
/-- Where the output block is not stored the output window is idle, and the pipeline does not write it back. -/
theorem idleAt2_3 : ∀ t : Fin cfg2.N, ¬cond2_1 (grid2.coords t) → cfg2.idle 3 (grid2.coords t) = true := by decide +kernel
theorem noFlush2_3 : ∀ t : Fin cfg2.N, ¬cond2_1 (grid2.coords t) → (cfg2.win 3).flush t = false := by decide +kernel
/-- Where it is stored the window is live. -/
theorem liveAt2_3 : ∀ t : Fin cfg2.N, cond2_1 (grid2.coords t) → cfg2.idle 3 (grid2.coords t) = false := by decide +kernel

/-! ## The body's accesses -/

theorem hz2 : (![0, 0] : Fin 2 → Nat) = fun _ => 0 := funext fun a => by fin_cases a <;> rfl

/-- A load through the whole-shape rectangle at zero offsets reads what the view reads. -/
theorem readAt_unit_zero {sg : RefSig} {κ : Kind} {sp : Space} {S : Shape} {e : EltTy} (v : View sg κ sp S e)
    (f : v.ty.Contents (Elt F)) {off : Fin S.rank → Nat} (h : off = fun _ => 0) (inb : ∀ a, off a + S.size a ≤ S.size a) :
    v.readAt (Elt F) (Rect.unit off S.size inb).toLoadRect f = v.read (Elt F) f :=
  (View.readAt_eq_ld v f _).trans (View.ld_unit_zero h inb _)

/-- What a buffer reads after stores the last of which is through the whole-shape rectangle: that store's payload. -/
theorem read_writes_cons_unit_zero {sg : RefSig} {κ : Kind} {sp : Space} {S : Shape} {e : EltTy} (v : View sg κ sp S e)
    (f : v.ty.Contents (Elt F)) {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩),
    View.canon_cons_unit_zero h inb]

/-- A load through the whole-shape rectangle after such stores reads the last store's payload. -/
theorem readCov_cons_unit_zero {sg : RefSig} {κ : Kind} {sp : Space} {S : Shape} {e : EltTy} (v : View sg κ sp S e)
    {off : Fin S.rank → Nat} (h : off = fun _ => 0) (inb : ∀ a, off a + S.size a ≤ S.size a)
    (w : S.Idx → Elt F e) (L : List (View.Piece (Elt F) S e)) :
    v.readCov ((⟨Rect.unit off S.size inb, w⟩ : View.Piece (Elt F) S e) :: L) (Rect.unit off S.size inb).toLoadRect = w := by
  rw [View.readCov_eq_canon_ld _ _ _ (fun y => ⟨_, List.mem_cons_self, View.mem_set_unit_zero h inb y⟩),
    View.canon_cons_unit_zero h inb, View.ld_unit_zero h inb]

/-! ## The body's triple, in each of the three cases the grid meets

On whole memrefs: the attention block at `x0`, the weight block at `x1`, the scratch at `a` (or at anything where the
body resets it), and where the output block is stored the bias block at `b` and the output buffer at anything. -/

set_option maxHeartbeats 1000000 in
/-- First point of a row block: the scratch is reset to zeros, then the product added. -/
theorem sound_kernel2_A (c : Dev nD) (E : Set ℕ) (i : grid2.Coords) (arg2 : Memref sig .tc .vmem S512x512 .bf16) (harg2 : arg2.IsWhole) (arg3 : Memref sig .tc .vmem S512x256 .bf16) (harg3 : arg3.IsWhole) (arg4 : Memref sig .tc .vmem S1x256 .f32) (harg4 : arg4.IsWhole) (arg5 : Memref sig .tc .vmem S512x256 .f32) (harg5 : arg5.IsWhole) (arg6 : Memref sig .tc .vmem S512x256 .f32) (harg6 : arg6.IsWhole)
    (hc0 : cond2_0 i) (hc1 : ¬cond2_1 i)
    (x0 : Vec F S512x512 .bf16) (x1 : Vec F S512x256 .bf16) (K : PUnit → sProp 𝕄) :
    iprop(owns (c : Thread nD τ) arg2 fullShare x0 ∗ owns (c : Thread nD τ) arg3 fullShare x1 ∗ (∃ d, owns (c : Thread nD τ) arg6 fullShare d)
        ∗ (iprop(owns (c : Thread nD τ) arg2 fullShare x0 ∗ owns (c : Thread nD τ) arg3 fullShare x1 ∗ owns (c : Thread nD τ) arg6 fullShare (k2_pay2 (k2_pay1 (F := F)) x0 x1)) -∗ K ⟨⟩))
      ⊢ wp frame (wpE (defs₀ (F := F)) Variants.none c none) E (cc2__lambda_ i arg2 harg2 arg3 harg3 arg4 harg4 arg5 harg5 arg6 harg6) K := by
  simp only [cc2__lambda__eq_skeleton]; unfold cc2__lambda__skel
  unfold owns
  iintro ⟨⟨%f0, %hf0, H0⟩, ⟨%f1, %hf1, H1⟩, ⟨%d, %fs, -, HS⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  rw [read_writes_cons_unit_zero _ _ hz2]; unfold sound_kernel2_A.sl.v3 sound_kernel2_A.sl.HS_1
  rw [readCov_cons_unit_zero _ hz2, readAt_unit_zero _ _ hz2, readAt_unit_zero _ _ hz2]

set_option maxHeartbeats 1000000 in
/-- A middle point of a row block: the product is added to the scratch. -/
theorem sound_kernel2_B (c : Dev nD) (E : Set ℕ) (i : grid2.Coords) (arg2 : Memref sig .tc .vmem S512x512 .bf16) (harg2 : arg2.IsWhole) (arg3 : Memref sig .tc .vmem S512x256 .bf16) (harg3 : arg3.IsWhole) (arg4 : Memref sig .tc .vmem S1x256 .f32) (harg4 : arg4.IsWhole) (arg5 : Memref sig .tc .vmem S512x256 .f32) (harg5 : arg5.IsWhole) (arg6 : Memref sig .tc .vmem S512x256 .f32) (harg6 : arg6.IsWhole)
    (hc0 : ¬cond2_0 i) (hc1 : ¬cond2_1 i)
    (x0 : Vec F S512x512 .bf16) (x1 : Vec F S512x256 .bf16) (a : Vec F S512x256 .f32) (K : PUnit → sProp 𝕄) :
    iprop(owns (c : Thread nD τ) arg2 fullShare x0 ∗ owns (c : Thread nD τ) arg3 fullShare x1 ∗ owns (c : Thread nD τ) arg6 fullShare a
        ∗ (iprop(owns (c : Thread nD τ) arg2 fullShare x0 ∗ owns (c : Thread nD τ) arg3 fullShare x1 ∗ owns (c : Thread nD τ) arg6 fullShare (k2_pay2 a x0 x1)) -∗ K ⟨⟩))
      ⊢ wp frame (wpE (defs₀ (F := F)) Variants.none c none) E (cc2__lambda_ i arg2 harg2 arg3 harg3 arg4 harg4 arg5 harg5 arg6 harg6) K := by
  simp only [cc2__lambda__eq_skeleton]; unfold cc2__lambda__skel
  unfold owns
  iintro ⟨⟨%f0, %hf0, H0⟩, ⟨%f1, %hf1, H1⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  rw [read_writes_cons_unit_zero _ _ hz2, readAt_unit_zero _ _ hz2, readAt_unit_zero _ _ hz2, readAt_unit_zero _ _ hz2]

set_option maxHeartbeats 1000000 in
/-- Last point of a row block: the product is added to the scratch, and the scratch plus the bias stored to the
    output buffer. -/
theorem sound_kernel2_C (c : Dev nD) (E : Set ℕ) (i : grid2.Coords) (arg2 : Memref sig .tc .vmem S512x512 .bf16) (harg2 : arg2.IsWhole) (arg3 : Memref sig .tc .vmem S512x256 .bf16) (harg3 : arg3.IsWhole) (arg4 : Memref sig .tc .vmem S1x256 .f32) (harg4 : arg4.IsWhole) (arg5 : Memref sig .tc .vmem S512x256 .f32) (harg5 : arg5.IsWhole) (arg6 : Memref sig .tc .vmem S512x256 .f32) (harg6 : arg6.IsWhole)
    (hc0 : ¬cond2_0 i) (hc1 : cond2_1 i)
    (x0 : Vec F S512x512 .bf16) (x1 : Vec F S512x256 .bf16) (b : Vec F S1x256 .f32) (a : Vec F S512x256 .f32) (K : PUnit → sProp 𝕄) :
    iprop(owns (c : Thread nD τ) arg2 fullShare x0 ∗ owns (c : Thread nD τ) arg3 fullShare x1 ∗ owns (c : Thread nD τ) arg4 fullShare b
        ∗ (∃ d, owns (c : Thread nD τ) arg5 fullShare d) ∗ owns (c : Thread nD τ) arg6 fullShare a
        ∗ (iprop(owns (c : Thread nD τ) arg2 fullShare x0 ∗ owns (c : Thread nD τ) arg3 fullShare x1 ∗ owns (c : Thread nD τ) arg4 fullShare b
            ∗ owns (c : Thread nD τ) arg5 fullShare (k2_pay3 (k2_pay2 a x0 x1) b) ∗ owns (c : Thread nD τ) arg6 fullShare (k2_pay2 a x0 x1)) -∗ K ⟨⟩))
      ⊢ wp frame (wpE (defs₀ (F := F)) Variants.none c none) E (cc2__lambda_ i arg2 harg2 arg3 harg3 arg4 harg4 arg5 harg5 arg6 harg6) K := by
  simp only [cc2__lambda__eq_skeleton]; unfold cc2__lambda__skel
  unfold owns
  iintro ⟨⟨%f0, %hf0, H0⟩, ⟨%f1, %hf1, H1⟩, ⟨%f2, %hf2, H2⟩, ⟨%d3, %f3, -, H3⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [read_writes_cons_unit_zero _ _ hz2]; unfold sound_kernel2_C.sl.v16 sound_kernel2_C.sl.HS_1
    rw [readCov_cons_unit_zero _ hz2, readAt_unit_zero _ _ hz2, readAt_unit_zero _ _ hz2, readAt_unit_zero _ _ hz2, readAt_unit_zero _ _ hz2]
  iexists _; isplitr
  swap; · iexact HS
  ipureintro
  unfold sound_kernel2_C.sl.HS_1
  rw [read_writes_cons_unit_zero _ _ hz2, readAt_unit_zero _ _ hz2, readAt_unit_zero _ _ hz2, readAt_unit_zero _ _ hz2]

/-! ## The scratch, point by point -/

/-- The scratch operand: a whole scoped buffer of the kernel's own, passed beside the windows. -/
abbrev scM2 : Memref sig .tc .vmem S512x256 .f32 := Memref.whole cc2_scratch0

/-- THE ACCUMULATION. What the scratch holds after the body at position `n`: at the first point of a row block
    (`n ≡ 0 mod 4`) the product of the point's blocks added to zeros, at the others added to what the point before left. -/
def acc2 (c : Dev nD) : (n : ℕ) → n < cfg2.N → Vec F S512x256 .f32
  | 0, hn => k2_pay2 (k2_pay1 (F := F)) (iblk2 V c 0 ⟨0, hn⟩) (iblk2 V c 1 ⟨0, hn⟩)
  | n + 1, hn =>
    if (n + 1) % 4 = 0 then k2_pay2 (k2_pay1 (F := F)) (iblk2 V c 0 ⟨n + 1, hn⟩) (iblk2 V c 1 ⟨n + 1, hn⟩)
    else k2_pay2 (acc2 c n (Nat.lt_of_succ_lt hn)) (iblk2 V c 0 ⟨n + 1, hn⟩) (iblk2 V c 1 ⟨n + 1, hn⟩)

/-- At the first point of a row block. -/
theorem acc2_reset (c : Dev nD) (n : ℕ) (hn : n < cfg2.N) (h : n % 4 = 0) :
    acc2 V c n hn = k2_pay2 (k2_pay1 (F := F)) (iblk2 V c 0 ⟨n, hn⟩) (iblk2 V c 1 ⟨n, hn⟩) := by
  cases n with
  | zero => rfl
  | succ n => exact if_pos h

/-- At any other point. -/
theorem acc2_step (c : Dev nD) (n : ℕ) (hn : n + 1 < cfg2.N) (h : ¬(n + 1) % 4 = 0) :
    acc2 V c (n + 1) hn = k2_pay2 (acc2 V c n (Nat.lt_of_succ_lt hn)) (iblk2 V c 0 ⟨n + 1, hn⟩) (iblk2 V c 1 ⟨n + 1, hn⟩) :=
  if_neg h

/-- The same two at a point of the grid. -/
theorem acc2_reset_at (c : Dev nD) (t : Fin cfg2.N) (h : t.val % 4 = 0) :
    acc2 V c t.val t.isLt = k2_pay2 (k2_pay1 (F := F)) (iblk2 V c 0 t) (iblk2 V c 1 t) :=
  acc2_reset V c t.val t.isLt h

theorem acc2_step_at (c : Dev nD) (t : Fin cfg2.N) (h : ¬t.val % 4 = 0) :
    acc2 V c t.val t.isLt = k2_pay2 (acc2 V c (t.val - 1) (Nat.lt_of_le_of_lt (Nat.sub_le _ _) t.isLt)) (iblk2 V c 0 t) (iblk2 V c 1 t) := by
  obtain ⟨n, hn⟩ := t
  cases n with
  | zero => exact absurd (Nat.zero_mod _) h
  | succ n => exact if_neg h

/-! ## The region invariant -/

/-- The core's scoped buffers that are neither a staging buffer of this pipeline nor its scratch, at some contents. -/
abbrev rest2 (c : Dev nD) : sProp 𝕄 :=
  Pipeline.scopedRestBut (Ix := Unit) (Name := ℕ) (U := UR sig nD τ) (Lvl := ℕ) (Val := Elt F) spec2 c [cc2_scratch0]

/-- The invariant before position `n`: before the first point the scratch at anything, afterwards at what the point
    before left in it; the other scoped buffers at anything and the generator register at some state. -/
def Phi2 (c : Dev nD) : (n : ℕ) → n ≤ cfg2.N → sProp 𝕄
  | 0, _ => iprop((∃ d, owns (c : Thread nD τ) scM2 fullShare d) ∗ rest2 (F := F) c ∗ (∃ r, prngReg c r))
  | n + 1, hn => iprop(owns (c : Thread nD τ) scM2 fullShare (acc2 V c n hn) ∗ rest2 (F := F) c ∗ (∃ r, prngReg c r))

theorem Phi2_zero (c : Dev nD) (n : ℕ) (h : n ≤ cfg2.N) (hz : n = 0) :
    Phi2 V c n h = iprop((∃ d, owns (c : Thread nD τ) scM2 fullShare d) ∗ rest2 (F := F) c ∗ (∃ r, prngReg c r)) := by
  subst hz; rfl

theorem Phi2_succ (c : Dev nD) (n : ℕ) (hn : n < cfg2.N) :
    Phi2 V c (n + 1) hn = iprop(owns (c : Thread nD τ) scM2 fullShare (acc2 V c n hn) ∗ rest2 (F := F) c ∗ (∃ r, prngReg c r)) := rfl

theorem Phi2_pos (c : Dev nD) (n : ℕ) (h : n ≤ cfg2.N) (hz : n ≠ 0) :
    Phi2 V c n h = iprop(owns (c : Thread nD τ) scM2 fullShare (acc2 V c (n - 1) (by omega)) ∗ rest2 (F := F) c ∗ (∃ r, prngReg c r)) := by
  cases n with
  | zero => exact absurd rfl hz
  | succ n => rfl

/-- At any position the invariant gives the scratch at some contents: its named contents are forgotten. -/
theorem Phi2_forget (c : Dev nD) (n : ℕ) (h : n ≤ cfg2.N) :
    Phi2 V c n h ⊢ iprop((∃ d, owns (c : Thread nD τ) scM2 fullShare d) ∗ rest2 (F := F) c ∗ (∃ r, prngReg c r)) := by
  cases n with
  | zero => exact Idealize.SL.BI.Entails.refl _
  | succ n =>
    rw [Phi2_succ]
    iintro ⟨HS, Hr, Hg⟩
    isplitl [HS]; · iexists _; iexact HS
    isplitl [Hr]; · iexact Hr
    iexact Hg

/-- The scoped rest of this pipeline: its scratch, and the others. -/
theorem scopedRest2_split (c : Dev nD) :
    (Pipeline.scopedRest (Ix := Unit) (Name := ℕ) (U := UR sig nD τ) (Lvl := ℕ) (Val := Elt F) spec2 c : sProp 𝕄)
      = iprop((∃ d, owns (c : Thread nD τ) scM2 fullShare d) ∗ rest2 (F := F) c) := by
  rw [Pipeline.scopedRest_split_of_list spec2 c [cc2_scratch0] (by decide) (by decide)]
  simp only [Idealize.SL.BI.bigSepL_singleton, scM2, owns_whole]; try rfl

/-! ## The pipeline's proof data -/

/-- The proof data of pipeline 2 on core `c`: the arrays as the region finds them; after the body each input's buffer
    at its block and the output's at the scratch after the point plus the bias block (what the body stores at the last
    point of a row block; the window is idle at the other points); the invariant `Phi2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => k2_pay3 (acc2 V c t.val t.isLt) (iblk2 V c 2 t)
  Φ t := Phi2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem Phi2_castSucc (c : Dev nD) (t : Fin cfg2.N) :
    (dat2 V c).Φ t.castSucc = Phi2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = k2_pay3 (acc2 V c t.val t.isLt) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t` (the body obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point: the inputs' memrefs hold their blocks; the closed forms say which case the point is in; the
    invariant hands the body the scratch at what the point before left (at anything where the body resets it) and
    takes it back at this point's contents; where the output block is not stored its buffer is handed back as found. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = Phi2 V c (t.val + 1) t.isLt from rfl, Phi2_succ]
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t], after2_1]
  rw [show (dat2 V c).leavesExact 2 t = owns (c : Thread nD τ) (st2_2 t) fullShare ((dat2 V c).after 2 t) from by
    unfold Dat.leavesExact; rw [liveAt2_2 t], after2_2]
  have hN : t.val < 32 := lt_of_lt_of_eq t.isLt (show cfg2.N = 32 from N_2)
  by_cases h0 : t.val % 4 = 0
  · have h1 : ¬t.val % 4 = 3 := by omega
    rw [Dat.leavesExact_idle (dat2 V c) 3 t (idleAt2_3 t (fun h => h1 ((hcond2_1 t).mp h))) (noFlush2_3 t (fun h => h1 ((hcond2_1 t).mp h)))]
    rw [acc2_reset_at V c t h0, Phi2_castSucc V c t]
    iintro ⟨HΦ, Ho, ⟨%d0, H0⟩, ⟨%d1, H1⟩, ⟨%d2, H2⟩, ⟨%d3, H3⟩⟩
    ihave HΦ' := (Phi2_forget V c t.val (Nat.le_of_lt t.isLt)) $$ HΦ
    icases HΦ' with ⟨HS, Hr, Hg⟩
    iapply (sound_kernel2_A c Set.univ (grid2.coords t) _ _ _ _ _ _ _ _ _ _ ((hcond2_0 t).mpr h0) (fun h => h1 ((hcond2_1 t).mp h)) (iblk2 V c 0 t) (iblk2 V c 1 t) _)
    isplitl [H0]; · iexact H0
    isplitl [H1]; · iexact H1
    isplitl [HS]; · iexact HS
    iintro ⟨H0, H1, HS⟩
    isplitl [HS Hr Hg]
    · isplitl [HS]; · iexact HS
      isplitl [Hr]; · iexact Hr
      iexact Hg
    isplitl [Ho]; · iexact Ho
    isplitl [H0]; · iexact H0
    isplitl [H1]; · iexact H1
    isplitl [H2]; · iexact H2
    iexists _; iexact H3
  · have hz : t.val ≠ 0 := fun e => h0 (by rw [e])
    rw [acc2_step_at V c t h0, Phi2_castSucc V c t, Phi2_pos V c _ _ hz]
    by_cases h1 : t.val % 4 = 3
    · rw [show (dat2 V c).leavesExact 3 t = owns (c : Thread nD τ) (st2_3 t) fullShare ((dat2 V c).after 3 t) from by
        unfold Dat.leavesExact; rw [liveAt2_3 t ((hcond2_1 t).mpr h1)], after2_3, acc2_step_at V c t h0]
      iintro ⟨⟨HS, Hr, Hg⟩, Ho, ⟨%d0, H0⟩, ⟨%d1, H1⟩, ⟨%d2, H2⟩, ⟨%d3, H3⟩⟩
      iapply (sound_kernel2_C c Set.univ (grid2.coords t) _ _ _ _ _ _ _ _ _ _ (fun h => h0 ((hcond2_0 t).mp h)) ((hcond2_1 t).mpr h1) (iblk2 V c 0 t) (iblk2 V c 1 t) (iblk2 V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      iexact H3
    · rw [Dat.leavesExact_idle (dat2 V c) 3 t (idleAt2_3 t (fun h => h1 ((hcond2_1 t).mp h))) (noFlush2_3 t (fun h => h1 ((hcond2_1 t).mp h)))]
      iintro ⟨⟨HS, Hr, Hg⟩, Ho, ⟨%d0, H0⟩, ⟨%d1, H1⟩, ⟨%d2, H2⟩, ⟨%d3, H3⟩⟩
      iapply (sound_kernel2_B c Set.univ (grid2.coords t) _ _ _ _ _ _ _ _ _ _ (fun h => h0 ((hcond2_0 t).mp h)) (fun h => h1 ((hcond2_1 t).mp h)) (iblk2 V c 0 t) (iblk2 V c 1 t) _ _)
      isplitl [H0]; · iexact H0
      isplitl [H1]; · iexact H1
      isplitl [HS]; · iexact HS
      iintro ⟨H0, H1, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! ## Into the invariant and out of it -/

/-- The generator register and the scoped rest, as the region is entered with them, are the invariant before the
    first point. -/
theorem hin2 (c : Dev nD) :
    iprop((∃ r, prngReg c r) ∗ Pipeline.scopedRest (Ix := Unit) (Name := ℕ) (U := UR sig nD τ) (Lvl := ℕ) (Val := Elt F) spec2 c)
      ⊢ ((dat2 V c).Φ 0 : sProp 𝕄) := by
  rw [show (dat2 V c).Φ 0 = Phi2 V c 0 (Nat.zero_le _) from rfl, Phi2_zero V c 0 _ rfl, scopedRest2_split]
  iintro ⟨Hg, HS, Hr⟩
  isplitl [HS]; · iexact HS
  isplitl [Hr]; · iexact Hr
  iexact Hg

/-- After the last point the invariant gives them back: the scratch's named contents are forgotten. -/
theorem hout2 (c : Dev nD) :
    ((dat2 V c).Φ (Fin.last cfg2.N) : sProp 𝕄)
      ⊢ iprop((∃ r, prngReg c r) ∗ Pipeline.scopedRest (Ix := Unit) (Name := ℕ) (U := UR sig nD τ) (Lvl := ℕ) (Val := Elt F) spec2 c) := by
  rw [show (dat2 V c).Φ (Fin.last cfg2.N) = Phi2 V c (Fin.last cfg2.N).val (Nat.le_of_lt_succ (Fin.last cfg2.N).isLt) from rfl, scopedRest2_split]
  iintro HΦ
  ihave HΦ' := (Phi2_forget V c _ _) $$ HΦ
  icases HΦ' with ⟨HS, Hr, Hg⟩
  isplitl [Hg]; · iexact Hg
  isplitl [HS]; · iexact HS
  iexact Hr

/-! ## What the output window's buffer holds where it is written back -/

/-- At the last point `m + 3` of a row block (`m ≡ 0 mod 4`) the output buffer holds the four products of the row
    block's points added, in point order, to zeros, plus the bias block. -/
theorem after2_3_value (c : Dev nD) (m : ℕ) (hm : m + 3 < cfg2.N) (h : m % 4 = 0) :
    (dat2 V c).after 3 ⟨m + 3, hm⟩
      = k2_pay3 (k2_pay2 (k2_pay2 (k2_pay2 (k2_pay2 (k2_pay1 (F := F))
            (iblk2 V c 0 ⟨m, by omega⟩) (iblk2 V c 1 ⟨m, by omega⟩))
            (iblk2 V c 0 ⟨m + 1, by omega⟩) (iblk2 V c 1 ⟨m + 1, by omega⟩))
            (iblk2 V c 0 ⟨m + 2, by omega⟩) (iblk2 V c 1 ⟨m + 2, by omega⟩))
            (iblk2 V c 0 ⟨m + 3, hm⟩) (iblk2 V c 1 ⟨m + 3, hm⟩))
          (iblk2 V c 2 ⟨m + 3, hm⟩) := by
  rw [after2_3]
  show k2_pay3 (acc2 V c (m + 3) hm) _ = _
  rw [acc2_step V c (m + 2) hm (by omega), acc2_step V c (m + 1) (by omega) (by omega),
    acc2_step V c m (by omega) (by omega), acc2_reset V c m (by omega) h]

end Region2

end Cert.Kernel.Hand

end
-- ==== Proof.K.Run.lean ====
/- The whole program as a run. @main is: sixteen host operations (the activations flattened, the three weight
   matrices transposed, two of them scaled by 1/4, and fused; the output weights transposed; the bias made a row), the
   projection kernel, the attention kernel, the output-projection kernel, one host reshape. The buffers' contents
   are followed from boundary to boundary: after a host stretch they are the stretch's operations applied; after a
   kernel region the region's output array holds what the grid's write-backs leave and every other buffer is
   unchanged (the attention kernel reads one array through three windows, each at its own share of it, and writes
   another). Every weakly fair execution then terminates without a fault with the result array at the last
   boundary's contents and the six argument arrays as launched. -/
import proofs.«160521_j42159398978166_2_alg».proof.Proof.K.Region0
import proofs.«160521_j42159398978166_2_alg».proof.Proof.K.Region1
import proofs.«160521_j42159398978166_2_alg».proof.Proof.K.Region2
import proofs.«160521_j42159398978166_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary of @main -/

abbrev W0 : Dev nD → Valuation τ sig (Elt F) := fun c b => (s₀ m ρ).mem ((c : Dev nD), b)
abbrev W1 : Dev nD → Valuation τ sig (Elt F) := fun c => StableHlo.after hostOps0 (W0 m ρ c)
abbrev Vb1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (Vb1 m ρ) c).arrAt w cfg0.N
theorem W2_arr (c : Dev nD) (w : Fin cfg0.W) :
    W2 m ρ c (Proc.devRef .tc (Pipeline.arrRef spec0 w)) = (dat0 (Vb1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev Vb2 : (c : Dev nD) → (b : Ref sig .tc) → Buf (Elt F) ((c : Thread nD τ).loc b) := fun c b => W2 m ρ c b
theorem hF0 (c : Dev nD) (w : Fin cfg0.W) : (dat0 (Vb1 m ρ) c).arrAt w cfg0.N = Vb2 m ρ c (Pipeline.arrRef spec0 w) :=
  (W2_arr m ρ c w).symm
theorem hrest0 (c : Dev nD) : ∀ b, b ∉ Finset.univ.image (Pipeline.arrRef spec0) → Vb2 m ρ c b = Vb1 m ρ c b :=
  fun b hb => W2_of_ne m ρ c b fun w e => hb (Finset.mem_image.mpr ⟨w, Finset.mem_univ _, e⟩)

/-- After region 1: only the attention output's array has changed (the three input windows read one array). -/
def W3 (c : Dev nD) : Valuation τ sig (Elt F) :=
  Function.update (W2 m ρ c) (Proc.devRef .tc main_v15) ((dat1 (Vb2 m ρ) c).arrAt 3 cfg1.N)
abbrev Vb3 : (c : Dev nD) → (b : Ref sig .tc) → Buf (Elt F) ((c : Thread nD τ).loc b) := fun c b => W3 m ρ c b
theorem W3_out (c : Dev nD) : W3 m ρ c (Proc.devRef .tc main_v15) = (dat1 (Vb2 m ρ) c).arrAt 3 cfg1.N := by
  unfold W3; exact Function.update_self ..
theorem W3_of_ne (c : Dev nD) (b : Ref sig .tc) (hb : b ≠ main_v15) :
    W3 m ρ c (Proc.devRef .tc b) = W2 m ρ c (Proc.devRef .tc b) := by
  unfold W3; exact Function.update_of_ne (StableHlo.devRef_ne_of_ne hb) ..

def W4 (c : Dev nD) : Valuation τ sig (Elt F) :=
  Pipeline.withArrays spec2 c (W3 m ρ c) fun w => (dat2 (Vb3 m ρ) c).arrAt w cfg2.N
theorem W4_arr (c : Dev nD) (w : Fin cfg2.W) :
    W4 m ρ c (Proc.devRef .tc (Pipeline.arrRef spec2 w)) = (dat2 (Vb3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
abbrev Vb4 : (c : Dev nD) → (b : Ref sig .tc) → Buf (Elt F) ((c : Thread nD τ).loc b) := fun c b => W4 m ρ c b
theorem hF2 (c : Dev nD) (w : Fin cfg2.W) : (dat2 (Vb3 m ρ) c).arrAt w cfg2.N = Vb4 m ρ c (Pipeline.arrRef spec2 w) :=
  (W4_arr m ρ c w).symm
theorem hrest2 (c : Dev nD) : ∀ b, b ∉ Finset.univ.image (Pipeline.arrRef spec2) → Vb4 m ρ c b = Vb3 m ρ c b :=
  fun b hb => W4_of_ne m ρ c b fun w e => hb (Finset.mem_image.mpr ⟨w, Finset.mem_univ _, e⟩)
abbrev W5 : Dev nD → Valuation τ sig (Elt F) := fun c => StableHlo.after hostOps3 (W4 m ρ c)

theorem hF1 (c : Dev nD) (w : Fin cfg1.W) : (dat1 (Vb2 m ρ) c).arrAt w cfg1.N = Vb3 m ρ c (Pipeline.arrRef spec1 w) := by
  match w with
  | ⟨0, _⟩ => exact (((dat1 (Vb2 m ρ) c).arrAt_in 0 rfl _).trans (A_eq1 (Vb2 m ρ) c 0)).trans (W3_of_ne m ρ c main_v14 (by decide)).symm
  | ⟨1, _⟩ => exact (((dat1 (Vb2 m ρ) c).arrAt_in 1 rfl _).trans (A_eq1 (Vb2 m ρ) c 1)).trans (W3_of_ne m ρ c main_v14 (by decide)).symm
  | ⟨2, _⟩ => exact (((dat1 (Vb2 m ρ) c).arrAt_in 2 rfl _).trans (A_eq1 (Vb2 m ρ) c 2)).trans (W3_of_ne m ρ c main_v14 (by decide)).symm
  | ⟨3, _⟩ => exact (W3_out m ρ c).symm
theorem hrest1 (c : Dev nD) : ∀ b, b ∉ Finset.univ.image (Pipeline.arrRef spec1) → Vb3 m ρ c b = Vb2 m ρ c b :=
  fun b hb => W3_of_ne m ρ c b fun e => hb (Finset.mem_image.mpr ⟨3, Finset.mem_univ _, e.symm⟩)

/-! ## The proof data family and the thread state -/

abbrev admH : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) admH p) c
  | ⟨0, _⟩ => fun c => dat0 (Vb1 m ρ) c
  | ⟨1, _⟩ => fun c => dat1 (Vb2 m ρ) c
  | ⟨2, _⟩ => fun c => dat2 (Vb3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
def reg0 : Pipeline.RegionSeg (pcfgs (F := F)) admH (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vb1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (Vb1 m ρ c)
  hentry c := by
    rw [Pipeline.ownSems0_none]
    have hsplit := Pipeline.arrays_of_unscopedBufs (p := 0) (pcfgs (F := F)) admH (pdats m ρ) launch0.win launch0.arr_whole c
      ((pdats m ρ 0 c).share_full fun _ => rfl) (Vb1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m ρ) ((pdats m ρ 0 c).share_full fun _ => rfl)
      (Vb1 m ρ c) (Vb2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) admH (pdats m ρ) () defs₀ 𝒱₀ L lv 1 where
  win := winFacts₀1
  block_pos := block_pos1
  stage_whole := stage_whole1
  K := PEmpty
  osem k := k.elim
  ho := Pipeline.OwnSemFacts.none _
  hbody c := (body_obligation1 (Vb2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (Vb2 m ρ c)
  hentry c := by
    rw [Pipeline.ownSems0_none]
    have hsplit := split1 (Vb2 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N) ∗ Pipeline.unscopedRest (Ix := Unit) (Name := ℕ) (U := UR sig nD τ) (Lvl := ℕ) spec1 c (Vb2 m ρ c))
        ⊢ (unscopedBufs c (Vb3 m ρ c) : sProp 𝕄) := join1 (Vb2 m ρ) (Vb3 m ρ) c (hF1 m ρ c) (hrest1 m ρ c)
    rw [Pipeline.unscopedBufs_held] at hjoin
    iintro ⟨Ha, HO, HY, Hrest⟩
    imodintro
    isplitl [Ha Hrest]
    · iapply hjoin; isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) admH (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vb3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (Vb3 m ρ c)
  hentry c := by
    rw [Pipeline.ownSems0_none]
    have hsplit := Pipeline.arrays_of_unscopedBufs (p := 2) (pcfgs (F := F)) admH (pdats m ρ) launch2.win launch2.arr_whole c
      ((pdats m ρ 2 c).share_full fun _ => rfl) (Vb3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin2 (Vb3 m ρ) c)
    iintro ⟨Hp, -, Hr⟩
    isplitl [Hp]; · iexact Hp
    iexact Hr
  hout c := by
    rw [Pipeline.ownSems0_none]
    refine (hout2 (Vb3 m ρ) c).trans ?_
    iintro ⟨Hp, Hr⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdats m ρ) ((pdats m ρ 2 c).share_full fun _ => rfl)
      (Vb3 m ρ c) (Vb4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The arguments end as launched -/
theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps3 _ hostOps3_writes (by decide)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps3 _ hostOps3_writes (by decide)
    _ = W3 m ρ c (Proc.devRef .tc main_arg1) := W4_of_ne m ρ c main_arg1 (by decide)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_writes_sub hostOps3 _ hostOps3_writes (by decide)
    _ = W3 m ρ c (Proc.devRef .tc main_arg2) := W4_of_ne m ρ c main_arg2 (by decide)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl
theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_writes_sub hostOps3 _ hostOps3_writes (by decide)
    _ = W3 m ρ c (Proc.devRef .tc main_arg3) := W4_of_ne m ρ c main_arg3 (by decide)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl
theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := StableHlo.after_of_writes_sub hostOps3 _ hostOps3_writes (by decide)
    _ = W3 m ρ c (Proc.devRef .tc main_arg4) := W4_of_ne m ρ c main_arg4 (by decide)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl
theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := StableHlo.after_of_writes_sub hostOps3 _ hostOps3_writes (by decide)
    _ = W3 m ρ c (Proc.devRef .tc main_arg5) := W4_of_ne m ρ c main_arg5 (by decide)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

/-! ## @main as segments, and the run -/

abbrev segsH : List (Pipeline.Seg (pcfgs (F := F)) admH (pdats m ρ) () defs₀ 𝒱₀ L lv) :=
  [ .host (hseg hostOps0 hostOps0_sub hostOps0_fresh (W0 m ρ)),
    .region (reg0 m ρ),
    .region (reg1 m ρ),
    .region (reg2 m ρ),
    .host (hseg hostOps3 hostOps3_sub hostOps3_fresh (W4 m ρ)) ]
theorem main_run (c : Dev nD) : main (F := F) c = Pipeline.Seg.run (segsH m ρ) := (main_chain c).trans (by chain_rfl)

set_option backward.isDefEq.respectTransparency.types false in
/-- Every weakly fair execution of the program from memory `m` ends, without a fault, with the result array at the
    last boundary's contents and every argument array as launched. -/
theorem run : θ_run defs (onTc (τ := τ) (main (F := F))) ⟨m, fun _ => 0, ρ⟩ (fun r => ∀ c : Dev nD,
      r.2.mem ((c.tc : Thread nD τ).loc main_v17) = W5 m ρ c (Proc.devRef .tc main_v17)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) admH (pdats m ρ) () cellOf_inj emb₁ defs₀ 𝒱₀ L lv m ρ main (segsH m ρ)
    (fun c Q => by rw [main_run m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      refine (show iprop(StableHlo.held (c : Thread nD τ) (Pipeline.ucRefs τ sig) (W5 m ρ c) ∗ R c) ⊢ _ from ?_)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v17 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c)⟩)

end Cert.Kernel.Hand

end
-- ==== Proof.KI.Region0.lean ====
/- Region 0 of the program: the fused query/key/value projection. At grid point (i, j) the kernel multiplies the
   512-row block i of the activations [4096, 256] by the 1024-column block j of the fused weights [256, 6144] and
   stores the 512 x 1024 product as block (i, j) of the projection [4096, 6144]. Stated at the contents `V` the
   buffers hold when the region is entered: each window's block at a point, what the body leaves in the output's
   buffer (its one store, over the two loaded blocks), the body's triple, the proof data of the pipeline, and the body
   obligation at every point. -/
import proofs.«160521_j42159398978166_2_alg».proof.Proof.Gen.KernelIdeal.Launch
import proofs.«160521_j42159398978166_2_alg».proof.Proof.Gen.KernelIdeal.Skeleton
import proofs.«160521_j42159398978166_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' buffer holds row block i at every point, fetched there or not (the block index moves only when
    i does). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weights' buffer holds column block j at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the store go through the whole buffer -/

abbrev rA0 : Rect S512x256 := Rect.unit (s := S512x256) ![0, 0] S512x256.size inb_S512x256_S512x256_0_0
abbrev rB0 : Rect S256x1024 := Rect.unit (s := S256x1024) ![0, 0] S256x1024.size inb_S256x1024_S256x1024_0_0
abbrev rC0 : Rect S512x1024 := Rect.unit (s := S512x1024) ![0, 0] S512x1024.size inb_S512x1024_S512x1024_0_0

/-- The output's buffer after the body: the product of the two loaded blocks, stored through the whole buffer. -/
def out0_2 (x0 : Vec F S512x256 .bf16) (x1 : Vec F S256x1024 .bf16) : Vec F S512x1024 .bf16 :=
  View.canon [⟨rC0, k0_pay1 (View.ld x0 rA0) (View.ld x1 rB0)⟩]

/-- The one store covers the buffer. -/
theorem cover0_2 (p0 : Vec F S512x1024 .bf16) (y : S512x1024.Idx) :
    ∃ pc ∈ ([⟨rC0, p0⟩] : List (View.Piece (Elt F) S512x1024 .bf16)), y ∈ pc.1.set :=
  View.cover_of_tiled [⟨rC0, p0⟩] S512x1024.size (by rfl) y

/-! ## The body's triple -/

set_option maxHeartbeats 1000000 in
/-- On whole staging memrefs, the two inputs' at read contents `x0`, `x1` and the output's at anything, the body runs to
    the continuation with the inputs as they were and the output at the product. -/
theorem sound_kernel0 (c : Dev nD) (E : Set ℕ) (i : grid0.Coords)
    (arg2 : Memref sig .tc .vmem S512x256 .bf16) (harg2 : arg2.IsWhole) (arg3 : Memref sig .tc .vmem S256x1024 .bf16) (harg3 : arg3.IsWhole)
    (arg4 : Memref sig .tc .vmem S512x1024 .bf16) (harg4 : arg4.IsWhole)
    (x0 : Vec F S512x256 .bf16) (x1 : Vec F S256x1024 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (out0_2 x0 x1)) -∗ K ⟨⟩))
      ⊢ wp frame (wpE (defs₀ (F := F)) Variants.none c none) E (cc0__linear_nk1_kernel i arg2 harg2 arg3 harg3 arg4 harg4) K := by
  simp only [cc0__linear_nk1_kernel_eq_skeleton]; unfold cc0__linear_nk1_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The arrays as the region finds them; after the body at point `t` each input's buffer at its block and the
    output's at the product of the two blocks; the invariant is the scoped rest and the generator register,
    untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region1.lean ====
import proofs.«160521_j42159398978166_2_alg».proof.Proof.Gen.KernelIdeal.Launch
import proofs.«160521_j42159398978166_2_alg».proof.Proof.Gen.KernelIdeal.Skeleton
import proofs.«160521_j42159398978166_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 1 of @main: the attention kernel (custom_call 1, pipeline 1), at the entry contents V

The region's four windows: the query tile (window 0), the key rows (window 1) and the value rows (window 2), all
three read off ONE array, and the output tile (window 3) on an array of its own. The body loads the three input
buffers whole and stores one payload over the whole output buffer, so what it leaves there is a closed function of
the three input blocks. The shared array is held by the three input windows at three shares that compose to the
full share; it is split among them when the region is entered and joined back when it is left. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when the region is entered
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (an unfetched
    window's block index has not moved since the last fetch), for any proof data whose array is the entry contents
    and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S512x256 := Rect.unit (s := S512x256) ![0, 0] S512x256.size inb_S512x256_S512x256_0_0
abbrev r1_1 : Rect S2048x256 := Rect.unit (s := S2048x256) ![0, 0] S2048x256.size inb_S2048x256_S2048x256_0_0

/-! ## What the body leaves in the output window's buffer -/

/-- Window 3's staging buffer after the body, from the three input blocks: its one store as a piece. -/
def out1_3 (x0 : Vec F S512x256 .bf16) (x1 x2 : Vec F S2048x256 .bf16) : Vec F S512x256 .bf16 :=
  View.canon [⟨r1_0, k1_pay1 (View.ld x0 r1_0) (View.ld x1 r1_1) (View.ld x2 r1_1)⟩]

/-- The store's rectangle is the whole buffer, so it covers it. -/
theorem cover1_3 (p0 : Vec F S512x256 .bf16) (y : S512x256.Idx) :
    ∃ pc ∈ ([⟨r1_0, p0⟩] : List (View.Piece (Elt F) S512x256 .bf16)), y ∈ pc.1.set :=
  View.cover_of_tiled [⟨r1_0, p0⟩] S512x256.size (by rfl) y

/-! ## The body's triple -/

set_option maxHeartbeats 1000000 in
/-- The kernel body on whole staging memrefs, the inputs' at read contents x0, x1, x2 and the output's at anything,
    runs to the continuation holding the inputs' as they were and the output's at out1_3 of the inputs'. -/
theorem sound_kernel1 (c : Dev nD) (E : Set ℕ) (i : grid1.Coords)
    (arg0 : Memref sig .tc .vmem S512x256 .bf16) (harg0 : arg0.IsWhole)
    (arg1 : Memref sig .tc .vmem S2048x256 .bf16) (harg1 : arg1.IsWhole)
    (arg2 : Memref sig .tc .vmem S2048x256 .bf16) (harg2 : arg2.IsWhole)
    (arg3 : Memref sig .tc .vmem S512x256 .bf16) (harg3 : arg3.IsWhole)
    (x0 : Vec F S512x256 .bf16) (x1 x2 : Vec F S2048x256 .bf16) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out1_3 x0 x1 x2)) -∗ K ⟨⟩))
      ⊢ wp frame (wpE (defs₀ (F := F)) Variants.none c none) E (cc1__attn_kernel i arg0 harg0 arg1 harg1 arg2 harg2 arg3 harg3) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The shares the three input windows hold their common array at: the left half of the full share, and the two
    halves of its right half; they compose to the full share. The output window's entry is unread (an output's
    array is held at the full share). -/
def q1 : Fin cfg1.W → PosShare TreeShare
  | ⟨0, _⟩ => fullShare.left
  | ⟨1, _⟩ => fullShare.right.left
  | ⟨2, _⟩ => fullShare.right.right
  | _ => fullShare

/-- The proof data of pipeline 1 on core c: the arrays as the region finds them; after the body at point t each
    input's buffer at its block and the output's at out1_3 of the three input blocks; the invariant the scoped rest
    and the generator register, untouched; nothing owed; the shared array dealt among the input windows by q1. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q := q1
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the kernel's triple applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The shared array: dealt among the three input windows at entry, joined back at exit -/

/-- The distinct buffers behind the region's arrays are two: the array the three input windows read and the
    output window's. -/
theorem arrBufs1_eq (c : Dev nD) (V₀ : (b : Ref sig .tc) → Buf (Elt F) ((c : Thread nD τ).loc b)) :
    (Pipeline.arrBufs (Ix := Unit) (Name := ℕ) (U := UR sig nD τ) (Lvl := ℕ) spec1 c V₀ : sProp 𝕄)
      = iprop((((c : Thread nD τ).loc main_v14) ↦{fullShare} V₀ main_v14) ∗ (((c : Thread nD τ).loc main_v15) ↦{fullShare} V₀ main_v15)) := by
  unfold Pipeline.arrBufs
  exact bigSep_eq_bigSepL_of_eq [main_v14, main_v15] (by decide) (by decide) _

/-- The core's unscoped buffers are those two and the rest. -/
theorem unscopedBufs_split1 (c : Dev nD) (V₀ : (b : Ref sig .tc) → Buf (Elt F) ((c : Thread nD τ).loc b)) :
    (unscopedBufs c V₀ : sProp 𝕄)
      = iprop(((((c : Thread nD τ).loc main_v14) ↦{fullShare} V₀ main_v14) ∗ (((c : Thread nD τ).loc main_v15) ↦{fullShare} V₀ main_v15))
          ∗ Pipeline.unscopedRest (Ix := Unit) (Name := ℕ) (U := UR sig nD τ) (Lvl := ℕ) spec1 c V₀) := by
  rw [← arrBufs1_eq]
  exact Pipeline.unscopedBufs_split₀ cfgs 1 winFacts₀1.arr_unscoped c V₀

/-- The shares the proof data hold the arrays at. -/
theorem share1_0 (c : Dev nD) : (dat1 V c).share 0 = fullShare.left := rfl
theorem share1_1 (c : Dev nD) : (dat1 V c).share 1 = fullShare.right.left := rfl
theorem share1_2 (c : Dev nD) : (dat1 V c).share 2 = fullShare.right.right := rfl
theorem share1_3 (c : Dev nD) : (dat1 V c).share 3 = fullShare := rfl

/-- The proof data's arrays at contents G, window by window: the shared array three times, at the three shares,
    and the output's array at the full share. -/
theorem arrays1_eq (c : Dev nD) (G : (w : Fin cfg1.W) → Buf (Elt F) ((cfg1.win w).arr.view.loc (c : Thread nD τ))) :
    ((dat1 V c).arrays G : sProp 𝕄)
      = iprop((((c : Thread nD τ).loc main_v14) ↦{fullShare.left} G 0) ∗ (((c : Thread nD τ).loc main_v14) ↦{fullShare.right.left} G 1)
          ∗ (((c : Thread nD τ).loc main_v14) ↦{fullShare.right.right} G 2) ∗ (((c : Thread nD τ).loc main_v15) ↦{fullShare} G 3)) := by
  unfold Dat.arrays
  rw [bigSep_W1, share1_0, share1_1, share1_2, share1_3,
    (arr_whole1 0).set_eq_univ, (arr_whole1 3).set_eq_univ]

/-- ENTRY: the core's unscoped buffers at the entry contents are the proof data's arrays at their entry contents
    — the shared array split along the full share's left half and the two halves of its right half, the output's
    array whole — and the unscoped rest. -/
theorem split1 (c : Dev nD) :
    (unscopedBufs c (V c) : sProp 𝕄)
      ⊢ iprop((dat1 V c).arrays ((dat1 V c).arrAt · 0)
          ∗ Pipeline.unscopedRest (Ix := Unit) (Name := ℕ) (U := UR sig nD τ) (Lvl := ℕ) spec1 c (V c)) := by
  rw [unscopedBufs_split1, arrays1_eq]
  refine sep_mono ?_ .rfl
  rw [show (dat1 V c).arrAt 0 0 = V c main_v14 from rfl, show (dat1 V c).arrAt 1 0 = V c main_v14 from rfl,
    show (dat1 V c).arrAt 2 0 = V c main_v14 from rfl, show (dat1 V c).arrAt 3 0 = V c main_v15 from rfl]
  iintro ⟨H14, H15⟩
  ihave H := (pointsTo_share (PosShare.mem_left_op_right fullShare)).1 $$ H14
  icases H with ⟨Hl, Hr⟩
  ihave H := (pointsTo_share (PosShare.mem_left_op_right fullShare.right)).1 $$ Hr
  icases H with ⟨Hrl, Hrr⟩
  isplitl [Hl]; · iexact Hl
  isplitl [Hrl]; · iexact Hrl
  isplitl [Hrr]; · iexact Hrr
  iexact H15

/-- EXIT: the proof data's arrays at what the pipeline leaves (the input windows' array as entered, the output's
    array at its write-backs folded) and the unscoped rest are the core's unscoped buffers at any contents that
    have the arrays there and agree with the entry contents off them: the three shares of the input array join to
    the full share. -/
theorem join1 (V' : (c : Dev nD) → (b : Ref sig .tc) → Buf (Elt F) ((c : Thread nD τ).loc b)) (c : Dev nD)
    (hF : ∀ w, (dat1 V c).arrAt w cfg1.N = V' c (Pipeline.arrRef spec1 w))
    (hrest : ∀ b, b ∉ Finset.univ.image (Pipeline.arrRef spec1) → V' c b = V c b) :
    iprop((dat1 V c).arrays ((dat1 V c).arrAt · cfg1.N)
        ∗ Pipeline.unscopedRest (Ix := Unit) (Name := ℕ) (U := UR sig nD τ) (Lvl := ℕ) spec1 c (V c))
      ⊢ (unscopedBufs c (V' c) : sProp 𝕄) := by
  rw [unscopedBufs_split1, arrays1_eq]
  refine sep_mono ?_ (Entails.of_eq ?_)
  · rw [hF 0, hF 1, hF 2, hF 3]
    iintro ⟨Hl, Hrl, Hrr, H15⟩
    isplitr [H15]
    · iapply (pointsTo_share (PosShare.mem_left_op_right fullShare)).2
      isplitl [Hl]; · iexact Hl
      iapply (pointsTo_share (PosShare.mem_left_op_right fullShare.right)).2
      isplitl [Hrl]; · iexact Hrl
      iexact Hrr
    · iexact H15
  · unfold Pipeline.unscopedRest
    exact bigSep_congr fun b hb => by rw [hrest b (Finset.mem_sdiff.mp hb).2]

end Region1

end Cert.KernelIdeal.Hand

end
-- ==== Proof.KI.Region2.lean ====
/- REGION 2 of @main (custom_call 2, the out-projection): the frame half of pipeline 2 at the contents `V`
   its region is entered with. The body accumulates, over the four points of a row block, the products of the
   attention block and the weight block in a VMEM scratch (reset at the first point of the row block), and at the
   last point adds the bias and stores the output block. The scratch's contents after each point are stated by
   recursion on the point (`acc2`); the output window is idle at the points that do not store it. -/
import proofs.«160521_j42159398978166_2_alg».proof.Proof.Gen.KernelIdeal.Launch
import proofs.«160521_j42159398978166_2_alg».proof.Proof.Gen.KernelIdeal.Skeleton
import proofs.«160521_j42159398978166_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not, for any proof
    data whose array is `V`'s and whose body leaves the block in place (the windows are uncut and never idle). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's two conditions, in closed form over the grid -/

/-- The first conditional's condition (the scratch is reset), from the grid coordinates. -/
abbrev cond2_0 (i : grid2.Coords) : Prop := (Scalar.cmpi .ne (Scalar.extui (Scalar.cmpi .eq (BitVec.ofNat 32 (i 1).val) 0#32)) 0#32) = 1#1
/-- It holds at the points ≡ 0 (mod 4). -/
theorem hcond2_0 : ∀ t : Fin cfg2.N, cond2_0 (grid2.coords t) ↔ t.val % 4 = 0 :=
  (by decide +kernel : ∀ t : Fin grid2.N, cond2_0 (grid2.coords t) ↔ t.val % 4 = 0)

/-- The second conditional's condition (the output block is stored). -/
abbrev cond2_1 (i : grid2.Coords) : Prop := k2_cond2 i = 1#1
/-- It holds at the points ≡ 3 (mod 4). -/
theorem hcond2_1 : ∀ t : Fin cfg2.N, cond2_1 (grid2.coords t) ↔ t.val % 4 = 3 :=
  (by decide +kernel : ∀ t : Fin grid2.N, cond2_1 (grid2.coords t) ↔ t.val % 4 = 3)

/-! ## Where the windows are idle -/

theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
/-- Where the output block is not stored the output window is idle, and the pipeline does not write it back. -/
theorem idleAt2_3 : ∀ t : Fin cfg2.N, ¬cond2_1 (grid2.coords t) → cfg2.idle 3 (grid2.coords t) = true := by decide +kernel
theorem noFlush2_3 : ∀ t : Fin cfg2.N, ¬cond2_1 (grid2.coords t) → (cfg2.win 3).flush t = false := by decide +kernel
/-- Where it is stored the window is live. -/
theorem liveAt2_3 : ∀ t : Fin cfg2.N, cond2_1 (grid2.coords t) → cfg2.idle 3 (grid2.coords t) = false := by decide +kernel

/-! ## The body's accesses -/

theorem hz2 : (![0, 0] : Fin 2 → Nat) = fun _ => 0 := funext fun a => by fin_cases a <;> rfl

/-- A load through the whole-shape rectangle at zero offsets reads what the view reads. -/
theorem readAt_unit_zero {sg : RefSig} {κ : Kind} {sp : Space} {S : Shape} {e : EltTy} (v : View sg κ sp S e)
    (f : v.ty.Contents (Elt F)) {off : Fin S.rank → Nat} (h : off = fun _ => 0) (inb : ∀ a, off a + S.size a ≤ S.size a) :
    v.readAt (Elt F) (Rect.unit off S.size inb).toLoadRect f = v.read (Elt F) f :=
  (View.readAt_eq_ld v f _).trans (View.ld_unit_zero h inb _)

/-- What a buffer reads after stores the last of which is through the whole-shape rectangle: that store's payload. -/
theorem read_writes_cons_unit_zero {sg : RefSig} {κ : Kind} {sp : Space} {S : Shape} {e : EltTy} (v : View sg κ sp S e)
    (f : v.ty.Contents (Elt F)) {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩),
    View.canon_cons_unit_zero h inb]

/-- A load through the whole-shape rectangle after such stores reads the last store's payload. -/
theorem readCov_cons_unit_zero {sg : RefSig} {κ : Kind} {sp : Space} {S : Shape} {e : EltTy} (v : View sg κ sp S e)
    {off : Fin S.rank → Nat} (h : off = fun _ => 0) (inb : ∀ a, off a + S.size a ≤ S.size a)
    (w : S.Idx → Elt F e) (L : List (View.Piece (Elt F) S e)) :
    v.readCov ((⟨Rect.unit off S.size inb, w⟩ : View.Piece (Elt F) S e) :: L) (Rect.unit off S.size inb).toLoadRect = w := by
  rw [View.readCov_eq_canon_ld _ _ _ (fun y => ⟨_, List.mem_cons_self, View.mem_set_unit_zero h inb y⟩),
    View.canon_cons_unit_zero h inb, View.ld_unit_zero h inb]

/-! ## The body's triple, in each of the three cases the grid meets

On whole memrefs: the attention block at `x0`, the weight block at `x1`, the scratch at `a` (or at anything where the
body resets it), and where the output block is stored the bias block at `b` and the output buffer at anything. -/

set_option maxHeartbeats 1000000 in
/-- First point of a row block: the scratch is reset to zeros, then the product added. -/
theorem sound_kernel2_A (c : Dev nD) (E : Set ℕ) (i : grid2.Coords) (arg2 : Memref sig .tc .vmem S512x512 .bf16) (harg2 : arg2.IsWhole) (arg3 : Memref sig .tc .vmem S512x256 .bf16) (harg3 : arg3.IsWhole) (arg4 : Memref sig .tc .vmem S1x256 .f32) (harg4 : arg4.IsWhole) (arg5 : Memref sig .tc .vmem S512x256 .f32) (harg5 : arg5.IsWhole) (arg6 : Memref sig .tc .vmem S512x256 .f32) (harg6 : arg6.IsWhole)
    (hc0 : cond2_0 i) (hc1 : ¬cond2_1 i)
    (x0 : Vec F S512x512 .bf16) (x1 : Vec F S512x256 .bf16) (K : PUnit → sProp 𝕄) :
    iprop(owns (c : Thread nD τ) arg2 fullShare x0 ∗ owns (c : Thread nD τ) arg3 fullShare x1 ∗ (∃ d, owns (c : Thread nD τ) arg6 fullShare d)
        ∗ (iprop(owns (c : Thread nD τ) arg2 fullShare x0 ∗ owns (c : Thread nD τ) arg3 fullShare x1 ∗ owns (c : Thread nD τ) arg6 fullShare (k2_pay2 (k2_pay1 (F := F)) x0 x1)) -∗ K ⟨⟩))
      ⊢ wp frame (wpE (defs₀ (F := F)) Variants.none c none) E (cc2__lambda_ i arg2 harg2 arg3 harg3 arg4 harg4 arg5 harg5 arg6 harg6) K := by
  simp only [cc2__lambda__eq_skeleton]; unfold cc2__lambda__skel
  unfold owns
  iintro ⟨⟨%f0, %hf0, H0⟩, ⟨%f1, %hf1, H1⟩, ⟨%d, %fs, -, HS⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  rw [read_writes_cons_unit_zero _ _ hz2]; unfold sound_kernel2_A.sl.v3 sound_kernel2_A.sl.HS_1
  rw [readCov_cons_unit_zero _ hz2, readAt_unit_zero _ _ hz2, readAt_unit_zero _ _ hz2]

set_option maxHeartbeats 1000000 in
/-- A middle point of a row block: the product is added to the scratch. -/
theorem sound_kernel2_B (c : Dev nD) (E : Set ℕ) (i : grid2.Coords) (arg2 : Memref sig .tc .vmem S512x512 .bf16) (harg2 : arg2.IsWhole) (arg3 : Memref sig .tc .vmem S512x256 .bf16) (harg3 : arg3.IsWhole) (arg4 : Memref sig .tc .vmem S1x256 .f32) (harg4 : arg4.IsWhole) (arg5 : Memref sig .tc .vmem S512x256 .f32) (harg5 : arg5.IsWhole) (arg6 : Memref sig .tc .vmem S512x256 .f32) (harg6 : arg6.IsWhole)
    (hc0 : ¬cond2_0 i) (hc1 : ¬cond2_1 i)
    (x0 : Vec F S512x512 .bf16) (x1 : Vec F S512x256 .bf16) (a : Vec F S512x256 .f32) (K : PUnit → sProp 𝕄) :
    iprop(owns (c : Thread nD τ) arg2 fullShare x0 ∗ owns (c : Thread nD τ) arg3 fullShare x1 ∗ owns (c : Thread nD τ) arg6 fullShare a
        ∗ (iprop(owns (c : Thread nD τ) arg2 fullShare x0 ∗ owns (c : Thread nD τ) arg3 fullShare x1 ∗ owns (c : Thread nD τ) arg6 fullShare (k2_pay2 a x0 x1)) -∗ K ⟨⟩))
      ⊢ wp frame (wpE (defs₀ (F := F)) Variants.none c none) E (cc2__lambda_ i arg2 harg2 arg3 harg3 arg4 harg4 arg5 harg5 arg6 harg6) K := by
  simp only [cc2__lambda__eq_skeleton]; unfold cc2__lambda__skel
  unfold owns
  iintro ⟨⟨%f0, %hf0, H0⟩, ⟨%f1, %hf1, H1⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  rw [read_writes_cons_unit_zero _ _ hz2, readAt_unit_zero _ _ hz2, readAt_unit_zero _ _ hz2, readAt_unit_zero _ _ hz2]

set_option maxHeartbeats 1000000 in
/-- Last point of a row block: the product is added to the scratch, and the scratch plus the bias stored to the
    output buffer. -/
theorem sound_kernel2_C (c : Dev nD) (E : Set ℕ) (i : grid2.Coords) (arg2 : Memref sig .tc .vmem S512x512 .bf16) (harg2 : arg2.IsWhole) (arg3 : Memref sig .tc .vmem S512x256 .bf16) (harg3 : arg3.IsWhole) (arg4 : Memref sig .tc .vmem S1x256 .f32) (harg4 : arg4.IsWhole) (arg5 : Memref sig .tc .vmem S512x256 .f32) (harg5 : arg5.IsWhole) (arg6 : Memref sig .tc .vmem S512x256 .f32) (harg6 : arg6.IsWhole)
    (hc0 : ¬cond2_0 i) (hc1 : cond2_1 i)
    (x0 : Vec F S512x512 .bf16) (x1 : Vec F S512x256 .bf16) (b : Vec F S1x256 .f32) (a : Vec F S512x256 .f32) (K : PUnit → sProp 𝕄) :
    iprop(owns (c : Thread nD τ) arg2 fullShare x0 ∗ owns (c : Thread nD τ) arg3 fullShare x1 ∗ owns (c : Thread nD τ) arg4 fullShare b
        ∗ (∃ d, owns (c : Thread nD τ) arg5 fullShare d) ∗ owns (c : Thread nD τ) arg6 fullShare a
        ∗ (iprop(owns (c : Thread nD τ) arg2 fullShare x0 ∗ owns (c : Thread nD τ) arg3 fullShare x1 ∗ owns (c : Thread nD τ) arg4 fullShare b
            ∗ owns (c : Thread nD τ) arg5 fullShare (k2_pay3 (k2_pay2 a x0 x1) b) ∗ owns (c : Thread nD τ) arg6 fullShare (k2_pay2 a x0 x1)) -∗ K ⟨⟩))
      ⊢ wp frame (wpE (defs₀ (F := F)) Variants.none c none) E (cc2__lambda_ i arg2 harg2 arg3 harg3 arg4 harg4 arg5 harg5 arg6 harg6) K := by
  simp only [cc2__lambda__eq_skeleton]; unfold cc2__lambda__skel
  unfold owns
  iintro ⟨⟨%f0, %hf0, H0⟩, ⟨%f1, %hf1, H1⟩, ⟨%f2, %hf2, H2⟩, ⟨%d3, %f3, -, H3⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [read_writes_cons_unit_zero _ _ hz2]; unfold sound_kernel2_C.sl.v16 sound_kernel2_C.sl.HS_1
    rw [readCov_cons_unit_zero _ hz2, readAt_unit_zero _ _ hz2, readAt_unit_zero _ _ hz2, readAt_unit_zero _ _ hz2, readAt_unit_zero _ _ hz2]
  iexists _; isplitr
  swap; · iexact HS
  ipureintro
  unfold sound_kernel2_C.sl.HS_1
  rw [read_writes_cons_unit_zero _ _ hz2, readAt_unit_zero _ _ hz2, readAt_unit_zero _ _ hz2, readAt_unit_zero _ _ hz2]

/-! ## The scratch, point by point -/

/-- The scratch operand: a whole scoped buffer of the kernel's own, passed beside the windows. -/
abbrev scM2 : Memref sig .tc .vmem S512x256 .f32 := Memref.whole cc2_scratch0

/-- THE ACCUMULATION. What the scratch holds after the body at position `n`: at the first point of a row block
    (`n ≡ 0 mod 4`) the product of the point's blocks added to zeros, at the others added to what the point before left. -/
def acc2 (c : Dev nD) : (n : ℕ) → n < cfg2.N → Vec F S512x256 .f32
  | 0, hn => k2_pay2 (k2_pay1 (F := F)) (iblk2 V c 0 ⟨0, hn⟩) (iblk2 V c 1 ⟨0, hn⟩)
  | n + 1, hn =>
    if (n + 1) % 4 = 0 then k2_pay2 (k2_pay1 (F := F)) (iblk2 V c 0 ⟨n + 1, hn⟩) (iblk2 V c 1 ⟨n + 1, hn⟩)
    else k2_pay2 (acc2 c n (Nat.lt_of_succ_lt hn)) (iblk2 V c 0 ⟨n + 1, hn⟩) (iblk2 V c 1 ⟨n + 1, hn⟩)

/-- At the first point of a row block. -/
theorem acc2_reset (c : Dev nD) (n : ℕ) (hn : n < cfg2.N) (h : n % 4 = 0) :
    acc2 V c n hn = k2_pay2 (k2_pay1 (F := F)) (iblk2 V c 0 ⟨n, hn⟩) (iblk2 V c 1 ⟨n, hn⟩) := by
  cases n with
  | zero => rfl
  | succ n => exact if_pos h

/-- At any other point. -/
theorem acc2_step (c : Dev nD) (n : ℕ) (hn : n + 1 < cfg2.N) (h : ¬(n + 1) % 4 = 0) :
    acc2 V c (n + 1) hn = k2_pay2 (acc2 V c n (Nat.lt_of_succ_lt hn)) (iblk2 V c 0 ⟨n + 1, hn⟩) (iblk2 V c 1 ⟨n + 1, hn⟩) :=
  if_neg h

/-- The same two at a point of the grid. -/
theorem acc2_reset_at (c : Dev nD) (t : Fin cfg2.N) (h : t.val % 4 = 0) :
    acc2 V c t.val t.isLt = k2_pay2 (k2_pay1 (F := F)) (iblk2 V c 0 t) (iblk2 V c 1 t) :=
  acc2_reset V c t.val t.isLt h

theorem acc2_step_at (c : Dev nD) (t : Fin cfg2.N) (h : ¬t.val % 4 = 0) :
    acc2 V c t.val t.isLt = k2_pay2 (acc2 V c (t.val - 1) (Nat.lt_of_le_of_lt (Nat.sub_le _ _) t.isLt)) (iblk2 V c 0 t) (iblk2 V c 1 t) := by
  obtain ⟨n, hn⟩ := t
  cases n with
  | zero => exact absurd (Nat.zero_mod _) h
  | succ n => exact if_neg h

/-! ## The region invariant -/

/-- The core's scoped buffers that are neither a staging buffer of this pipeline nor its scratch, at some contents. -/
abbrev rest2 (c : Dev nD) : sProp 𝕄 :=
  Pipeline.scopedRestBut (Ix := Unit) (Name := ℕ) (U := UR sig nD τ) (Lvl := ℕ) (Val := Elt F) spec2 c [cc2_scratch0]

/-- The invariant before position `n`: before the first point the scratch at anything, afterwards at what the point
    before left in it; the other scoped buffers at anything and the generator register at some state. -/
def Phi2 (c : Dev nD) : (n : ℕ) → n ≤ cfg2.N → sProp 𝕄
  | 0, _ => iprop((∃ d, owns (c : Thread nD τ) scM2 fullShare d) ∗ rest2 (F := F) c ∗ (∃ r, prngReg c r))
  | n + 1, hn => iprop(owns (c : Thread nD τ) scM2 fullShare (acc2 V c n hn) ∗ rest2 (F := F) c ∗ (∃ r, prngReg c r))

theorem Phi2_zero (c : Dev nD) (n : ℕ) (h : n ≤ cfg2.N) (hz : n = 0) :
    Phi2 V c n h = iprop((∃ d, owns (c : Thread nD τ) scM2 fullShare d) ∗ rest2 (F := F) c ∗ (∃ r, prngReg c r)) := by
  subst hz; rfl

theorem Phi2_succ (c : Dev nD) (n : ℕ) (hn : n < cfg2.N) :
    Phi2 V c (n + 1) hn = iprop(owns (c : Thread nD τ) scM2 fullShare (acc2 V c n hn) ∗ rest2 (F := F) c ∗ (∃ r, prngReg c r)) := rfl

theorem Phi2_pos (c : Dev nD) (n : ℕ) (h : n ≤ cfg2.N) (hz : n ≠ 0) :
    Phi2 V c n h = iprop(owns (c : Thread nD τ) scM2 fullShare (acc2 V c (n - 1) (by omega)) ∗ rest2 (F := F) c ∗ (∃ r, prngReg c r)) := by
  cases n with
  | zero => exact absurd rfl hz
  | succ n => rfl

/-- At any position the invariant gives the scratch at some contents: its named contents are forgotten. -/
theorem Phi2_forget (c : Dev nD) (n : ℕ) (h : n ≤ cfg2.N) :
    Phi2 V c n h ⊢ iprop((∃ d, owns (c : Thread nD τ) scM2 fullShare d) ∗ rest2 (F := F) c ∗ (∃ r, prngReg c r)) := by
  cases n with
  | zero => exact Idealize.SL.BI.Entails.refl _
  | succ n =>
    rw [Phi2_succ]
    iintro ⟨HS, Hr, Hg⟩
    isplitl [HS]; · iexists _; iexact HS
    isplitl [Hr]; · iexact Hr
    iexact Hg

/-- The scoped rest of this pipeline: its scratch, and the others. -/
theorem scopedRest2_split (c : Dev nD) :
    (Pipeline.scopedRest (Ix := Unit) (Name := ℕ) (U := UR sig nD τ) (Lvl := ℕ) (Val := Elt F) spec2 c : sProp 𝕄)
      = iprop((∃ d, owns (c : Thread nD τ) scM2 fullShare d) ∗ rest2 (F := F) c) := by
  rw [Pipeline.scopedRest_split_of_list spec2 c [cc2_scratch0] (by decide) (by decide)]
  simp only [Idealize.SL.BI.bigSepL_singleton, scM2, owns_whole]; try rfl

/-! ## The pipeline's proof data -/

/-- The proof data of pipeline 2 on core `c`: the arrays as the region finds them; after the body each input's buffer
    at its block and the output's at the scratch after the point plus the bias block (what the body stores at the last
    point of a row block; the window is idle at the other points); the invariant `Phi2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => k2_pay3 (acc2 V c t.val t.isLt) (iblk2 V c 2 t)
  Φ t := Phi2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem Phi2_castSucc (c : Dev nD) (t : Fin cfg2.N) :
    (dat2 V c).Φ t.castSucc = Phi2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = k2_pay3 (acc2 V c t.val t.isLt) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t` (the body obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point: the inputs' memrefs hold their blocks; the closed forms say which case the point is in; the
    invariant hands the body the scratch at what the point before left (at anything where the body resets it) and
    takes it back at this point's contents; where the output block is not stored its buffer is handed back as found. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = Phi2 V c (t.val + 1) t.isLt from rfl, Phi2_succ]
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t], after2_1]
  rw [show (dat2 V c).leavesExact 2 t = owns (c : Thread nD τ) (st2_2 t) fullShare ((dat2 V c).after 2 t) from by
    unfold Dat.leavesExact; rw [liveAt2_2 t], after2_2]
  have hN : t.val < 32 := lt_of_lt_of_eq t.isLt (show cfg2.N = 32 from N_2)
  by_cases h0 : t.val % 4 = 0
  · have h1 : ¬t.val % 4 = 3 := by omega
    rw [Dat.leavesExact_idle (dat2 V c) 3 t (idleAt2_3 t (fun h => h1 ((hcond2_1 t).mp h))) (noFlush2_3 t (fun h => h1 ((hcond2_1 t).mp h)))]
    rw [acc2_reset_at V c t h0, Phi2_castSucc V c t]
    iintro ⟨HΦ, Ho, ⟨%d0, H0⟩, ⟨%d1, H1⟩, ⟨%d2, H2⟩, ⟨%d3, H3⟩⟩
    ihave HΦ' := (Phi2_forget V c t.val (Nat.le_of_lt t.isLt)) $$ HΦ
    icases HΦ' with ⟨HS, Hr, Hg⟩
    iapply (sound_kernel2_A c Set.univ (grid2.coords t) _ _ _ _ _ _ _ _ _ _ ((hcond2_0 t).mpr h0) (fun h => h1 ((hcond2_1 t).mp h)) (iblk2 V c 0 t) (iblk2 V c 1 t) _)
    isplitl [H0]; · iexact H0
    isplitl [H1]; · iexact H1
    isplitl [HS]; · iexact HS
    iintro ⟨H0, H1, HS⟩
    isplitl [HS Hr Hg]
    · isplitl [HS]; · iexact HS
      isplitl [Hr]; · iexact Hr
      iexact Hg
    isplitl [Ho]; · iexact Ho
    isplitl [H0]; · iexact H0
    isplitl [H1]; · iexact H1
    isplitl [H2]; · iexact H2
    iexists _; iexact H3
  · have hz : t.val ≠ 0 := fun e => h0 (by rw [e])
    rw [acc2_step_at V c t h0, Phi2_castSucc V c t, Phi2_pos V c _ _ hz]
    by_cases h1 : t.val % 4 = 3
    · rw [show (dat2 V c).leavesExact 3 t = owns (c : Thread nD τ) (st2_3 t) fullShare ((dat2 V c).after 3 t) from by
        unfold Dat.leavesExact; rw [liveAt2_3 t ((hcond2_1 t).mpr h1)], after2_3, acc2_step_at V c t h0]
      iintro ⟨⟨HS, Hr, Hg⟩, Ho, ⟨%d0, H0⟩, ⟨%d1, H1⟩, ⟨%d2, H2⟩, ⟨%d3, H3⟩⟩
      iapply (sound_kernel2_C c Set.univ (grid2.coords t) _ _ _ _ _ _ _ _ _ _ (fun h => h0 ((hcond2_0 t).mp h)) ((hcond2_1 t).mpr h1) (iblk2 V c 0 t) (iblk2 V c 1 t) (iblk2 V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      iexact H3
    · rw [Dat.leavesExact_idle (dat2 V c) 3 t (idleAt2_3 t (fun h => h1 ((hcond2_1 t).mp h))) (noFlush2_3 t (fun h => h1 ((hcond2_1 t).mp h)))]
      iintro ⟨⟨HS, Hr, Hg⟩, Ho, ⟨%d0, H0⟩, ⟨%d1, H1⟩, ⟨%d2, H2⟩, ⟨%d3, H3⟩⟩
      iapply (sound_kernel2_B c Set.univ (grid2.coords t) _ _ _ _ _ _ _ _ _ _ (fun h => h0 ((hcond2_0 t).mp h)) (fun h => h1 ((hcond2_1 t).mp h)) (iblk2 V c 0 t) (iblk2 V c 1 t) _ _)
      isplitl [H0]; · iexact H0
      isplitl [H1]; · iexact H1
      isplitl [HS]; · iexact HS
      iintro ⟨H0, H1, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! ## Into the invariant and out of it -/

/-- The generator register and the scoped rest, as the region is entered with them, are the invariant before the
    first point. -/
theorem hin2 (c : Dev nD) :
    iprop((∃ r, prngReg c r) ∗ Pipeline.scopedRest (Ix := Unit) (Name := ℕ) (U := UR sig nD τ) (Lvl := ℕ) (Val := Elt F) spec2 c)
      ⊢ ((dat2 V c).Φ 0 : sProp 𝕄) := by
  rw [show (dat2 V c).Φ 0 = Phi2 V c 0 (Nat.zero_le _) from rfl, Phi2_zero V c 0 _ rfl, scopedRest2_split]
  iintro ⟨Hg, HS, Hr⟩
  isplitl [HS]; · iexact HS
  isplitl [Hr]; · iexact Hr
  iexact Hg

/-- After the last point the invariant gives them back: the scratch's named contents are forgotten. -/
theorem hout2 (c : Dev nD) :
    ((dat2 V c).Φ (Fin.last cfg2.N) : sProp 𝕄)
      ⊢ iprop((∃ r, prngReg c r) ∗ Pipeline.scopedRest (Ix := Unit) (Name := ℕ) (U := UR sig nD τ) (Lvl := ℕ) (Val := Elt F) spec2 c) := by
  rw [show (dat2 V c).Φ (Fin.last cfg2.N) = Phi2 V c (Fin.last cfg2.N).val (Nat.le_of_lt_succ (Fin.last cfg2.N).isLt) from rfl, scopedRest2_split]
  iintro HΦ
  ihave HΦ' := (Phi2_forget V c _ _) $$ HΦ
  icases HΦ' with ⟨HS, Hr, Hg⟩
  isplitl [Hg]; · iexact Hg
  isplitl [HS]; · iexact HS
  iexact Hr

/-! ## What the output window's buffer holds where it is written back -/

/-- At the last point `m + 3` of a row block (`m ≡ 0 mod 4`) the output buffer holds the four products of the row
    block's points added, in point order, to zeros, plus the bias block. -/
theorem after2_3_value (c : Dev nD) (m : ℕ) (hm : m + 3 < cfg2.N) (h : m % 4 = 0) :
    (dat2 V c).after 3 ⟨m + 3, hm⟩
      = k2_pay3 (k2_pay2 (k2_pay2 (k2_pay2 (k2_pay2 (k2_pay1 (F := F))
            (iblk2 V c 0 ⟨m, by omega⟩) (iblk2 V c 1 ⟨m, by omega⟩))
            (iblk2 V c 0 ⟨m + 1, by omega⟩) (iblk2 V c 1 ⟨m + 1, by omega⟩))
            (iblk2 V c 0 ⟨m + 2, by omega⟩) (iblk2 V c 1 ⟨m + 2, by omega⟩))
            (iblk2 V c 0 ⟨m + 3, hm⟩) (iblk2 V c 1 ⟨m + 3, hm⟩))
          (iblk2 V c 2 ⟨m + 3, hm⟩) := by
  rw [after2_3]
  show k2_pay3 (acc2 V c (m + 3) hm) _ = _
  rw [acc2_step V c (m + 2) hm (by omega), acc2_step V c (m + 1) (by omega) (by omega),
    acc2_step V c m (by omega) (by omega), acc2_reset V c m (by omega) h]

end Region2

end Cert.KernelIdeal.Hand

end
-- ==== Proof.KI.Run.lean ====
/- The whole program as a run. @main is: sixteen host operations (the activations flattened, the three weight
   matrices transposed, two of them scaled by 1/4, and fused; the output weights transposed; the bias made a row), the
   projection kernel, the attention kernel, the output-projection kernel, one host reshape. The buffers' contents
   are followed from boundary to boundary: after a host stretch they are the stretch's operations applied; after a
   kernel region the region's output array holds what the grid's write-backs leave and every other buffer is
   unchanged (the attention kernel reads one array through three windows, each at its own share of it, and writes
   another). Every weakly fair execution then terminates without a fault with the result array at the last
   boundary's contents and the six argument arrays as launched. -/
import proofs.«160521_j42159398978166_2_alg».proof.Proof.KI.Region0
import proofs.«160521_j42159398978166_2_alg».proof.Proof.KI.Region1
import proofs.«160521_j42159398978166_2_alg».proof.Proof.KI.Region2
import proofs.«160521_j42159398978166_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary of @main -/

abbrev W0 : Dev nD → Valuation τ sig (Elt F) := fun c b => (s₀ m ρ).mem ((c : Dev nD), b)
abbrev W1 : Dev nD → Valuation τ sig (Elt F) := fun c => StableHlo.after hostOps0 (W0 m ρ c)
abbrev Vb1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (Vb1 m ρ) c).arrAt w cfg0.N
theorem W2_arr (c : Dev nD) (w : Fin cfg0.W) :
    W2 m ρ c (Proc.devRef .tc (Pipeline.arrRef spec0 w)) = (dat0 (Vb1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev Vb2 : (c : Dev nD) → (b : Ref sig .tc) → Buf (Elt F) ((c : Thread nD τ).loc b) := fun c b => W2 m ρ c b
theorem hF0 (c : Dev nD) (w : Fin cfg0.W) : (dat0 (Vb1 m ρ) c).arrAt w cfg0.N = Vb2 m ρ c (Pipeline.arrRef spec0 w) :=
  (W2_arr m ρ c w).symm
theorem hrest0 (c : Dev nD) : ∀ b, b ∉ Finset.univ.image (Pipeline.arrRef spec0) → Vb2 m ρ c b = Vb1 m ρ c b :=
  fun b hb => W2_of_ne m ρ c b fun w e => hb (Finset.mem_image.mpr ⟨w, Finset.mem_univ _, e⟩)

/-- After region 1: only the attention output's array has changed (the three input windows read one array). -/
def W3 (c : Dev nD) : Valuation τ sig (Elt F) :=
  Function.update (W2 m ρ c) (Proc.devRef .tc main_v15) ((dat1 (Vb2 m ρ) c).arrAt 3 cfg1.N)
abbrev Vb3 : (c : Dev nD) → (b : Ref sig .tc) → Buf (Elt F) ((c : Thread nD τ).loc b) := fun c b => W3 m ρ c b
theorem W3_out (c : Dev nD) : W3 m ρ c (Proc.devRef .tc main_v15) = (dat1 (Vb2 m ρ) c).arrAt 3 cfg1.N := by
  unfold W3; exact Function.update_self ..
theorem W3_of_ne (c : Dev nD) (b : Ref sig .tc) (hb : b ≠ main_v15) :
    W3 m ρ c (Proc.devRef .tc b) = W2 m ρ c (Proc.devRef .tc b) := by
  unfold W3; exact Function.update_of_ne (StableHlo.devRef_ne_of_ne hb) ..

def W4 (c : Dev nD) : Valuation τ sig (Elt F) :=
  Pipeline.withArrays spec2 c (W3 m ρ c) fun w => (dat2 (Vb3 m ρ) c).arrAt w cfg2.N
theorem W4_arr (c : Dev nD) (w : Fin cfg2.W) :
    W4 m ρ c (Proc.devRef .tc (Pipeline.arrRef spec2 w)) = (dat2 (Vb3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
abbrev Vb4 : (c : Dev nD) → (b : Ref sig .tc) → Buf (Elt F) ((c : Thread nD τ).loc b) := fun c b => W4 m ρ c b
theorem hF2 (c : Dev nD) (w : Fin cfg2.W) : (dat2 (Vb3 m ρ) c).arrAt w cfg2.N = Vb4 m ρ c (Pipeline.arrRef spec2 w) :=
  (W4_arr m ρ c w).symm
theorem hrest2 (c : Dev nD) : ∀ b, b ∉ Finset.univ.image (Pipeline.arrRef spec2) → Vb4 m ρ c b = Vb3 m ρ c b :=
  fun b hb => W4_of_ne m ρ c b fun w e => hb (Finset.mem_image.mpr ⟨w, Finset.mem_univ _, e⟩)
abbrev W5 : Dev nD → Valuation τ sig (Elt F) := fun c => StableHlo.after hostOps3 (W4 m ρ c)

theorem hF1 (c : Dev nD) (w : Fin cfg1.W) : (dat1 (Vb2 m ρ) c).arrAt w cfg1.N = Vb3 m ρ c (Pipeline.arrRef spec1 w) := by
  match w with
  | ⟨0, _⟩ => exact (((dat1 (Vb2 m ρ) c).arrAt_in 0 rfl _).trans (A_eq1 (Vb2 m ρ) c 0)).trans (W3_of_ne m ρ c main_v14 (by decide)).symm
  | ⟨1, _⟩ => exact (((dat1 (Vb2 m ρ) c).arrAt_in 1 rfl _).trans (A_eq1 (Vb2 m ρ) c 1)).trans (W3_of_ne m ρ c main_v14 (by decide)).symm
  | ⟨2, _⟩ => exact (((dat1 (Vb2 m ρ) c).arrAt_in 2 rfl _).trans (A_eq1 (Vb2 m ρ) c 2)).trans (W3_of_ne m ρ c main_v14 (by decide)).symm
  | ⟨3, _⟩ => exact (W3_out m ρ c).symm
theorem hrest1 (c : Dev nD) : ∀ b, b ∉ Finset.univ.image (Pipeline.arrRef spec1) → Vb3 m ρ c b = Vb2 m ρ c b :=
  fun b hb => W3_of_ne m ρ c b fun e => hb (Finset.mem_image.mpr ⟨3, Finset.mem_univ _, e.symm⟩)

/-! ## The proof data family and the thread state -/

abbrev admH : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) admH p) c
  | ⟨0, _⟩ => fun c => dat0 (Vb1 m ρ) c
  | ⟨1, _⟩ => fun c => dat1 (Vb2 m ρ) c
  | ⟨2, _⟩ => fun c => dat2 (Vb3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
def reg0 : Pipeline.RegionSeg (pcfgs (F := F)) admH (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vb1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (Vb1 m ρ c)
  hentry c := by
    rw [Pipeline.ownSems0_none]
    have hsplit := Pipeline.arrays_of_unscopedBufs (p := 0) (pcfgs (F := F)) admH (pdats m ρ) launch0.win launch0.arr_whole c
      ((pdats m ρ 0 c).share_full fun _ => rfl) (Vb1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m ρ) ((pdats m ρ 0 c).share_full fun _ => rfl)
      (Vb1 m ρ c) (Vb2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) admH (pdats m ρ) () defs₀ 𝒱₀ L lv 1 where
  win := winFacts₀1
  block_pos := block_pos1
  stage_whole := stage_whole1
  K := PEmpty
  osem k := k.elim
  ho := Pipeline.OwnSemFacts.none _
  hbody c := (body_obligation1 (Vb2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (Vb2 m ρ c)
  hentry c := by
    rw [Pipeline.ownSems0_none]
    have hsplit := split1 (Vb2 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N) ∗ Pipeline.unscopedRest (Ix := Unit) (Name := ℕ) (U := UR sig nD τ) (Lvl := ℕ) spec1 c (Vb2 m ρ c))
        ⊢ (unscopedBufs c (Vb3 m ρ c) : sProp 𝕄) := join1 (Vb2 m ρ) (Vb3 m ρ) c (hF1 m ρ c) (hrest1 m ρ c)
    rw [Pipeline.unscopedBufs_held] at hjoin
    iintro ⟨Ha, HO, HY, Hrest⟩
    imodintro
    isplitl [Ha Hrest]
    · iapply hjoin; isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) admH (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vb3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (Vb3 m ρ c)
  hentry c := by
    rw [Pipeline.ownSems0_none]
    have hsplit := Pipeline.arrays_of_unscopedBufs (p := 2) (pcfgs (F := F)) admH (pdats m ρ) launch2.win launch2.arr_whole c
      ((pdats m ρ 2 c).share_full fun _ => rfl) (Vb3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin2 (Vb3 m ρ) c)
    iintro ⟨Hp, -, Hr⟩
    isplitl [Hp]; · iexact Hp
    iexact Hr
  hout c := by
    rw [Pipeline.ownSems0_none]
    refine (hout2 (Vb3 m ρ) c).trans ?_
    iintro ⟨Hp, Hr⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdats m ρ) ((pdats m ρ 2 c).share_full fun _ => rfl)
      (Vb3 m ρ c) (Vb4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The arguments end as launched -/
theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps3 _ hostOps3_writes (by decide)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps3 _ hostOps3_writes (by decide)
    _ = W3 m ρ c (Proc.devRef .tc main_arg1) := W4_of_ne m ρ c main_arg1 (by decide)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_writes_sub hostOps3 _ hostOps3_writes (by decide)
    _ = W3 m ρ c (Proc.devRef .tc main_arg2) := W4_of_ne m ρ c main_arg2 (by decide)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl
theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_writes_sub hostOps3 _ hostOps3_writes (by decide)
    _ = W3 m ρ c (Proc.devRef .tc main_arg3) := W4_of_ne m ρ c main_arg3 (by decide)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl
theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := StableHlo.after_of_writes_sub hostOps3 _ hostOps3_writes (by decide)
    _ = W3 m ρ c (Proc.devRef .tc main_arg4) := W4_of_ne m ρ c main_arg4 (by decide)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl
theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := StableHlo.after_of_writes_sub hostOps3 _ hostOps3_writes (by decide)
    _ = W3 m ρ c (Proc.devRef .tc main_arg5) := W4_of_ne m ρ c main_arg5 (by decide)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

/-! ## @main as segments, and the run -/

abbrev segsH : List (Pipeline.Seg (pcfgs (F := F)) admH (pdats m ρ) () defs₀ 𝒱₀ L lv) :=
  [ .host (hseg hostOps0 hostOps0_sub hostOps0_fresh (W0 m ρ)),
    .region (reg0 m ρ),
    .region (reg1 m ρ),
    .region (reg2 m ρ),
    .host (hseg hostOps3 hostOps3_sub hostOps3_fresh (W4 m ρ)) ]
theorem main_run (c : Dev nD) : main (F := F) c = Pipeline.Seg.run (segsH m ρ) := (main_chain c).trans (by chain_rfl)

set_option backward.isDefEq.respectTransparency.types false in
/-- Every weakly fair execution of the program from memory `m` ends, without a fault, with the result array at the
    last boundary's contents and every argument array as launched. -/
theorem run : θ_run defs (onTc (τ := τ) (main (F := F))) ⟨m, fun _ => 0, ρ⟩ (fun r => ∀ c : Dev nD,
      r.2.mem ((c.tc : Thread nD τ).loc main_v17) = W5 m ρ c (Proc.devRef .tc main_v17)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) admH (pdats m ρ) () cellOf_inj emb₁ defs₀ 𝒱₀ L lv m ρ main (segsH m ρ)
    (fun c Q => by rw [main_run m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      refine (show iprop(StableHlo.held (c : Thread nD τ) (Pipeline.ucRefs τ sig) (W5 m ρ c) ∗ R c) ⊢ _ from ?_)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v17 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c)⟩)

end Cert.KernelIdeal.Hand

end
-- ==== Proof.KI.Host.lean ====
/- What the host operations around the three kernel regions compute, read at an index, at the ideal instance:
   the activations flattened to [4096, 256]; the fused weight matrix [256, 6144] whose column blocks are the
   transposed query weights times 1/4, the transposed key weights times 1/4 and the transposed value weights;
   the transposed output weights; the bias as a row; and the final reshape back to [2, 2048, 256]. A change of
   float format is the identity here. -/
import proofs.«160521_j42159398978166_2_alg».proof.Proof.Gen.KernelIdeal.Launch
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx

variable (Wm : Valuation τ sig (Elt Ideal))

/-- Row `b * 2048 + s` of the flattened activations is row `s` of batch `b`. -/
theorem host_v1 (b : Fin 2) (s : Fin 2048) (e : Fin 256) :
    (StableHlo.after (hostOps0 (F := Ideal)) Wm (Proc.devRef .tc main_v1) : S4096x256.Idx → EReal) (ix2 (⟨b.val * 2048 + s.val, by omega⟩ : Fin 4096) e)
      = (Wm (Proc.devRef .tc main_arg0) : S2x2048x256.Idx → EReal) (ix3 b s e) := by
  have e1 : (StableHlo.after (hostOps0 (F := Ideal)) Wm (Proc.devRef .tc main_v1) : S4096x256.Idx → EReal)
      = (truncf (F := Ideal) .bf16 (shapeCast S4096x256 (Wm (Proc.devRef .tc main_arg0) : FVec Ideal S2x2048x256 .f32) shapeCasts_S2x2048x256_S4096x256) bitsLt_bf16_f32 : FVec Ideal S4096x256 .bf16) := by
    after_results; try rfl
  rw [e1, truncf_apply]
  refine shapeCast_apply _ _ _ _ ?_
  show (S2x2048x256.rowMajor (ix3 b s e)).val = (S4096x256.rowMajor (ix2 (⟨b.val * 2048 + s.val, by omega⟩ : Fin 4096) e)).val
  rw [Shape.rowMajor_val_three, Shape.rowMajor_val_two]
  show (b.val * 2048 + s.val) * 256 + e.val = (b.val * 2048 + s.val) * 256 + e.val
  rfl

/-- The bias as a one-row matrix. -/
theorem host_v13 (o : Fin 256) :
    (StableHlo.after (hostOps0 (F := Ideal)) Wm (Proc.devRef .tc main_v13) : S1x256.Idx → EReal) (ix2 (0 : Fin 1) o)
      = (Wm (Proc.devRef .tc main_arg5) : S256.Idx → EReal) (ix1 o) := by
  have e1 : (StableHlo.after (hostOps0 (F := Ideal)) Wm (Proc.devRef .tc main_v13) : S1x256.Idx → EReal)
      = shapeCast S1x256 (Wm (Proc.devRef .tc main_arg5) : S256.Idx → EReal) shapeCasts_S256_S1x256 := by
    after_results; try rfl
  rw [e1]
  refine shapeCast_apply _ _ _ _ ?_
  show (S256.rowMajor (ix1 o)).val = (S1x256.rowMajor (ix2 (0 : Fin 1) o)).val
  rw [Shape.rowMajor_val_one, Shape.rowMajor_val_two]
  show o.val = 0 * 256 + o.val
  omega

/-- The transposed output weights. -/
theorem host_v12 (n : Fin 2048) (o : Fin 256) :
    (StableHlo.after (hostOps0 (F := Ideal)) Wm (Proc.devRef .tc main_v12) : S2048x256.Idx → EReal) (ix2 n o)
      = (Wm (Proc.devRef .tc main_arg4) : S256x2048.Idx → EReal) (ix2 o n) := by
  have e1 : (StableHlo.after (hostOps0 (F := Ideal)) Wm (Proc.devRef .tc main_v12) : S2048x256.Idx → EReal)
      = (truncf (F := Ideal) .bf16 (transpose S2048x256 [1, 0] (Wm (Proc.devRef .tc main_arg4) : FVec Ideal S256x2048 .f32) transposes_S256x2048_S2048x256_1_0) bitsLt_bf16_f32 : FVec Ideal S2048x256 .bf16) := by
    after_results; try rfl
  rw [e1, truncf_apply]
  exact transpose_ix2_apply _ _ n o

/-- The result is the [4096, 256] projection output reshaped to [2, 2048, 256]. -/
theorem host_v17 (b : Fin 2) (s : Fin 2048) (o : Fin 256) :
    (StableHlo.after (hostOps3 (F := Ideal)) Wm (Proc.devRef .tc main_v17) : S2x2048x256.Idx → EReal) (ix3 b s o)
      = (Wm (Proc.devRef .tc main_v16) : S4096x256.Idx → EReal) (ix2 (⟨b.val * 2048 + s.val, by omega⟩ : Fin 4096) o) := by
  have e1 : (StableHlo.after (hostOps3 (F := Ideal)) Wm (Proc.devRef .tc main_v17) : S2x2048x256.Idx → EReal)
      = shapeCast S2x2048x256 (Wm (Proc.devRef .tc main_v16) : S4096x256.Idx → EReal) shapeCasts_S4096x256_S2x2048x256 := by
    after_results; try rfl
  rw [e1]
  refine shapeCast_apply _ _ _ _ ?_
  show (S4096x256.rowMajor (ix2 (⟨b.val * 2048 + s.val, by omega⟩ : Fin 4096) o)).val = (S2x2048x256.rowMajor (ix3 b s o)).val
  rw [Shape.rowMajor_val_three, Shape.rowMajor_val_two]
  show (b.val * 2048 + s.val) * 256 + o.val = (b.val * 2048 + s.val) * 256 + o.val
  rfl

section Concat
variable (F' : Valuation τ sig (Elt Ideal))

/-- The three-way concatenation along the columns, read in its first, second and third block of 2048 columns. -/
theorem concat3_q (e : Fin 256) (n : Fin 2048) :
    concatenate (α := Ideal .f32) S256x6144 1 [⟨S256x2048, (fun k => F' (Proc.devRef .tc (![main_v4, main_v7, main_v8] k))) 0⟩,
        ⟨S256x2048, (fun k => F' (Proc.devRef .tc (![main_v4, main_v7, main_v8] k))) 1⟩,
        ⟨S256x2048, (fun k => F' (Proc.devRef .tc (![main_v4, main_v7, main_v8] k))) 2⟩] concatenates_S256x2048_S256x2048_S256x2048_S256x6144_d1
      (ix2 e (⟨n.val, by omega⟩ : Fin 6144))
    = (F' (Proc.devRef .tc main_v4) : FVec Ideal S256x2048 .f32) (ix2 e n) := by
  refine concatenate_apply_piece (t := S256x6144) (1 : Fin 2) _ _ _ 0 (by show (_ : ℕ) < 3; omega) S256x2048 (F' (Proc.devRef .tc main_v4) : FVec Ideal S256x2048 .f32) rfl rfl 0 rfl (ix2 e n) ?_ ?_
  · intro b hb; match b with | ⟨0, _⟩ => rfl | ⟨1, _⟩ => exact absurd rfl hb
  · show 0 + n.val = n.val; omega
theorem concat3_k (e : Fin 256) (n : Fin 2048) :
    concatenate (α := Ideal .f32) S256x6144 1 [⟨S256x2048, (fun k => F' (Proc.devRef .tc (![main_v4, main_v7, main_v8] k))) 0⟩,
        ⟨S256x2048, (fun k => F' (Proc.devRef .tc (![main_v4, main_v7, main_v8] k))) 1⟩,
        ⟨S256x2048, (fun k => F' (Proc.devRef .tc (![main_v4, main_v7, main_v8] k))) 2⟩] concatenates_S256x2048_S256x2048_S256x2048_S256x6144_d1
      (ix2 e (⟨2048 + n.val, by omega⟩ : Fin 6144))
    = (F' (Proc.devRef .tc main_v7) : FVec Ideal S256x2048 .f32) (ix2 e n) := by
  refine concatenate_apply_piece (t := S256x6144) (1 : Fin 2) _ _ _ 1 (by show (_ : ℕ) < 3; omega) S256x2048 (F' (Proc.devRef .tc main_v7) : FVec Ideal S256x2048 .f32) rfl rfl 2048 rfl (ix2 e n) ?_ ?_
  · intro b hb; match b with | ⟨0, _⟩ => rfl | ⟨1, _⟩ => exact absurd rfl hb
  · show 2048 + n.val = 2048 + n.val; rfl
theorem concat3_v (e : Fin 256) (n : Fin 2048) :
    concatenate (α := Ideal .f32) S256x6144 1 [⟨S256x2048, (fun k => F' (Proc.devRef .tc (![main_v4, main_v7, main_v8] k))) 0⟩,
        ⟨S256x2048, (fun k => F' (Proc.devRef .tc (![main_v4, main_v7, main_v8] k))) 1⟩,
        ⟨S256x2048, (fun k => F' (Proc.devRef .tc (![main_v4, main_v7, main_v8] k))) 2⟩] concatenates_S256x2048_S256x2048_S256x2048_S256x6144_d1
      (ix2 e (⟨4096 + n.val, by omega⟩ : Fin 6144))
    = (F' (Proc.devRef .tc main_v8) : FVec Ideal S256x2048 .f32) (ix2 e n) := by
  refine concatenate_apply_piece (t := S256x6144) (1 : Fin 2) _ _ _ 2 (by show (_ : ℕ) < 3; omega) S256x2048 (F' (Proc.devRef .tc main_v8) : FVec Ideal S256x2048 .f32) rfl rfl 4096 rfl (ix2 e n) ?_ ?_
  · intro b hb; match b with | ⟨0, _⟩ => rfl | ⟨1, _⟩ => exact absurd rfl hb
  · show 4096 + n.val = 4096 + n.val; rfl
end Concat

/-- Column `n` of the fused weights, `n < 2048`: the query weights' row `n`, times the constant 1/4. -/
theorem host_v10_q (wq : FVec Ideal S2048x256 .f32) (hwq : Wm (Proc.devRef .tc main_arg1) = wq) (e : Fin 256) (n : Fin 2048) :
    (StableHlo.after (hostOps0 (F := Ideal)) Wm (Proc.devRef .tc main_v10) : FVec Ideal S256x6144 .bf16) (ix2 e (⟨n.val, by omega⟩ : Fin 6144))
      = wq (ix2 n e) * Ideal.ofBits .f32 0x3E800000#32 := by
  subst hwq
  after_results
  rw [truncf_apply, concat3_q]
  after_results_simp
  rw [mulf_apply, transpose_ix2_apply, broadcastInDim_apply (k := ix0) (hk := fun a => a.elim0), constant_apply]

/-- Column `2048 + n`: the key weights' row `n`, times the constant 1/4. -/
theorem host_v10_k (wk : FVec Ideal S2048x256 .f32) (hwk : Wm (Proc.devRef .tc main_arg2) = wk) (e : Fin 256) (n : Fin 2048) :
    (StableHlo.after (hostOps0 (F := Ideal)) Wm (Proc.devRef .tc main_v10) : FVec Ideal S256x6144 .bf16) (ix2 e (⟨2048 + n.val, by omega⟩ : Fin 6144))
      = wk (ix2 n e) * Ideal.ofBits .f32 0x3E800000#32 := by
  subst hwk
  after_results
  rw [truncf_apply, concat3_k]
  after_results_simp
  rw [mulf_apply, transpose_ix2_apply, broadcastInDim_apply (k := ix0) (hk := fun a => a.elim0), constant_apply]

/-- Column `4096 + n`: the value weights' row `n`. -/
theorem host_v10_v (wv : FVec Ideal S2048x256 .f32) (hwv : Wm (Proc.devRef .tc main_arg3) = wv) (e : Fin 256) (n : Fin 2048) :
    (StableHlo.after (hostOps0 (F := Ideal)) Wm (Proc.devRef .tc main_v10) : FVec Ideal S256x6144 .bf16) (ix2 e (⟨4096 + n.val, by omega⟩ : Fin 6144))
      = wv (ix2 n e) := by
  subst hwv
  after_results
  rw [truncf_apply, concat3_v]
  after_results_simp
  rw [transpose_ix2_apply]

end Cert.KernelIdeal.Hand

end
-- ==== Proof.LibDot.lean ====
/-
  A general lemma: a matrix product's contraction read as a sum over `Fin K`.

  For dimension numbers `d` of a plain product `[M, K] × [K, N] → [M, N]` — one contracted axis of extent `K`, and the
  four coordinate facts that say the left operand is read at (row of the output, contraction position) and the right
  operand at (contraction position, column of the output) — the sum over `d`'s own contraction index of the products
  of the operands is the sum over `k : Fin K` of `l (p, k) · r (k, j)`. The sum is re-indexed through the bijection
  between a one-axis contraction index and its coordinate.
-/
import Idealize.ShloMosaic.PureOps.Ideal.Laws
import Idealize.ShloMosaic.Lib.ValueIdx

noncomputable section

open scoped BigOperators

namespace Cert.LibDot

open Idealize.ShloMosaic Idealize.ShloMosaic.ValueIdx

/-- The contraction of a plain `[M, K] × [K, N]` product at output `(p, j)` is `∑ k : Fin K, l (p, k) · r (k, j)`, given
    that the dimension numbers contract one axis of extent `K` (`hr`, `hs`) and read the operands' coordinates from the
    output's row, the contraction position and the output's column (`hl0`, `hl1`, `hr0`, `hr1`). -/
theorem plain_sum {M K N : Nat} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q (0 : Fin 2)).val = (i (0 : Fin 2)).val)
    (hl1 : ∀ (i : (⟨2, ![M, N]⟩ : Shape).Idx) (q : d.contr.Idx), (d.lhsIdx i q (1 : Fin 2)).val = (q ⟨0, by omega⟩).val)
    (hr0 : ∀ (i : (⟨2, ![M, N]⟩ : Shape).Idx) (q : d.contr.Idx), (d.rhsIdx i q (0 : Fin 2)).val = (q ⟨0, by omega⟩).val)
    (hr1 : ∀ (i : (⟨2, ![M, N]⟩ : Shape).Idx) (q : d.contr.Idx), (d.rhsIdx i q (1 : Fin 2)).val = (i (1 : Fin 2)).val)
    (l : (⟨2, ![M, K]⟩ : Shape).Idx → EReal) (r : (⟨2, ![K, N]⟩ : Shape).Idx → EReal) (p : Fin M) (j : Fin N) :
    ∑ k : d.contr.Idx, l (d.lhsIdx (ix2 p j) k) * r (d.rhsIdx (ix2 p j) k) = ∑ k : Fin K, l (ix2 p k) * r (ix2 k j) := by
  rw [← Equiv.sum_comp (contrEquiv1 d K hr hs).symm]
  refine Finset.sum_congr rfl fun k _ => ?_
  have hk := contrEquiv1_symm_val d K hr hs k
  have el : d.lhsIdx (ix2 p j) ((contrEquiv1 d K hr hs).symm k) = ix2 p k := funext fun a => Fin.ext (by
    match a with
    | ⟨0, _⟩ => exact hl0 _ _
    | ⟨1, _⟩ => exact (hl1 _ _).trans hk)
  have er : d.rhsIdx (ix2 p j) ((contrEquiv1 d K hr hs).symm k) = ix2 k j := funext fun a => Fin.ext (by
    match a with
    | ⟨0, _⟩ => exact (hr0 _ _).trans hk
    | ⟨1, _⟩ => exact hr1 _ _)
  rw [el, er]

end Cert.LibDot

end
-- ==== Proof.LibKeepdims.lean ====
/-
  Two layout operations read at an index, for a column kept as a unit axis (what `sum(…, keepdims=True)` produces):
  an `[a]` array viewed as an `[a, 1]` column, and an `[a, 1]` column repeated along `b` columns. Both are general
  in the extents.
-/
import Idealize.ShloMosaic.Lib.ValueLayout
import Idealize.ShloMosaic.Lib.Pipeline.Value

namespace Idealize.ShloMosaic.ValueIdx

variable {α : Type}

/-- An `[a]` array cast to `[a, 1]` reads, at `(i, u)`, the operand at `i`, whatever the unit coordinate `u`:
    the row-major position of `(i, u)` in `[a, 1]` is `i * 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.KI.Payloads.lean ====
/-
  The kernel's payloads read at an index, at the ideal values (extended reals; format changes are the identity).

  Each payload of the three kernel functions is read at a coordinate pair of its result: the projection's block is a
  matrix product; the attention block is the row-wise softmax of the scores applied to the values; the output
  projection's step adds a matrix product to the running block, starts from the zero block, and ends by adding the
  bias row.
-/
import proofs.«160521_j42159398978166_2_alg».proof.Proof.Gen.KernelIdeal.Skeleton
import proofs.«160521_j42159398978166_2_alg».proof.Proof.LibDot
import proofs.«160521_j42159398978166_2_alg».proof.Proof.LibKeepdims
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open scoped BigOperators

namespace Cert.KernelIdeal.Hand

open Cert.KernelIdeal Cert.KernelIdeal.Gen Idealize.ShloMosaic Idealize.ShloMosaic.ValueIdx

/-! ## The four contractions as sums over the contracted coordinate -/

/-- The projection's product `[512, 256] × [256, 1024]` at `(p, j)`. -/
theorem dot_proj_sum (l : S512x256.Idx → EReal) (r : S256x1024.Idx → EReal) (p : Fin 512) (j : Fin 1024) :
    ∑ k : dot_S512x256_S256x1024_S512x1024_1_0_0_1_n_n.contr.Idx,
        l (dot_S512x256_S256x1024_S512x1024_1_0_0_1_n_n.lhsIdx (ix2 p j) k)
          * r (dot_S512x256_S256x1024_S512x1024_1_0_0_1_n_n.rhsIdx (ix2 p j) k)
      = ∑ k : Fin 256, l (ix2 p k) * r (ix2 k j) :=
  Cert.LibDot.plain_sum (M := 512) (K := 256) (N := 1024) dot_S512x256_S256x1024_S512x1024_1_0_0_1_n_n rfl rfl
    (fun i q => by
      unfold DotDims.lhsIdx
      rw [dif_neg (show ¬(0 : Fin S512x256.rank) ∈ dot_S512x256_S256x1024_S512x1024_1_0_0_1_n_n.lhsBatch by decide),
        dif_pos (show (0 : Fin S512x256.rank) ∈ dot_S512x256_S256x1024_S512x1024_1_0_0_1_n_n.lhsNonContracting by decide)]
      rfl)
    (fun i q => dot_S512x256_S256x1024_S512x1024_1_0_0_1_n_n.lhsIdx_val_of_single rfl i q)
    (fun i q => dot_S512x256_S256x1024_S512x1024_1_0_0_1_n_n.rhsIdx_val_of_single rfl i q)
    (fun i q => by
      unfold DotDims.rhsIdx
      rw [dif_neg (show ¬(1 : Fin S256x1024.rank) ∈ dot_S512x256_S256x1024_S512x1024_1_0_0_1_n_n.rhsBatch by decide),
        dif_pos (show (1 : Fin S256x1024.rank) ∈ dot_S512x256_S256x1024_S512x1024_1_0_0_1_n_n.rhsNonContracting by decide)]
      rfl)
    l r p j

/-- The weights-times-values product `[512, 2048] × [2048, 256]` at `(p, j)`. -/
theorem dot_pv_sum (l : S512x2048.Idx → EReal) (r : S2048x256.Idx → EReal) (p : Fin 512) (j : Fin 256) :
    ∑ k : dot_S512x2048_S2048x256_S512x256_1_0_0_1_n_n.contr.Idx,
        l (dot_S512x2048_S2048x256_S512x256_1_0_0_1_n_n.lhsIdx (ix2 p j) k)
          * r (dot_S512x2048_S2048x256_S512x256_1_0_0_1_n_n.rhsIdx (ix2 p j) k)
      = ∑ k : Fin 2048, l (ix2 p k) * r (ix2 k j) :=
  Cert.LibDot.plain_sum (M := 512) (K := 2048) (N := 256) dot_S512x2048_S2048x256_S512x256_1_0_0_1_n_n rfl rfl
    (fun i q => by
      unfold DotDims.lhsIdx
      rw [dif_neg (show ¬(0 : Fin S512x2048.rank) ∈ dot_S512x2048_S2048x256_S512x256_1_0_0_1_n_n.lhsBatch by decide),
        dif_pos (show (0 : Fin S512x2048.rank) ∈ dot_S512x2048_S2048x256_S512x256_1_0_0_1_n_n.lhsNonContracting by decide)]
      rfl)
    (fun i q => dot_S512x2048_S2048x256_S512x256_1_0_0_1_n_n.lhsIdx_val_of_single rfl i q)
    (fun i q => dot_S512x2048_S2048x256_S512x256_1_0_0_1_n_n.rhsIdx_val_of_single rfl i q)
    (fun i q => by
      unfold DotDims.rhsIdx
      rw [dif_neg (show ¬(1 : Fin S2048x256.rank) ∈ dot_S512x2048_S2048x256_S512x256_1_0_0_1_n_n.rhsBatch by decide),
        dif_pos (show (1 : Fin S2048x256.rank) ∈ dot_S512x2048_S2048x256_S512x256_1_0_0_1_n_n.rhsNonContracting by decide)]
      rfl)
    l r p j

/-- The output projection's step `[512, 512] × [512, 256]` at `(p, j)`. -/
theorem dot_out_sum (l : S512x512.Idx → EReal) (r : S512x256.Idx → EReal) (p : Fin 512) (j : Fin 256) :
    ∑ k : dot_S512x512_S512x256_S512x256_1_0_0_1_n_n.contr.Idx,
        l (dot_S512x512_S512x256_S512x256_1_0_0_1_n_n.lhsIdx (ix2 p j) k)
          * r (dot_S512x512_S512x256_S512x256_1_0_0_1_n_n.rhsIdx (ix2 p j) k)
      = ∑ k : Fin 512, l (ix2 p k) * r (ix2 k j) :=
  Cert.LibDot.plain_sum (M := 512) (K := 512) (N := 256) dot_S512x512_S512x256_S512x256_1_0_0_1_n_n rfl rfl
    (fun i q => by
      unfold DotDims.lhsIdx
      rw [dif_neg (show ¬(0 : Fin S512x512.rank) ∈ dot_S512x512_S512x256_S512x256_1_0_0_1_n_n.lhsBatch by decide),
        dif_pos (show (0 : Fin S512x512.rank) ∈ dot_S512x512_S512x256_S512x256_1_0_0_1_n_n.lhsNonContracting by decide)]
      rfl)
    (fun i q => dot_S512x512_S512x256_S512x256_1_0_0_1_n_n.lhsIdx_val_of_single rfl i q)
    (fun i q => dot_S512x512_S512x256_S512x256_1_0_0_1_n_n.rhsIdx_val_of_single rfl i q)
    (fun i q => by
      unfold DotDims.rhsIdx
      rw [dif_neg (show ¬(1 : Fin S512x256.rank) ∈ dot_S512x512_S512x256_S512x256_1_0_0_1_n_n.rhsBatch by decide),
        dif_pos (show (1 : Fin S512x256.rank) ∈ dot_S512x512_S512x256_S512x256_1_0_0_1_n_n.rhsNonContracting by decide)]
      rfl)
    l r p j

/-- The scores' product reads its left operand's row from the output's row … -/
theorem dot_qk_lhs0 (i : S512x2048.Idx) (q : dot_S512x256_S2048x256_S512x2048_1_1_0_0_n_n.contr.Idx) :
    (dot_S512x256_S2048x256_S512x2048_1_1_0_0_n_n.lhsIdx i q 0).val = (i 0).val := by
  unfold DotDims.lhsIdx
  rw [dif_neg (show ¬(0 : Fin S512x256.rank) ∈ dot_S512x256_S2048x256_S512x2048_1_1_0_0_n_n.lhsBatch by decide),
    dif_pos (show (0 : Fin S512x256.rank) ∈ dot_S512x256_S2048x256_S512x2048_1_1_0_0_n_n.lhsNonContracting by decide)]
  rfl

/-- … and its right operand's ROW from the output's column: the right operand is contracted on its second axis. -/
theorem dot_qk_rhs0 (i : S512x2048.Idx) (q : dot_S512x256_S2048x256_S512x2048_1_1_0_0_n_n.contr.Idx) :
    (dot_S512x256_S2048x256_S512x2048_1_1_0_0_n_n.rhsIdx i q 0).val = (i 1).val := by
  unfold DotDims.rhsIdx
  rw [dif_neg (show ¬(0 : Fin S2048x256.rank) ∈ dot_S512x256_S2048x256_S512x2048_1_1_0_0_n_n.rhsBatch by decide),
    dif_pos (show (0 : Fin S2048x256.rank) ∈ dot_S512x256_S2048x256_S512x2048_1_1_0_0_n_n.rhsNonContracting by decide)]
  rfl

/-- The scores' product `[512, 256] × [2048, 256]ᵀ` at `(p, j)`: both operands are contracted on their second axis, so the
    right operand is read at `(j, k)`. The sum is re-indexed through the bijection between a one-axis contraction index
    and its coordinate. -/
theorem dot_qk_sum (l : S512x256.Idx → EReal) (r : S2048x256.Idx → EReal) (p : Fin 512) (j : Fin 2048) :
    ∑ k : dot_S512x256_S2048x256_S512x2048_1_1_0_0_n_n.contr.Idx,
        l (dot_S512x256_S2048x256_S512x2048_1_1_0_0_n_n.lhsIdx (ix2 p j) k)
          * r (dot_S512x256_S2048x256_S512x2048_1_1_0_0_n_n.rhsIdx (ix2 p j) k)
      = ∑ k : Fin 256, l (ix2 p k) * r (ix2 j k) := by
  rw [← Equiv.sum_comp (contrEquiv1 dot_S512x256_S2048x256_S512x2048_1_1_0_0_n_n 256 rfl rfl).symm]
  refine Finset.sum_congr rfl fun k _ => ?_
  have hk := contrEquiv1_symm_val dot_S512x256_S2048x256_S512x2048_1_1_0_0_n_n 256 rfl rfl k
  have el : dot_S512x256_S2048x256_S512x2048_1_1_0_0_n_n.lhsIdx (ix2 p j) ((contrEquiv1 dot_S512x256_S2048x256_S512x2048_1_1_0_0_n_n 256 rfl rfl).symm k) = ix2 p k :=
    funext fun a => Fin.ext (by
      match a with
      | ⟨0, _⟩ => exact dot_qk_lhs0 _ _
      | ⟨1, _⟩ => exact (dot_S512x256_S2048x256_S512x2048_1_1_0_0_n_n.lhsIdx_val_of_single rfl _ _).trans hk)
  have er : dot_S512x256_S2048x256_S512x2048_1_1_0_0_n_n.rhsIdx (ix2 p j) ((contrEquiv1 dot_S512x256_S2048x256_S512x2048_1_1_0_0_n_n 256 rfl rfl).symm k) = ix2 j k :=
    funext fun a => Fin.ext (by
      match a with
      | ⟨0, _⟩ => exact dot_qk_rhs0 _ _
      | ⟨1, _⟩ => exact (dot_S512x256_S2048x256_S512x2048_1_1_0_0_n_n.rhsIdx_val_of_single rfl _ _).trans hk)
  rw [el, er]

/-! ## Region 0: the fused projection -/

/-- The projection block at `(p, j)`: the product of the activation block's row `p` and the weight block's column `j`. -/
theorem pay0_apply (x0 : Vec Ideal S512x256 .bf16) (x1 : Vec Ideal S256x1024 .bf16) (p : Fin 512) (j : Fin 1024) :
    Gen.k0_pay1 (F := Ideal) x0 x1 (ix2 p j) = ∑ k : Fin 256, x0 (ix2 p k) * x1 (ix2 k j) := by
  unfold Gen.k0_pay1
  rw [truncf_apply, shapeCast_self, shapeCast_self]
  simp only [matmul]
  rw [Ideal.matmul_constant_zero_apply]
  exact dot_proj_sum x0 x1 p j

/-! ## Region 2: the output projection's steps -/

/-- The block the accumulation starts from is zero everywhere. -/
theorem pay2_1 (i : S512x256.Idx) : Gen.k2_pay1 (F := Ideal) i = Ideal.ofBits .f32 0x00000000#32 := by
  unfold Gen.k2_pay1
  rw [shapeCast_self]
  rfl

/-- … which is the extended real `0`. -/
theorem pay2_1_zero (i : S512x256.Idx) : Gen.k2_pay1 (F := Ideal) i = 0 :=
  (pay2_1 i).trans Ideal.ofBits_zero_f32

/-- One accumulation step at `(p, o)`: the running block plus the product of the attention block's row `p` and the
    weight block's column `o`. -/
theorem pay2_2_apply (acc : Vec Ideal S512x256 .f32) (x : Vec Ideal S512x512 .bf16) (w : Vec Ideal S512x256 .bf16)
    (p : Fin 512) (o : Fin 256) :
    Gen.k2_pay2 (F := Ideal) acc x w (ix2 p o) = acc (ix2 p o) + ∑ j : Fin 512, x (ix2 p j) * w (ix2 j o) := by
  unfold Gen.k2_pay2
  rw [shapeCast_self, shapeCast_self, shapeCast_self, addf_apply]
  simp only [matmul]
  rw [Ideal.matmul_constant_zero_apply]
  exact congrArg (acc (ix2 p o) + ·) (dot_out_sum x w p o)

/-- The last step at `(p, o)`: the accumulated block plus the bias row at `o`. -/
theorem pay2_3_apply (acc : Vec Ideal S512x256 .f32) (b : Vec Ideal S1x256 .f32) (p : Fin 512) (o : Fin 256) :
    Gen.k2_pay3 (F := Ideal) acc b (ix2 p o) = acc (ix2 p o) + b (ix2 (0 : Fin 1) o) := by
  unfold Gen.k2_pay3
  rw [shapeCast_self, addf_apply, broadcastTo_1b_ab_apply]

/-! ## Region 1: attention for one block of query rows -/

/-- The scores of one query row against every key row: `scores q k j = ∑ d, q d · k j d`. -/
def scores {n m : ℕ} (q : Fin m → EReal) (k : Fin n → Fin m → EReal) (j : Fin n) : EReal := ∑ d : Fin m, q d * k j d

/-- The maximum of a row of scores, folded from `-∞` (the f32 word `0xFF800000`). -/
def rowMax {n : ℕ} (sc : Fin n → EReal) : EReal :=
  (Finset.univ : Finset (Fin n)).fold max (Ideal.ofBits .f32 0xFF800000#32) sc

/-- The exponential of a score less the row's maximum. -/
def expo {n : ℕ} (sc : Fin n → EReal) (j : Fin n) : EReal := Ideal.exp (sc j - rowMax sc)

/-- The row's normaliser: the sum of the exponentials. -/
def denom {n : ℕ} (sc : Fin n → EReal) : EReal := ∑ j : Fin n, expo sc j

/-- The softmax weight of key `j`. -/
def weight {n : ℕ} (sc : Fin n → EReal) (j : Fin n) : EReal := Ideal.div (expo sc j) (denom sc)

/-- The elementwise exponential read at an index. -/
theorem exp_apply {s : Shape} {φ : FTy} (x : FVec Ideal s φ) (i : s.Idx) : exp x i = Ideal.exp (x i) := rfl

/-- The scores block at `(p, j)`: query row `p` against key row `j`. -/
theorem qk_apply (q : FVec Ideal S512x256 .bf16) (kk : FVec Ideal S2048x256 .bf16) (p : Fin 512) (j : Fin 2048) :
    matmul dot_S512x256_S2048x256_S512x2048_1_1_0_0_n_n none q kk (constant S512x2048 .f32 0x00000000#32) (ix2 p j)
      = ∑ d : Fin 256, q (ix2 p d) * kk (ix2 j d) := by
  simp only [matmul]
  rw [Ideal.matmul_constant_zero_apply]
  exact dot_qk_sum q kk p j

/-- The weights-times-values block at `(p, d)`. -/
theorem pv_apply (w : FVec Ideal S512x2048 .bf16) (v : FVec Ideal S2048x256 .bf16) (p : Fin 512) (d : Fin 256) :
    matmul dot_S512x2048_S2048x256_S512x256_1_0_0_1_n_n none w v (constant S512x256 .f32 0x00000000#32) (ix2 p d)
      = ∑ j : Fin 2048, w (ix2 p j) * v (ix2 j d) := by
  simp only [matmul]
  rw [Ideal.matmul_constant_zero_apply]
  exact dot_pv_sum w v p d

/-- A row maximum kept as a column and repeated along the row, read at `(p, j)`: the maximum of row `p`. -/
theorem rowMax_col (s : FVec Ideal S512x2048 .f32) (hφ : FKind.Formats .f32) (hmax : (0xFF800000#32 : BitVec 32) = 0xFF800000#32)
    (p : Fin 512) (j : Fin 2048) :
    (broadcastTo S512x2048 (shapeCast S512x1 (multiReduction .maximumf [1] S512 s 0xFF800000#32 reduces_S512x2048_S512 hφ hmax) shapeCasts_S512_S512x1) broadcasts_S512x1_S512x2048) (ix2 p j)
      = rowMax (fun j' : Fin 2048 => s (ix2 p j')) := by
  rw [broadcastTo_a1_ab_apply, shapeCast_a_a1_apply]
  refine (Ideal.multiReduction_maximumf_single s _ reduces_S512x2048_S512 hφ hmax (ix1 p)).trans ?_
  unfold rowMax
  show (Finset.univ : Finset (Fin 2048)).fold max (Ideal.ofBits .f32 0xFF800000#32) (fun k => s (reduces_S512x2048_S512.lift (ix1 p) k)) = _
  refine congrArg (fun f => (Finset.univ : Finset (Fin 2048)).fold max (Ideal.ofBits .f32 0xFF800000#32) f)
    (funext fun k => congrArg s (funext fun a => Fin.ext ?_))
  match a with
  | ⟨0, _⟩ => rfl
  | ⟨1, _⟩ => rfl

/-- A row sum kept as a column and repeated along the row, read at `(p, j)`: the sum of row `p`. -/
theorem rowSum_col (e : FVec Ideal S512x2048 .f32) (hφ : FKind.Formats .f32) (hadd : (0x00000000#32 : BitVec 32) = 0x00000000#32)
    (p : Fin 512) (j : Fin 2048) :
    (broadcastTo S512x2048 (shapeCast S512x1 (multiReduction .add [1] S512 e 0x00000000#32 reduces_S512x2048_S512 hφ hadd) shapeCasts_S512_S512x1) broadcasts_S512x1_S512x2048) (ix2 p j)
      = ∑ j' : Fin 2048, e (ix2 p j') := by
  rw [broadcastTo_a1_ab_apply, shapeCast_a_a1_apply]
  refine (Ideal.multiReduction_add_single e _ reduces_S512x2048_S512 hφ hadd (ix1 p)).trans ?_
  show ∑ k : Fin 2048, e (reduces_S512x2048_S512.lift (ix1 p) k) = _
  refine Finset.sum_congr rfl fun k _ => congrArg e (funext fun a => Fin.ext ?_)
  match a with
  | ⟨0, _⟩ => rfl
  | ⟨1, _⟩ => rfl

/-- The exponentials block at `(p, j)`, from a block of scores `s`. -/
theorem expo_apply (s : FVec Ideal S512x2048 .f32) (hφ : FKind.Formats .f32) (hmax : (0xFF800000#32 : BitVec 32) = 0xFF800000#32)
    (p : Fin 512) (j : Fin 2048) :
    (exp (subf s (broadcastTo S512x2048 (shapeCast S512x1 (multiReduction .maximumf [1] S512 s 0xFF800000#32 reduces_S512x2048_S512 hφ hmax) shapeCasts_S512_S512x1) broadcasts_S512x1_S512x2048))) (ix2 p j)
      = expo (fun j' : Fin 2048 => s (ix2 p j')) j :=
  (exp_apply _ _).trans (congrArg Ideal.exp ((subf_apply _ _ _).trans
    (congrArg (s (ix2 p j) - ·) (rowMax_col s hφ hmax p j))))

/-- The softmax weights block at `(p, j)`, from a block of scores `s`. -/
theorem weight_apply (s : FVec Ideal S512x2048 .f32) (hφ : FKind.Formats .f32) (hmax : (0xFF800000#32 : BitVec 32) = 0xFF800000#32)
    (hadd : (0x00000000#32 : BitVec 32) = 0x00000000#32) (hb : FTy.bits .bf16 < FTy.bits .f32) (p : Fin 512) (j : Fin 2048) :
    truncf .bf16 (divf (exp (subf s (broadcastTo S512x2048 (shapeCast S512x1 (multiReduction .maximumf [1] S512 s 0xFF800000#32 reduces_S512x2048_S512 hφ hmax) shapeCasts_S512_S512x1) broadcasts_S512x1_S512x2048)))
        (broadcastTo S512x2048 (shapeCast S512x1 (multiReduction .add [1] S512 (exp (subf s (broadcastTo S512x2048 (shapeCast S512x1 (multiReduction .maximumf [1] S512 s 0xFF800000#32 reduces_S512x2048_S512 hφ hmax) shapeCasts_S512_S512x1) broadcasts_S512x1_S512x2048))) 0x00000000#32 reduces_S512x2048_S512 hφ hadd) shapeCasts_S512_S512x1) broadcasts_S512x1_S512x2048)) hb (ix2 p j)
      = weight (fun j' : Fin 2048 => s (ix2 p j')) j := by
  refine (truncf_apply (φ := .f32) (ψ := .bf16) _ hb (ix2 p j)).trans ((divf_apply _ _ _).trans ?_)
  unfold weight denom
  refine congr (congrArg Ideal.div (expo_apply s hφ hmax p j)) ?_
  refine (rowSum_col _ hφ hadd p j).trans ?_
  exact Finset.sum_congr rfl fun j' _ => expo_apply s hφ hmax p j'

/-- The attention block at `(p, d)`: with `sc` the scores of query row `p` against the 2048 key rows, the sum over the
    keys of the softmax weight of key `j` times value row `j` at `d`. -/
theorem pay1_apply (q : Vec Ideal S512x256 .bf16) (kk v : Vec Ideal S2048x256 .bf16) (p : Fin 512) (d : Fin 256) :
    Gen.k1_pay1 (F := Ideal) q kk v (ix2 p d)
      = ∑ j : Fin 2048,
          weight (scores (fun d' : Fin 256 => q (ix2 p d')) (fun (j' : Fin 2048) (d' : Fin 256) => kk (ix2 j' d'))) j
            * v (ix2 j d) := by
  unfold Gen.k1_pay1
  rw [shapeCast_self, shapeCast_self, shapeCast_self]
  have hsc : (fun j' : Fin 2048 => matmul (F := Ideal) (φ₁ := .bf16) (φ₂ := .bf16) dot_S512x256_S2048x256_S512x2048_1_1_0_0_n_n none q kk
        (constant S512x2048 .f32 0x00000000#32) (ix2 p j'))
      = scores (fun d' : Fin 256 => q (ix2 p d')) (fun (j' : Fin 2048) (d' : Fin 256) => kk (ix2 j' d')) :=
    funext fun j' => qk_apply q kk p j'
  generalize matmul (F := Ideal) (φ₁ := .bf16) (φ₂ := .bf16) dot_S512x256_S2048x256_S512x2048_1_1_0_0_n_n none q kk
    (constant S512x2048 .f32 0x00000000#32) = s at hsc ⊢
  refine Eq.trans ?_ (congrArg (fun sc : Fin 2048 → EReal => ∑ j : Fin 2048, weight sc j * v (ix2 j d)) hsc)
  refine (truncf_apply (φ := .f32) (ψ := .bf16) _ bitsLt_bf16_f32 (ix2 p d)).trans ?_
  refine (pv_apply _ v p d).trans ?_
  exact Finset.sum_congr rfl fun j _ => congrArg (· * v (ix2 j d)) (weight_apply s _ _ _ _ p j)

end Cert.KernelIdeal.Hand

end
-- ==== Proof.KI.Value0.lean ====
/-
  The value of region 0: the fused projection, as one function of the two arrays the region reads.

  Grid point (i, j) writes back block (i, j) of the product of the activations [4096, 256] and the fused weights
  [256, 6144]: its payload is the product of row block i and column block j, and an element of a block sits in its
  array at block index × block size + its coordinate inside the block. The 8 × 6 blocks tile the projection
  [4096, 6144], so after the region the array is the product everywhere.
-/
import proofs.«160521_j42159398978166_2_alg».proof.Proof.KI.Region0
import proofs.«160521_j42159398978166_2_alg».proof.Proof.KI.Payloads
import Idealize.ShloMosaic.Lib.Pipeline.Value

set_option maxRecDepth 16384

noncomputable section

open scoped BigOperators

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The product of the activations `X` [4096, 256] and the fused weights `W` [256, 6144], index by index. -/
def qkvOf (X : S4096x256.Idx → EReal) (W : S256x6144.Idx → EReal) : S4096x6144.Idx → EReal := fun i =>
  ∑ e : Fin 256, X (ix2 (⟨(i 0).val, (i 0).isLt⟩ : Fin 4096) e) * W (ix2 e (⟨(i 1).val, (i 1).isLt⟩ : Fin 6144))

theorem qkvOf_ix2 (X : S4096x256.Idx → EReal) (W : S256x6144.Idx → EReal) (r : Fin 4096) (n : Fin 6144) :
    qkvOf X W (ix2 r n) = ∑ e : Fin 256, X (ix2 r e) * W (ix2 e n) := rfl

/-- The zero offsets of a whole-buffer access, however spelt. -/
theorem offZero0 : (![0, 0] : Fin 2 → Nat) = fun _ => 0 := funext fun a => by fin_cases a <;> rfl

/-- The printed index maps, decided over the 48 grid points: the activations' block moves with the output's row block
    and stays in column block 0; the weights' block stays in row block 0 and moves with the output's column block; the
    output's block indices stay in their ranges. -/
theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = win0_2.index t (1 : Fin 2)
    ∧ win0_2.index t (0 : Fin 2) ≤ 7
    ∧ win0_2.index t (1 : Fin 2) ≤ 5 :=
  (by decide +kernel : ∀ t : Fin grid0.N, _)

/-- Every block of the projection is SOME point's. -/
theorem idx_onto0 : ∀ (q0 : Fin 8) (q1 : Fin 6), ∃ t : Fin cfg0.N, win0_2.index t = ![q0.val, q1.val] :=
  (by decide +kernel : ∀ (q0 : Fin 8) (q1 : Fin 6), ∃ t : Fin grid0.N, win0_2.index t = ![q0.val, q1.val])

/-- The activations' block at point `t`, read at `(p, k)`: the array at the index whose coordinates are the block's
    indices times the block's sizes plus `(p, k)`. -/
theorem iblk0_0_apply (c : Dev nD) (t : Fin cfg0.N) (p : Fin 512) (k : Fin 256) (i : S4096x256.Idx)
    (h0 : (i 0).val = win0_0.index t (0 : Fin 2) * 512 + p.val) (h1 : (i 1).val = win0_0.index t (1 : Fin 2) * 256 + k.val) :
    iblk0 V c 0 t (ix2 p k) = V c main_v1 i := by
  show V c main_v1 (((cfg0.win 0).blk t).view.emb (ix2 p k)) = V c main_v1 i
  refine congrArg (V c main_v1) (funext fun a => Fin.ext ?_)
  match a with
  | ⟨0, _⟩ => show win0_0.index t (0 : Fin 2) * 512 + 1 * p.val = (i 0).val; omega
  | ⟨1, _⟩ => show win0_0.index t (1 : Fin 2) * 256 + 1 * k.val = (i 1).val; omega

/-- The weights' block at point `t`, read at `(k, q)`. -/
theorem iblk0_1_apply (c : Dev nD) (t : Fin cfg0.N) (k : Fin 256) (q : Fin 1024) (i : S256x6144.Idx)
    (h0 : (i 0).val = win0_1.index t (0 : Fin 2) * 256 + k.val) (h1 : (i 1).val = win0_1.index t (1 : Fin 2) * 1024 + q.val) :
    iblk0 V c 1 t (ix2 k q) = V c main_v10 i := by
  show V c main_v10 (((cfg0.win 1).blk t).view.emb (ix2 k q)) = V c main_v10 i
  refine congrArg (V c main_v10) (funext fun a => Fin.ext ?_)
  match a with
  | ⟨0, _⟩ => show win0_1.index t (0 : Fin 2) * 256 + 1 * k.val = (i 0).val; omega
  | ⟨1, _⟩ => show win0_1.index t (1 : Fin 2) * 1024 + 1 * q.val = (i 1).val; omega

/-- WHAT POINT `t` WRITES BACK is block `t` of the product of the two arrays as the region finds them. -/
theorem flushed0_eq (c : Dev nD) (t : Fin cfg0.N) :
    (dat0 (F := Ideal) V c).flushed 2 t
      = ((cfg0.win 2).blk t).view.read (Elt Ideal) (qkvOf (V c main_v1) (V c main_v10)) := by
  show (cfg0.win 2).cut (grid0.coords t) ((dat0 (F := Ideal) V c).after 2 t) = _
  rw [after0_2]
  unfold out0_2
  rw [View.canon_unit_zero offZero0]
  simp only [View.ld_unit_zero (S := S512x256) offZero0, View.ld_unit_zero (S := S256x1024) offZero0]
  obtain ⟨e0, e1, e2, e3, e4, e5⟩ := idx_facts0 t
  funext j
  obtain ⟨p, q, rfl⟩ : ∃ (p : Fin 512) (q : Fin 1024), j = ix2 p q := ⟨j 0, j 1, eq_ix2 j⟩
  show k0_pay1 (F := Ideal) (iblk0 V c 0 t) (iblk0 V c 1 t) (ix2 p q)
    = qkvOf (V c main_v1) (V c main_v10) (((cfg0.win 2).blk t).view.emb (ix2 p q))
  refine (pay0_apply (iblk0 V c 0 t) (iblk0 V c 1 t) p q).trans ?_
  unfold qkvOf
  refine Finset.sum_congr rfl fun k _ => ?_
  refine congrArg₂ (· * ·) ?_ ?_
  · refine iblk0_0_apply V c t p k _ ?_ ?_
    · show (((cfg0.win 2).blk t).view.emb (ix2 p q) (0 : Fin 2)).val = _
      show win0_2.index t (0 : Fin 2) * 512 + 1 * p.val = _
      omega
    · show k.val = _
      omega
  · refine iblk0_1_apply V c t k q _ ?_ ?_
    · show k.val = _
      omega
    · show win0_2.index t (1 : Fin 2) * 1024 + 1 * q.val = _
      omega

/-- An index of the projection is in point `t`'s block iff each coordinate is in the block's range on its axis. -/
theorem mem_blk0 (t : Fin cfg0.N) (i : S4096x6144.Idx) :
    i ∈ ((cfg0.win 2).blk t).view.set ↔ ∀ a : Fin 2, win0_2.index t a * S512x1024.size a ≤ (i a).val
      ∧ (i a).val < win0_2.index t a * S512x1024.size a + S512x1024.size a := by
  show i ∈ ((View.whole main_v14).slice (win0_2.rect t)).set ↔ _
  rw [View.set_slice_whole, Rect.mem_set_unit]
  exact Iff.rfl

/-- The 8 × 6 blocks cover the projection: index `(r, n)` is in the block of the point whose block indices are
    `(r / 512, n / 1024)`. -/
theorem cover0 (i : S4096x6144.Idx) : ∃ t : Fin cfg0.N, (cfg0.win 2).flush t = true ∧ i ∈ ((cfg0.win 2).blk t).view.set := by
  have hi0 : (i 0).val < 4096 := (i 0).isLt
  have hi1 : (i 1).val < 6144 := (i 1).isLt
  obtain ⟨t, ht⟩ := idx_onto0 ⟨(i 0).val / 512, by omega⟩ ⟨(i 1).val / 1024, by omega⟩
  have q0 : win0_2.index t (0 : Fin 2) = (i 0).val / 512 := congrFun ht 0
  have q1 : win0_2.index t (1 : Fin 2) = (i 1).val / 1024 := congrFun ht 1
  refine ⟨t, flush0_2 t, ?_⟩
  rw [mem_blk0]
  intro a
  match a with
  | ⟨0, _⟩ =>
    show win0_2.index t (0 : Fin 2) * 512 ≤ (i 0).val ∧ (i 0).val < win0_2.index t (0 : Fin 2) * 512 + 512
    omega
  | ⟨1, _⟩ =>
    show win0_2.index t (1 : Fin 2) * 1024 ≤ (i 1).val ∧ (i 1).val < win0_2.index t (1 : Fin 2) * 1024 + 1024
    omega

/-- THE PROJECTION after the region: the product of the two arrays as the region finds them, everywhere. -/
theorem final0 (c : Dev nD) :
    (dat0 (F := Ideal) V c).arrAt 2 cfg0.N = qkvOf (V c main_v1) (V c main_v10) :=
  (dat0 (F := Ideal) V c).arrAt_eq_of_cover 2 (qkvOf (V c main_v1) (V c main_v10))
    (fun t _ => flushed0_eq V c t) cover0

end Cert.KernelIdeal.Hand

end
-- ==== Proof.KI.Value1.lean ====
import proofs.«160521_j42159398978166_2_alg».proof.Proof.KI.Region1
import proofs.«160521_j42159398978166_2_alg».proof.Proof.KI.Payloads
import Idealize.ShloMosaic.Lib.Pipeline.Value
import Idealize.ShloMosaic.Lib.Tactic

/-! # The value of region 1 at the ideal values: attention, from blocks to the array

The array the three input windows read packs, per row, the queries (columns 0 to 2047), the keys (2048 to 4095) and
the values (4096 to 6143), eight heads of 256 columns each; its 4096 rows are two batches of 2048 positions. Point
(b, h, qi) of the grid reads the 512 query rows b·2048 + qi·512 + p of head h, all 2048 key rows and value rows of batch
b and head h, and writes the 512 × 256 block of the output at rows b·2048 + qi·512 + p and columns h·256 + d. Every
block written is the restriction of ONE function of the packed array, attnOf; the blocks tile the output; so the
output array ends holding attnOf of the packed array. -/

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

/-! ## The function -/

/-- The row of the packed array holding key and value row j of the batch of output index i. -/
def kvRow (i : S4096x2048.Idx) (j : Fin 2048) : Fin 4096 :=
  ⟨(i 0).val / 2048 * 2048 + j.val, by have := idx2_lt0 i; have := j.isLt; omega⟩

/-- The query row of output index i: the same row of the packed array. -/
def qRow (i : S4096x2048.Idx) : Fin 4096 := ⟨(i 0).val, idx2_lt0 i⟩

/-- The column of the packed array holding query coordinate d' of the head of output index i, -/
def qCol (i : S4096x2048.Idx) (d' : Fin 256) : Fin 6144 :=
  ⟨(i 1).val / 256 * 256 + d'.val, by have := idx2_lt1 i; have := d'.isLt; omega⟩

/-- key coordinate d' of that head, -/
def kCol (i : S4096x2048.Idx) (d' : Fin 256) : Fin 6144 :=
  ⟨2048 + (i 1).val / 256 * 256 + d'.val, by have := idx2_lt1 i; have := d'.isLt; omega⟩

/-- and the value coordinate of output index i itself. -/
def vCol (i : S4096x2048.Idx) : Fin 6144 := ⟨4096 + (i 1).val, by have := idx2_lt1 i; omega⟩

/-- Attention read off the packed projections Q, at output index i = (r, n), with b = r / 2048 the batch and
    h = n / 256 the head: the scores of query row r against the 2048 key rows of batch b (over the 256 coordinates of
    head h), their softmax weights, and the weighted sum of the value rows at column n. -/
def attnOf (Q : S4096x6144.Idx → EReal) : S4096x2048.Idx → EReal := fun i =>
  ∑ j : Fin 2048,
    weight (scores (fun d' : Fin 256 => Q (ix2 (qRow i) (qCol i d')))
        (fun (j' : Fin 2048) (d' : Fin 256) => Q (ix2 (kvRow i j') (kCol i d')))) j
      * Q (ix2 (kvRow i j) (vCol i))

/-- attnOf at batch b, position s, head h, coordinate d, in coordinates. -/
theorem attnOf_ix (Q : S4096x6144.Idx → EReal) (b : Fin 2) (s : Fin 2048) (h : Fin 8) (d : Fin 256)
    (r : Fin 4096) (n : Fin 2048) (hr : r.val = b.val * 2048 + s.val) (hn : n.val = h.val * 256 + d.val)
    (row : Fin 2048 → Fin 4096) (hrow : ∀ j, (row j).val = b.val * 2048 + j.val)
    (qc kc : Fin 256 → Fin 6144) (hqc : ∀ d', (qc d').val = h.val * 256 + d'.val) (hkc : ∀ d', (kc d').val = 2048 + h.val * 256 + d'.val)
    (vc : Fin 6144) (hvc : vc.val = 4096 + h.val * 256 + d.val) :
    attnOf Q (ix2 r n)
      = ∑ j : Fin 2048,
          weight (scores (fun d' : Fin 256 => Q (ix2 r (qc d'))) (fun (j' : Fin 2048) (d' : Fin 256) => Q (ix2 (row j') (kc d')))) j
            * Q (ix2 (row j) vc) := by
  have hs := s.isLt; have hd := d.isLt
  have e0 : qRow (ix2 r n) = r := Fin.ext rfl
  have e1 : ∀ d', qCol (ix2 r n) d' = qc d' := fun d' => Fin.ext (by
    show n.val / 256 * 256 + d'.val = _; rw [hqc, hn]; omega)
  have e2 : ∀ j, kvRow (ix2 r n) j = row j := fun j => Fin.ext (by
    show r.val / 2048 * 2048 + j.val = _; rw [hrow, hr]; omega)
  have e3 : ∀ d', kCol (ix2 r n) d' = kc d' := fun d' => Fin.ext (by
    show 2048 + n.val / 256 * 256 + d'.val = _; rw [hkc, hn]; omega)
  have e4 : vCol (ix2 r n) = vc := Fin.ext (by show 4096 + n.val = _; rw [hvc, hn]; omega)
  unfold attnOf
  simp only [e0, e1, e2, e3, e4]

/-! ## One block -/

/-- The body's payload at (p, d) of the block whose row-block index is i0 and column-block index i1, when the three
    loaded blocks are the packed array's blocks the windows name, is attnOf of the packed array at the block's
    element (i0·512 + p, i1·256 + d). -/
theorem attn_block (Q : S4096x6144.Idx → EReal) (x0 : Vec Ideal S512x256 .bf16) (x1 x2 : Vec Ideal S2048x256 .bf16)
    (i0 i1 : ℕ)
    (h0 : ∀ (p : Fin 512) (d' : Fin 256) (y : S4096x6144.Idx), (y 0).val = i0 * 512 + p.val → (y 1).val = i1 * 256 + d'.val →
      x0 (ix2 p d') = Q y)
    (h1 : ∀ (j : Fin 2048) (d' : Fin 256) (y : S4096x6144.Idx), (y 0).val = i0 / 4 * 2048 + j.val → (y 1).val = 2048 + i1 * 256 + d'.val →
      x1 (ix2 j d') = Q y)
    (h2 : ∀ (j : Fin 2048) (d : Fin 256) (y : S4096x6144.Idx), (y 0).val = i0 / 4 * 2048 + j.val → (y 1).val = 4096 + i1 * 256 + d.val →
      x2 (ix2 j d) = Q y)
    (p : Fin 512) (d : Fin 256) (i : S4096x2048.Idx) (hr : (i 0).val = i0 * 512 + p.val) (hn : (i 1).val = i1 * 256 + d.val) :
    Gen.k1_pay1 (F := Ideal) x0 x1 x2 (ix2 p d) = attnOf Q i := by
  have hp := p.isLt; have hd := d.isLt
  rw [pay1_apply]
  unfold attnOf
  have eq : (fun d' : Fin 256 => x0 (ix2 p d')) = fun d' : Fin 256 => Q (ix2 (qRow i) (qCol i d')) :=
    funext fun d' => h0 p d' _ (by show (i 0).val = _; exact hr) (by
      have := d'.isLt; show (i 1).val / 256 * 256 + d'.val = _; rw [hn]; omega)
  have ek : (fun (j' : Fin 2048) (d' : Fin 256) => x1 (ix2 j' d')) = fun (j' : Fin 2048) (d' : Fin 256) => Q (ix2 (kvRow i j') (kCol i d')) :=
    funext fun j' => funext fun d' => h1 j' d' _ (by
      show (i 0).val / 2048 * 2048 + j'.val = _; rw [hr]; omega) (by
      have := d'.isLt; show 2048 + (i 1).val / 256 * 256 + d'.val = _; rw [hn]; omega)
  rw [eq, ek]
  refine Finset.sum_congr rfl fun j _ => ?_
  rw [h2 j d (ix2 (kvRow i j) (vCol i)) (by show (i 0).val / 2048 * 2048 + j.val = _; rw [hr]; omega)
    (by show 4096 + (i 1).val = _; rw [hn]; omega)]

/-! ## From blocks to the array -/

theorem hz1 : (![0, 0] : Fin 2 → Nat) = fun _ => 0 := funext fun a => by fin_cases a <;> rfl

/-- The printed index maps, decided over the grid: the query window moves with the output window; the key and the
    value windows sit at the output's row-block index divided by four (the batch), eight and sixteen column blocks
    to the right of the output's head; the output's block indices stay in their ranges. -/
theorem idx_facts1 : ∀ t : Fin cfg1.N, win1_0.index t (0 : Fin 2) = win1_3.index t (0 : Fin 2)
    ∧ win1_0.index t (1 : Fin 2) = win1_3.index t (1 : Fin 2)
    ∧ win1_1.index t (0 : Fin 2) = win1_3.index t (0 : Fin 2) / 4
    ∧ win1_1.index t (1 : Fin 2) = 8 + win1_3.index t (1 : Fin 2)
    ∧ win1_2.index t (0 : Fin 2) = win1_3.index t (0 : Fin 2) / 4
    ∧ win1_2.index t (1 : Fin 2) = 16 + win1_3.index t (1 : Fin 2)
    ∧ win1_3.index t (0 : Fin 2) ≤ 7 ∧ win1_3.index t (1 : Fin 2) ≤ 7 :=
  (by decide +kernel : ∀ t : Fin grid1.N, _)

/-- Every block of the output array is SOME point's. -/
theorem idx_onto1 : ∀ (q0 : Fin 8) (q1 : Fin 8), ∃ t : Fin cfg1.N, win1_3.index t = ![q0.val, q1.val] :=
  (by decide +kernel : ∀ (q0 : Fin 8) (q1 : Fin 8), ∃ t : Fin grid1.N, win1_3.index t = ![q0.val, q1.val])

section Final
variable (V : (c : Dev nD) → (b : Ref sig .tc) → Buf (Elt Ideal) ((c : Thread nD τ).loc b))

/-- WHAT POINT t WRITES BACK is block t of attnOf of the packed array as the region finds it. -/
theorem flushed1_eq (c : Dev nD) (t : Fin cfg1.N) :
    (dat1 (F := Ideal) V c).flushed 3 t = ((cfg1.win 3).blk t).view.read (Elt Ideal) (attnOf (V c main_v14)) := by
  show (cfg1.win 3).cut (grid1.coords t) ((dat1 (F := Ideal) V c).after 3 t) = _
  rw [after1_3]
  unfold out1_3
  rw [View.canon_unit_zero hz1]
  simp only [View.ld_unit_zero (S := S512x256) hz1, View.ld_unit_zero (S := S2048x256) hz1]
  obtain ⟨e0, e1, e2, e3, e4, e5, e6, e7⟩ := idx_facts1 t
  funext j
  obtain ⟨p, d, rfl⟩ : ∃ (p : Fin 512) (d : Fin 256), j = ix2 p d := ⟨j 0, j 1, eq_ix2 j⟩
  show Gen.k1_pay1 (F := Ideal) (iblk1 V c 0 t) (iblk1 V c 1 t) (iblk1 V c 2 t) (ix2 p d)
    = attnOf (V c main_v14) (((cfg1.win 3).blk t).view.emb (ix2 p d))
  refine attn_block (V c main_v14) _ _ _ (win1_3.index t (0 : Fin 2)) (win1_3.index t (1 : Fin 2)) ?_ ?_ ?_ p d _ ?_ ?_
  · intro p' d' y hy0 hy1
    show V c main_v14 (((cfg1.win 0).blk t).view.emb (ix2 p' d')) = V c main_v14 y
    refine congrArg (V c main_v14) (funext fun a => Fin.ext ?_)
    match a with
    | ⟨0, _⟩ => show win1_0.index t (0 : Fin 2) * 512 + 1 * p'.val = (y 0).val; omega
    | ⟨1, _⟩ => show win1_0.index t (1 : Fin 2) * 256 + 1 * d'.val = (y 1).val; omega
  · intro j' d' y hy0 hy1
    show V c main_v14 (((cfg1.win 1).blk t).view.emb (ix2 j' d')) = V c main_v14 y
    refine congrArg (V c main_v14) (funext fun a => Fin.ext ?_)
    match a with
    | ⟨0, _⟩ => show win1_1.index t (0 : Fin 2) * 2048 + 1 * j'.val = (y 0).val; omega
    | ⟨1, _⟩ => show win1_1.index t (1 : Fin 2) * 256 + 1 * d'.val = (y 1).val; omega
  · intro j' d' y hy0 hy1
    show V c main_v14 (((cfg1.win 2).blk t).view.emb (ix2 j' d')) = V c main_v14 y
    refine congrArg (V c main_v14) (funext fun a => Fin.ext ?_)
    match a with
    | ⟨0, _⟩ => show win1_2.index t (0 : Fin 2) * 2048 + 1 * j'.val = (y 0).val; omega
    | ⟨1, _⟩ => show win1_2.index t (1 : Fin 2) * 256 + 1 * d'.val = (y 1).val; omega
  · show win1_3.index t (0 : Fin 2) * 512 + 1 * p.val = _; omega
  · show win1_3.index t (1 : Fin 2) * 256 + 1 * d.val = _; omega

/-- An index of the output array is in point t's block iff each coordinate is in the block's range on its axis. -/
theorem mem_blk1 (t : Fin cfg1.N) (i : S4096x2048.Idx) :
    i ∈ ((cfg1.win 3).blk t).view.set ↔ ∀ a : Fin 2, win1_3.index t a * S512x256.size a ≤ (i a).val ∧ (i a).val < win1_3.index t a * S512x256.size a + S512x256.size a := by
  show i ∈ ((View.whole main_v15).slice (win1_3.rect t)).set ↔ _
  rw [View.set_slice_whole, Rect.mem_set_unit]
  exact Iff.rfl

/-- The output's blocks tile its array: every index is in the block of the point whose block indices are the
    index's row divided by 512 and column divided by 256. -/
theorem cover1 (i : S4096x2048.Idx) : ∃ t : Fin cfg1.N, (cfg1.win 3).flush t = true ∧ i ∈ ((cfg1.win 3).blk t).view.set := by
  have hi0 : (i 0).val < 4096 := idx2_lt0 i
  have hi1 : (i 1).val < 2048 := idx2_lt1 i
  obtain ⟨t, ht⟩ := idx_onto1 ⟨(i 0).val / 512, by omega⟩ ⟨(i 1).val / 256, by omega⟩
  have q0 : win1_3.index t (0 : Fin 2) = (i 0).val / 512 := congrFun ht 0
  have q1 : win1_3.index t (1 : Fin 2) = (i 1).val / 256 := congrFun ht 1
  refine ⟨t, flush1_3 t, ?_⟩
  rw [mem_blk1]
  intro a
  match a with
  | ⟨0, _⟩ => show win1_3.index t (0 : Fin 2) * 512 ≤ (i 0).val ∧ (i 0).val < win1_3.index t (0 : Fin 2) * 512 + 512; omega
  | ⟨1, _⟩ => show win1_3.index t (1 : Fin 2) * 256 ≤ (i 1).val ∧ (i 1).val < win1_3.index t (1 : Fin 2) * 256 + 256; omega

/-- THE OUTPUT ARRAY after the region: attnOf of the packed array as the region finds it. -/
theorem final1 (c : Dev nD) : (dat1 (F := Ideal) V c).arrAt 3 cfg1.N = attnOf (V c main_v14) :=
  (dat1 (F := Ideal) V c).arrAt_eq_of_cover 3 (attnOf (V c main_v14)) (fun t _ => flushed1_eq V c t) cover1

end Final

end Cert.KernelIdeal.Hand

end
-- ==== Proof.Spec.lean ====
/-
  The specification: multi-head attention with an exact softmax, as ONE function of the six argument arrays on the
  extended reals, in the arrangement in which the reference computes it.

  Arguments: the activations `x` [2, 2048, 256] (batch, position, feature), the three projection matrices `wq`, `wk`,
  `wv` [2048, 256] (output column, feature), the output projection `wo` [256, 2048] and its bias `bo` [256].
  Column `h·256 + d` of a projection is feature `d` of head `h` (8 heads of width 256).

    proj W (b, s, n)        = ∑ e, x (b, s, e) · W (n, e)
    scaled W (b, h, s, d)   = proj W (b, s, h·256 + d) / 4                        (queries and keys; 4 = 256^(1/4))
    scores (b, h, s, j)     = ∑ d, scaled wq (b, h, s, d) · scaled wk (b, h, j, d)
    rowmax (b, h, s)        = max (−∞) (the maximum over j of scores (b, h, s, j), started at −∞)
    expo (b, h, s, j)       = exp (scores (b, h, s, j) − rowmax (b, h, s))
    denom (b, h, s)         = 0 + ∑ j, expo (b, h, s, j)
    weight (b, h, s, j)     = expo (b, h, s, j) / denom (b, h, s)
    headOut (b, h, s, d)    = ∑ j, weight (b, h, s, j) · proj wv (b, j, h·256 + d)
    merged (b, s, n)        = headOut (b, n / 256, s, n % 256)
    attention (b, s, o)     = (∑ n, merged (b, s, n) · wo (o, n)) + bo o

  The float literals stay the words the programs spell (`Ideal.ofBits .f32 …`); what they denote is stated once, at
  the end: 4, −∞ (the bottom of the extended reals) and 0, so that the row maximum is the plain maximum over the row
  and the denominator the plain sum.
-/
import Idealize.ShloMosaic.PureOps.Ideal.Laws
import Idealize.ShloMosaic.Lib.ValueIdx

noncomputable section

open scoped BigOperators

namespace Cert.Spec

open Idealize.ShloMosaic Idealize.ShloMosaic.ValueIdx

/-- The activations' and the result's shape. -/
abbrev SX : Shape := ⟨3, ![2, 2048, 256]⟩
/-- A projection matrix's shape (output column, feature). -/
abbrev SW : Shape := ⟨2, ![2048, 256]⟩
/-- The output projection's shape (output feature, merged column). -/
abbrev SWo : Shape := ⟨2, ![256, 2048]⟩
/-- The bias's shape. -/
abbrev SB : Shape := ⟨1, ![256]⟩

/-- The divisor of the queries and keys, `4.0`. -/
abbrev four : EReal := Ideal.ofBits .f32 0x40800000#32
/-- The row maximum's starting value, `-inf`. -/
abbrev negInf : EReal := Ideal.ofBits .f32 0xFF800000#32
/-- The denominator's starting value, `0.0`. -/
abbrev zero : EReal := Ideal.ofBits .f32 0x00000000#32

/-- Column `h·256 + d` of a projection: feature `d` of head `h`. -/
def headCol (h : Fin 8) (d : Fin 256) : Fin 2048 :=
  ⟨h.val * 256 + d.val, by have := h.isLt; have := d.isLt; omega⟩

/-- The head of a merged column, `n / 256`. -/
def colHead (n : Fin 2048) : Fin 8 := ⟨n.val / 256, by have := n.isLt; omega⟩
/-- The feature of a merged column inside its head, `n % 256`. -/
def colFeat (n : Fin 2048) : Fin 256 := ⟨n.val % 256, by have := n.isLt; omega⟩

theorem headCol_colHead_colFeat (n : Fin 2048) : headCol (colHead n) (colFeat n) = n :=
  Fin.ext (by show n.val / 256 * 256 + n.val % 256 = n.val; omega)

theorem colHead_headCol (h : Fin 8) (d : Fin 256) : colHead (headCol h d) = h :=
  Fin.ext (by have := h.isLt; have := d.isLt; show (h.val * 256 + d.val) / 256 = h.val; omega)

theorem colFeat_headCol (h : Fin 8) (d : Fin 256) : colFeat (headCol h d) = d :=
  Fin.ext (by have := h.isLt; have := d.isLt; show (h.val * 256 + d.val) % 256 = d.val; omega)

section
variable (x : SX.Idx → EReal) (wq wk wv : SW.Idx → EReal) (wo : SWo.Idx → EReal) (bo : SB.Idx → EReal)

/-- A projection of the activations: row `(b, s)` against column `n` of `w`. -/
def proj (w : SW.Idx → EReal) (b : Fin 2) (s n : Fin 2048) : EReal :=
  ∑ e : Fin 256, x (ix3 b s e) * w (ix2 n e)

/-- A query or key entry: the projection's head entry divided by `4.0`. -/
def scaled (w : SW.Idx → EReal) (b : Fin 2) (h : Fin 8) (s : Fin 2048) (d : Fin 256) : EReal :=
  Ideal.div (proj x w b s (headCol h d)) four

/-- The score of query position `s` against key position `j`, in head `h` of batch `b`. -/
def scores (b : Fin 2) (h : Fin 8) (s j : Fin 2048) : EReal :=
  ∑ d : Fin 256, scaled x wq b h s d * scaled x wk b h j d

/-- The maximum of a row of scores, as the reference takes it: the maximum over the row started at `-inf`, and once
    more against `-inf`. -/
def rowmax (b : Fin 2) (h : Fin 8) (s : Fin 2048) : EReal :=
  max negInf ((Finset.univ : Finset (Fin 2048)).fold max negInf fun j => scores x wq wk b h s j)

/-- The exponential of a score less its row's maximum. -/
def expo (b : Fin 2) (h : Fin 8) (s j : Fin 2048) : EReal :=
  Ideal.exp (scores x wq wk b h s j - rowmax x wq wk b h s)

/-- The softmax denominator of a row: the sum of its exponentials, started at `0.0`. -/
def denom (b : Fin 2) (h : Fin 8) (s : Fin 2048) : EReal :=
  zero + ∑ j : Fin 2048, expo x wq wk b h s j

/-- The softmax weight of key position `j` for query position `s`. -/
def weight (b : Fin 2) (h : Fin 8) (s j : Fin 2048) : EReal :=
  Ideal.div (expo x wq wk b h s j) (denom x wq wk b h s)

/-- A head's output: the weighted sum of the value rows. -/
def headOut (b : Fin 2) (h : Fin 8) (s : Fin 2048) (d : Fin 256) : EReal :=
  ∑ j : Fin 2048, weight x wq wk b h s j * proj x wv b j (headCol h d)

/-- The heads' outputs merged back into one row of 2048 columns. -/
def merged (b : Fin 2) (s n : Fin 2048) : EReal :=
  headOut x wq wk wv b (colHead n) s (colFeat n)

/-- The attention layer's output at `(b, s, o)`. -/
def attention (b : Fin 2) (s : Fin 2048) (o : Fin 256) : EReal :=
  (∑ n : Fin 2048, merged x wq wk wv b s n * wo (ix2 o n)) + bo (ix1 o)

/-- The result array: `attention` at the index's coordinates. -/
def G : SX.Idx → EReal := fun i => attention x wq wk wv wo bo (i 0) (i 1) (i 2)

theorem G_ix3 (b : Fin 2) (s : Fin 2048) (o : Fin 256) :
    G x wq wk wv wo bo (ix3 b s o) = attention x wq wk wv wo bo b s o := rfl

theorem merged_headCol (b : Fin 2) (s : Fin 2048) (h : Fin 8) (d : Fin 256) :
    merged x wq wk wv b s (headCol h d) = headOut x wq wk wv b h s d := by
  unfold merged
  rw [colHead_headCol, colFeat_headCol]

end

/-! ## What the three literals denote -/

/-- `4.0` denotes the real 4. -/
theorem four_eq : four = ((4 : ℝ) : EReal) := by
  simp [four, Ideal.ofBits, Ideal.ieee, -EReal.coe_mul]; norm_num

/-- `-inf` denotes the bottom of the extended reals. -/
theorem negInf_eq : negInf = ⊥ := by
  simp [negInf, Ideal.ofBits, Ideal.ieee]

/-- `0.0` denotes zero. -/
theorem zero_eq : zero = 0 := Ideal.ofBits_zero_f32

section
variable (x : SX.Idx → EReal) (wq wk : SW.Idx → EReal)

/-- The row maximum is the plain maximum over the row, started at the bottom. -/
theorem rowmax_eq_fold (b : Fin 2) (h : Fin 8) (s : Fin 2048) :
    rowmax x wq wk b h s = (Finset.univ : Finset (Fin 2048)).fold max negInf fun j => scores x wq wk b h s j := by
  unfold rowmax
  rw [negInf_eq]
  exact max_eq_right bot_le

/-- The denominator is the plain sum of the row's exponentials. -/
theorem denom_eq_sum (b : Fin 2) (h : Fin 8) (s : Fin 2048) :
    denom x wq wk b h s = ∑ j : Fin 2048, expo x wq wk b h s j := by
  unfold denom
  rw [zero_eq, zero_add]

end

end Cert.Spec

end
-- ==== Proof.Algebra.lean ====
/-
  The two laws between the kernel's arrangement and the specification's, over abstract finite index types.

  (a) Folding the divisor into a factor. For real-valued `x` and `w` (every entry the coercion of a real number),
      `∑ i, x i · (w i · ¼) = (∑ i, x i · w i) / 4` on the extended reals. Distributing `¼` over the sum needs every term
      real: at an infinity the extended reals' product does not distribute over sums. The proof moves to ℝ (a sum of
      coercions is the coercion of the sum), where it is `Finset.sum_mul`.
  (b) Regrouping a sum over 2048 columns as four consecutive blocks of 512 added left to right from zero. Addition on the
      extended reals is a commutative monoid, so this holds for every `f`, infinities included.
-/
import proofs.«160521_j42159398978166_2_alg».proof.Proof.Spec

noncomputable section

open scoped BigOperators

namespace Cert.Algebra

open Idealize.ShloMosaic

/-! ## (a) The divisor folded into a factor -/

/-- The multiplier `0.25`. -/
abbrev quarter : EReal := Ideal.ofBits .f32 0x3E800000#32

/-- `0.25` denotes the real 1/4. -/
theorem quarter_eq : quarter = ((1 / 4 : ℝ) : EReal) := by
  simp [quarter, Ideal.ofBits, Ideal.ieee, -EReal.coe_mul]; norm_num

/-- A finite sum of coercions of reals is the coercion of the sum. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of products of real-valued entries is real-valued. -/
theorem sum_mul_real {ι : Type*} [Fintype ι] (x w : ι → EReal) (hx : ∀ i, ∃ r : ℝ, x i = (r : EReal))
    (hw : ∀ i, ∃ r : ℝ, w i = (r : EReal)) : ∃ r : ℝ, ∑ i, x i * w i = (r : EReal) := by
  choose xr hxr using hx
  choose wr hwr using hw
  refine ⟨∑ i, xr i * wr i, ?_⟩
  rw [coe_sum]
  exact Finset.sum_congr rfl fun i _ => by rw [hxr, hwr, EReal.coe_mul]

/-- Dividing a real-valued dot product by `4.0` is taking the dot product against the entries times `0.25`. -/
theorem sum_mul_quarter {ι : Type*} [Fintype ι] (x w : ι → EReal) (hx : ∀ i, ∃ r : ℝ, x i = (r : EReal))
    (hw : ∀ i, ∃ r : ℝ, w i = (r : EReal)) :
    ∑ i, x i * (w i * quarter) = Ideal.div (∑ i, x i * w i) Cert.Spec.four := by
  choose xr hxr using hx
  choose wr hwr using hw
  rw [Cert.Spec.four_eq, Ideal.div_coe (by norm_num : (4 : ℝ) ≠ 0), quarter_eq]
  have hl : ∀ i, x i * (w i * ((1 / 4 : ℝ) : EReal)) = ((xr i * wr i * (1 / 4) : ℝ) : EReal) := fun i => by
    rw [hxr, hwr, ← EReal.coe_mul, ← EReal.coe_mul, mul_assoc]
  have hr : ∀ i, x i * w i = ((xr i * wr i : ℝ) : EReal) := fun i => by rw [hxr, hwr, EReal.coe_mul]
  simp only [hl, hr]
  rw [← coe_sum, ← coe_sum, ← EReal.coe_mul, Finset.sum_mul]

/-! ## (b) A sum over 2048 columns as four blocks of 512 -/

/-- Column `k·512 + j`: position `j` of block `k`. -/
def blockCol (k : Fin 4) (j : Fin 512) : Fin 2048 := ⟨k.val * 512 + j.val, by have := k.isLt; have := j.isLt; omega⟩

/-- The columns are the pairs (block, position in the block). -/
def blockEquiv : Fin 4 × Fin 512 ≃ Fin 2048 where
  toFun p := blockCol p.1 p.2
  invFun n := (⟨n.val / 512, by have := n.isLt; omega⟩, ⟨n.val % 512, by have := n.isLt; omega⟩)
  left_inv p := by
    obtain ⟨k, j⟩ := p
    have := k.isLt; have := j.isLt
    refine Prod.ext (Fin.ext ?_) (Fin.ext ?_)
    · show (k.val * 512 + j.val) / 512 = k.val; omega
    · show (k.val * 512 + j.val) % 512 = j.val; omega
  right_inv n := Fin.ext (by show n.val / 512 * 512 + n.val % 512 = n.val; omega)

/-- A sum over the 2048 columns is the sum over the four blocks of the sums over each block. -/
theorem sum_blocks {M : Type*} [AddCommMonoid M] (f : Fin 2048 → M) :
    ∑ n : Fin 2048, f n = ∑ k : Fin 4, ∑ j : Fin 512, f (blockCol k j) := by
  rw [← Equiv.sum_comp blockEquiv f, Fintype.sum_prod_type]
  rfl

/-- The four blocks added left to right from zero are the sum over all the columns. -/
theorem blocks_from_zero {M : Type*} [AddCommMonoid M] (f : Fin 2048 → M) :
    (((0 + ∑ j : Fin 512, f (blockCol 0 j)) + ∑ j : Fin 512, f (blockCol 1 j)) + ∑ j : Fin 512, f (blockCol 2 j))
        + ∑ j : Fin 512, f (blockCol 3 j) = ∑ n : Fin 2048, f n := by
  rw [sum_blocks, Fin.sum_univ_four, zero_add]

end Cert.Algebra

end
-- ==== Proof.KI.Value2.lean ====
/-
  The value of region 2: the output projection, as one function of the three arrays the region reads.

  The four grid points of row block i multiply the attention block (i, k) [512, 512] by the weight block k [512, 256]
  for k = 0, 1, 2, 3, adding each product to a running block that starts from zero; the last of them adds the bias row
  and writes block i of the output [4096, 256] back. An element of a block sits in its array at block index × block
  size + its coordinate inside the block, so column jj of attention block (i, k) is column k · 512 + jj of the
  attention array. The 8 row blocks tile the output, so after the region the array is that function everywhere.
-/
import proofs.«160521_j42159398978166_2_alg».proof.Proof.KI.Region2
import proofs.«160521_j42159398978166_2_alg».proof.Proof.KI.Payloads
import proofs.«160521_j42159398978166_2_alg».proof.Proof.Algebra
import Idealize.ShloMosaic.Lib.Pipeline.Value

set_option maxRecDepth 16384

noncomputable section

open scoped BigOperators

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)
open Cert.Algebra (blockCol)

variable (V : (c : Dev nD) → (b : Ref sig .tc) → Buf (Elt Ideal) ((c : Thread nD τ).loc b))

/-- The output projection of the attention array `A` [4096, 2048], the transposed weights `Wt` [2048, 256] and the bias
    row `B` [1, 256], index by index: the four column blocks of 512 added left to right from zero, then the bias. -/
def outOf (A : S4096x2048.Idx → EReal) (Wt : S2048x256.Idx → EReal) (B : S1x256.Idx → EReal) : S4096x256.Idx → EReal := fun i =>
  ((((0 + ∑ jj : Fin 512, A (ix2 (⟨(i 0).val, (i 0).isLt⟩ : Fin 4096) (blockCol 0 jj)) * Wt (ix2 (blockCol 0 jj) (⟨(i 1).val, (i 1).isLt⟩ : Fin 256)))
        + ∑ jj : Fin 512, A (ix2 (⟨(i 0).val, (i 0).isLt⟩ : Fin 4096) (blockCol 1 jj)) * Wt (ix2 (blockCol 1 jj) (⟨(i 1).val, (i 1).isLt⟩ : Fin 256)))
        + ∑ jj : Fin 512, A (ix2 (⟨(i 0).val, (i 0).isLt⟩ : Fin 4096) (blockCol 2 jj)) * Wt (ix2 (blockCol 2 jj) (⟨(i 1).val, (i 1).isLt⟩ : Fin 256)))
        + ∑ jj : Fin 512, A (ix2 (⟨(i 0).val, (i 0).isLt⟩ : Fin 4096) (blockCol 3 jj)) * Wt (ix2 (blockCol 3 jj) (⟨(i 1).val, (i 1).isLt⟩ : Fin 256)))
      + B (ix2 (0 : Fin 1) (⟨(i 1).val, (i 1).isLt⟩ : Fin 256))

theorem outOf_ix2 (A : S4096x2048.Idx → EReal) (Wt : S2048x256.Idx → EReal) (B : S1x256.Idx → EReal) (r : Fin 4096) (o : Fin 256) :
    outOf A Wt B (ix2 r o)
      = ((((0 + ∑ jj : Fin 512, A (ix2 r (blockCol 0 jj)) * Wt (ix2 (blockCol 0 jj) o))
            + ∑ jj : Fin 512, A (ix2 r (blockCol 1 jj)) * Wt (ix2 (blockCol 1 jj) o))
            + ∑ jj : Fin 512, A (ix2 r (blockCol 2 jj)) * Wt (ix2 (blockCol 2 jj) o))
            + ∑ jj : Fin 512, A (ix2 r (blockCol 3 jj)) * Wt (ix2 (blockCol 3 jj) o))
          + B (ix2 (0 : Fin 1) o) := rfl

/-- The printed index maps, decided over the 32 grid points: point `t` is row block `t / 4`, step `t % 4`. -/
theorem win2_index_facts : ∀ t : Fin cfg2.N, win2_0.index t (0 : Fin 2) = t.val / 4
    ∧ win2_0.index t (1 : Fin 2) = t.val % 4
    ∧ win2_1.index t (0 : Fin 2) = t.val % 4
    ∧ win2_1.index t (1 : Fin 2) = 0
    ∧ win2_2.index t (0 : Fin 2) = 0
    ∧ win2_2.index t (1 : Fin 2) = 0
    ∧ win2_3.index t (0 : Fin 2) = t.val / 4
    ∧ win2_3.index t (1 : Fin 2) = 0 :=
  (by decide +kernel : ∀ t : Fin grid2.N, _)

/-- The attention block at point `t`, read at `(p, jj)`. -/
theorem attnBlk2_read (c : Dev nD) (t : Fin cfg2.N) (p : Fin 512) (jj : Fin 512) (i : S4096x2048.Idx)
    (h0 : (i 0).val = win2_0.index t (0 : Fin 2) * 512 + p.val) (h1 : (i 1).val = win2_0.index t (1 : Fin 2) * 512 + jj.val) :
    iblk2 V c 0 t (ix2 p jj) = V c main_v15 i := by
  show V c main_v15 (((cfg2.win 0).blk t).view.emb (ix2 p jj)) = V c main_v15 i
  refine congrArg (V c main_v15) (funext fun a => Fin.ext ?_)
  match a with
  | ⟨0, _⟩ => show win2_0.index t (0 : Fin 2) * 512 + 1 * p.val = (i 0).val; omega
  | ⟨1, _⟩ => show win2_0.index t (1 : Fin 2) * 512 + 1 * jj.val = (i 1).val; omega

/-- The weight block at point `t`, read at `(jj, o)`. -/
theorem wtBlk2_read (c : Dev nD) (t : Fin cfg2.N) (jj : Fin 512) (o : Fin 256) (i : S2048x256.Idx)
    (h0 : (i 0).val = win2_1.index t (0 : Fin 2) * 512 + jj.val) (h1 : (i 1).val = win2_1.index t (1 : Fin 2) * 256 + o.val) :
    iblk2 V c 1 t (ix2 jj o) = V c main_v12 i := by
  show V c main_v12 (((cfg2.win 1).blk t).view.emb (ix2 jj o)) = V c main_v12 i
  refine congrArg (V c main_v12) (funext fun a => Fin.ext ?_)
  match a with
  | ⟨0, _⟩ => show win2_1.index t (0 : Fin 2) * 512 + 1 * jj.val = (i 0).val; omega
  | ⟨1, _⟩ => show win2_1.index t (1 : Fin 2) * 256 + 1 * o.val = (i 1).val; omega

/-- The bias block at point `t`, read at `(0, o)`. -/
theorem biasBlk2_read (c : Dev nD) (t : Fin cfg2.N) (o : Fin 256) (i : S1x256.Idx)
    (h0 : (i 0).val = win2_2.index t (0 : Fin 2) * 1 + 0) (h1 : (i 1).val = win2_2.index t (1 : Fin 2) * 256 + o.val) :
    iblk2 V c 2 t (ix2 (0 : Fin 1) o) = V c main_v13 i := by
  show V c main_v13 (((cfg2.win 2).blk t).view.emb (ix2 (0 : Fin 1) o)) = V c main_v13 i
  refine congrArg (V c main_v13) (funext fun a => Fin.ext ?_)
  match a with
  | ⟨0, _⟩ => show win2_2.index t (0 : Fin 2) * 1 + 1 * 0 = (i 0).val; omega
  | ⟨1, _⟩ => show win2_2.index t (1 : Fin 2) * 256 + 1 * o.val = (i 1).val; omega

/-- The three arrays the region reads and the attention and weight blocks at a point, as functions into the extended reals. -/
abbrev attnArr2 (c : Dev nD) : S4096x2048.Idx → EReal := V c main_v15
abbrev wtArr2 (c : Dev nD) : S2048x256.Idx → EReal := V c main_v12
abbrev biasArr2 (c : Dev nD) : S1x256.Idx → EReal := V c main_v13
abbrev attnBlk2 (c : Dev nD) (t : Fin cfg2.N) : S512x512.Idx → EReal := iblk2 V c 0 t
abbrev wtBlk2 (c : Dev nD) (t : Fin cfg2.N) : S512x256.Idx → EReal := iblk2 V c 1 t

/-- Step `k` of the row block that starts at point `m`: the product of the step's two blocks at `(p, o)` is the sum over column
    block `k` of the attention array's row times the weights' column. -/
theorem blockSum2 (c : Dev nD) (m : ℕ) (h : m % 4 = 0) (k : Fin 4) (hk : m + k.val < cfg2.N) (p : Fin 512) (o : Fin 256)
    (r : Fin 4096) (o' : Fin 256) (hr : r.val = m / 4 * 512 + p.val) (ho : o'.val = o.val) :
    ∑ jj : Fin 512, attnBlk2 V c ⟨m + k.val, hk⟩ (ix2 p jj) * wtBlk2 V c ⟨m + k.val, hk⟩ (ix2 jj o)
      = ∑ jj : Fin 512, attnArr2 V c (ix2 r (blockCol k jj)) * wtArr2 V c (ix2 (blockCol k jj) o') := by
  obtain ⟨e0, e1, e2, e3, -, -, -, -⟩ := win2_index_facts ⟨m + k.val, hk⟩
  have hkl := k.isLt
  refine Finset.sum_congr rfl fun jj _ => congrArg₂ (· * ·) ?_ ?_
  · refine attnBlk2_read V c _ p jj _ ?_ ?_
    · show r.val = _
      rw [e0]; show r.val = (m + k.val) / 4 * 512 + p.val; omega
    · show k.val * 512 + jj.val = _
      rw [e1]; show k.val * 512 + jj.val = (m + k.val) % 4 * 512 + jj.val; omega
  · refine wtBlk2_read V c _ jj o _ ?_ ?_
    · show k.val * 512 + jj.val = _
      rw [e2]; show k.val * 512 + jj.val = (m + k.val) % 4 * 512 + jj.val; omega
    · show o'.val = _
      rw [e3]; omega

/-- WHAT A POINT THAT WRITES BACK WRITES: the last point of a row block writes block `t` of the output projection of the
    three arrays as the region finds them. -/
theorem flushed2_eq (c : Dev nD) (t : Fin cfg2.N) (hf : (cfg2.win 3).flush t = true) :
    (dat2 (F := Ideal) V c).flushed 3 t
      = ((cfg2.win 3).blk t).view.read (Elt Ideal) (outOf (V c main_v15) (V c main_v12) (V c main_v13)) := by
  have h3 : t.val % 4 = 3 := (flush2_3 t).mp hf
  obtain ⟨n, hn⟩ := t
  have h3' : n % 4 = 3 := h3
  obtain ⟨m, rfl⟩ : ∃ m, n = m + 3 := ⟨n - 3, by omega⟩
  have hm : m % 4 = 0 := by omega
  have hn0 : m + 0 < cfg2.N := by omega
  have hn1 : m + 1 < cfg2.N := by omega
  have hn2 : m + 2 < cfg2.N := by omega
  show (cfg2.win 3).cut (grid2.coords ⟨m + 3, hn⟩) ((dat2 (F := Ideal) V c).after 3 ⟨m + 3, hn⟩) = _
  rw [after2_3_value V c m hn hm]
  obtain ⟨-, -, -, -, b0, b1, o0, o1⟩ := win2_index_facts ⟨m + 3, hn⟩
  have o0' : win2_3.index ⟨m + 3, hn⟩ (0 : Fin 2) = (m + 3) / 4 := o0
  funext j
  obtain ⟨p, o, rfl⟩ : ∃ (p : Fin 512) (o : Fin 256), j = ix2 p o := ⟨j 0, j 1, eq_ix2 j⟩
  show k2_pay3 (F := Ideal) _ _ (ix2 p o)
    = outOf (V c main_v15) (V c main_v12) (V c main_v13) (((cfg2.win 3).blk ⟨m + 3, hn⟩).view.emb (ix2 p o))
  have hr : ((((cfg2.win 3).blk ⟨m + 3, hn⟩).view.emb (ix2 p o)) (0 : Fin 2)).val = m / 4 * 512 + p.val := by
    show win2_3.index ⟨m + 3, hn⟩ (0 : Fin 2) * 512 + 1 * p.val = _
    rw [o0']; omega
  have ho : ((((cfg2.win 3).blk ⟨m + 3, hn⟩).view.emb (ix2 p o)) (1 : Fin 2)).val = o.val := by
    show win2_3.index ⟨m + 3, hn⟩ (1 : Fin 2) * 256 + 1 * o.val = _
    rw [o1]; omega
  refine (pay2_3_apply _ _ p o).trans ?_
  unfold outOf
  refine congrArg₂ (· + ·) ?_ ?_
  · refine (pay2_2_apply _ _ _ p o).trans (congrArg₂ (· + ·) ?_ (blockSum2 V c m hm 3 hn p o _ _ hr ho))
    refine (pay2_2_apply _ _ _ p o).trans (congrArg₂ (· + ·) ?_ (blockSum2 V c m hm 2 hn2 p o _ _ hr ho))
    refine (pay2_2_apply _ _ _ p o).trans (congrArg₂ (· + ·) ?_ (blockSum2 V c m hm 1 hn1 p o _ _ hr ho))
    refine (pay2_2_apply _ _ _ p o).trans (congrArg₂ (· + ·) ?_ (blockSum2 V c m hm 0 hn0 p o _ _ hr ho))
    exact pay2_1_zero _
  · refine biasBlk2_read V c _ o _ ?_ ?_
    · show (0 : ℕ) = win2_2.index ⟨m + 3, hn⟩ (0 : Fin 2) * 1 + 0
      rw [b0]
    · show ((((cfg2.win 3).blk ⟨m + 3, hn⟩).view.emb (ix2 p o)) (1 : Fin 2)).val = win2_2.index ⟨m + 3, hn⟩ (1 : Fin 2) * 256 + o.val
      rw [b1, ho]; omega

/-- An index of the output is in point `t`'s block iff each coordinate is in the block's range on its axis. -/
theorem mem_blk2 (t : Fin cfg2.N) (i : S4096x256.Idx) :
    i ∈ ((cfg2.win 3).blk t).view.set ↔ ∀ a : Fin 2, win2_3.index t a * S512x256.size a ≤ (i a).val
      ∧ (i a).val < win2_3.index t a * S512x256.size a + S512x256.size a := by
  show i ∈ ((View.whole main_v16).slice (win2_3.rect t)).set ↔ _
  rw [View.set_slice_whole, Rect.mem_set_unit]
  exact Iff.rfl

/-- The 8 row blocks cover the output: index `(r, o)` is in the block of the last point of row block `r / 512`, which
    writes back. -/
theorem cover2 (i : S4096x256.Idx) : ∃ t : Fin cfg2.N, (cfg2.win 3).flush t = true ∧ i ∈ ((cfg2.win 3).blk t).view.set := by
  have hi0 : (i 0).val < 4096 := (i 0).isLt
  have hi1 : (i 1).val < 256 := (i 1).isLt
  have hN : cfg2.N = 32 := N_2
  have ht : (i 0).val / 512 * 4 + 3 < cfg2.N := by rw [hN]; omega
  obtain ⟨-, -, -, -, -, -, o0, o1⟩ := win2_index_facts ⟨(i 0).val / 512 * 4 + 3, ht⟩
  have o0' : win2_3.index ⟨(i 0).val / 512 * 4 + 3, ht⟩ (0 : Fin 2) = ((i 0).val / 512 * 4 + 3) / 4 := o0
  refine ⟨⟨(i 0).val / 512 * 4 + 3, ht⟩, (flush2_3 _).mpr (by show ((i 0).val / 512 * 4 + 3) % 4 = 3; omega), ?_⟩
  rw [mem_blk2]
  intro a
  match a with
  | ⟨0, _⟩ =>
    show win2_3.index ⟨(i 0).val / 512 * 4 + 3, ht⟩ (0 : Fin 2) * 512 ≤ (i 0).val
      ∧ (i 0).val < win2_3.index ⟨(i 0).val / 512 * 4 + 3, ht⟩ (0 : Fin 2) * 512 + 512
    rw [o0']; omega
  | ⟨1, _⟩ =>
    show win2_3.index ⟨(i 0).val / 512 * 4 + 3, ht⟩ (1 : Fin 2) * 256 ≤ (i 1).val
      ∧ (i 1).val < win2_3.index ⟨(i 0).val / 512 * 4 + 3, ht⟩ (1 : Fin 2) * 256 + 256
    rw [o1]; omega

/-- THE OUTPUT after the region: the output projection of the three arrays as the region finds them, everywhere. -/
theorem final2 (c : Dev nD) :
    (dat2 (F := Ideal) V c).arrAt 3 cfg2.N = outOf (V c main_v15) (V c main_v12) (V c main_v13) :=
  (dat2 (F := Ideal) V c).arrAt_eq_of_cover 3 (outOf (V c main_v15) (V c main_v12) (V c main_v13))
    (fun t hf => flushed2_eq V c t hf) cover2

end Cert.KernelIdeal.Hand

end
-- ==== Proof.KernelForm.lean ====
/-
  The kernel's arrangement computes the specification.

  Stated over ABSTRACT arrays, each given by what it holds at an index: the activations as a matrix of 4096 rows (row
  `b·2048 + s` is position `s` of batch `b`); the fused weight matrix of 6144 columns (columns `n`, `2048 + n`, `4096 + n` are
  column `n` of the query, key and value projections, the first two multiplied by `0.25`); their product `Q`; the attention
  array `A` (per batch, head and query row: the softmax of the scores against the 2048 key rows, applied to the value
  rows); the transposed output projection; the bias row; and the result `O` (the product of `A` and the output projection
  accumulated over four blocks of 512 columns from zero, plus the bias).

  Then `O` at row `b·2048 + s` and column `o` is `Cert.Spec.attention … b s o`. The one step that needs the inputs real-valued
  is folding the divisor `4.0` into the weights as the factor `0.25` (`Cert.Algebra.sum_mul_quarter`); the row maximum and the
  denominator meet the specification's because `-inf` is the bottom and `0.0` is zero; the four blocks are a regrouping of
  the sum over the 2048 merged columns.
-/
import proofs.«160521_j42159398978166_2_alg».proof.Proof.KI.Payloads
import proofs.«160521_j42159398978166_2_alg».proof.Proof.Spec
import proofs.«160521_j42159398978166_2_alg».proof.Proof.Algebra

set_option maxRecDepth 16384

noncomputable section

open scoped BigOperators

namespace Cert.KernelForm

open Cert.Spec Cert.Algebra Idealize.ShloMosaic Idealize.ShloMosaic.ValueIdx

/-- Row `b·2048 + s` of the flattened activations: position `s` of batch `b`. -/
def row (b : Fin 2) (s : Fin 2048) : Fin 4096 := ⟨b.val * 2048 + s.val, by have := b.isLt; have := s.isLt; omega⟩

/-- Column `n` of the fused projection: column `n` of the queries. -/
def colQ (n : Fin 2048) : Fin 6144 := ⟨n.val, by have := n.isLt; omega⟩
/-- Column `2048 + n` of the fused projection: column `n` of the keys. -/
def colK (n : Fin 2048) : Fin 6144 := ⟨2048 + n.val, by have := n.isLt; omega⟩
/-- Column `4096 + n` of the fused projection: column `n` of the values. -/
def colV (n : Fin 2048) : Fin 6144 := ⟨4096 + n.val, by have := n.isLt; omega⟩

section
variable (x : SX.Idx → EReal) (wq wk wv : SW.Idx → EReal)

/-- The kernel's row functions at the specification's scores are the specification's weights: the row maximum folded
    from `-inf` is the specification's (which takes one more maximum against `-inf`), the bare sum of the exponentials its
    denominator (which starts from `0.0`). -/
theorem weight_eq (b : Fin 2) (h : Fin 8) (s j : Fin 2048) :
    Cert.KernelIdeal.Hand.weight (fun j' : Fin 2048 => Cert.Spec.scores x wq wk b h s j') j = Cert.Spec.weight x wq wk b h s j := by
  have hm : Cert.KernelIdeal.Hand.rowMax (fun j' : Fin 2048 => Cert.Spec.scores x wq wk b h s j') = rowmax x wq wk b h s :=
    (rowmax_eq_fold x wq wk b h s).symm
  have he : ∀ j : Fin 2048, Cert.KernelIdeal.Hand.expo (fun j' : Fin 2048 => Cert.Spec.scores x wq wk b h s j') j
      = Cert.Spec.expo x wq wk b h s j := fun j => by
    unfold Cert.KernelIdeal.Hand.expo Cert.Spec.expo
    rw [hm]
  have hd : Cert.KernelIdeal.Hand.denom (fun j' : Fin 2048 => Cert.Spec.scores x wq wk b h s j') = Cert.Spec.denom x wq wk b h s := by
    rw [denom_eq_sum]
    unfold Cert.KernelIdeal.Hand.denom
    exact Finset.sum_congr rfl fun j _ => he j
  unfold Cert.KernelIdeal.Hand.weight Cert.Spec.weight
  rw [he, hd]

end

/-- The kernel's result is the specification: see the head of this module for the arrays. -/
theorem kernel_eq_attention
    (x : SX.Idx → EReal) (wq wk wv : SW.Idx → EReal) (wo : SWo.Idx → EReal) (bo : SB.Idx → EReal)
    (fx : ∀ i, ∃ r : ℝ, x i = (r : EReal)) (fq : ∀ i, ∃ r : ℝ, wq i = (r : EReal)) (fk : ∀ i, ∃ r : ℝ, wk i = (r : EReal))
    (X1 : (⟨2, ![4096, 256]⟩ : Shape).Idx → EReal)
    (hX : ∀ (b : Fin 2) (s : Fin 2048) (e : Fin 256), X1 (ix2 (row b s) e) = x (ix3 b s e))
    (W10 : (⟨2, ![256, 6144]⟩ : Shape).Idx → EReal)
    (hWq : ∀ (e : Fin 256) (n : Fin 2048), W10 (ix2 e (colQ n)) = wq (ix2 n e) * quarter)
    (hWk : ∀ (e : Fin 256) (n : Fin 2048), W10 (ix2 e (colK n)) = wk (ix2 n e) * quarter)
    (hWv : ∀ (e : Fin 256) (n : Fin 2048), W10 (ix2 e (colV n)) = wv (ix2 n e))
    (Q : (⟨2, ![4096, 6144]⟩ : Shape).Idx → EReal)
    (hQ : ∀ (r : Fin 4096) (n : Fin 6144), Q (ix2 r n) = ∑ e : Fin 256, X1 (ix2 r e) * W10 (ix2 e n))
    (A : (⟨2, ![4096, 2048]⟩ : Shape).Idx → EReal)
    (hA : ∀ (b : Fin 2) (s : Fin 2048) (h : Fin 8) (d : Fin 256), A (ix2 (row b s) (headCol h d))
      = ∑ j : Fin 2048,
          Cert.KernelIdeal.Hand.weight
              (Cert.KernelIdeal.Hand.scores (fun d' : Fin 256 => Q (ix2 (row b s) (colQ (headCol h d'))))
                (fun (j' : Fin 2048) (d' : Fin 256) => Q (ix2 (row b j') (colK (headCol h d'))))) j
            * Q (ix2 (row b j) (colV (headCol h d))))
    (W12 : (⟨2, ![2048, 256]⟩ : Shape).Idx → EReal)
    (hW12 : ∀ (n : Fin 2048) (o : Fin 256), W12 (ix2 n o) = wo (ix2 o n))
    (B13 : (⟨2, ![1, 256]⟩ : Shape).Idx → EReal)
    (hB : ∀ o : Fin 256, B13 (ix2 (0 : Fin 1) o) = bo (ix1 o))
    (O : (⟨2, ![4096, 256]⟩ : Shape).Idx → EReal)
    (hO : ∀ (r : Fin 4096) (o : Fin 256), O (ix2 r o)
      = ((((0 + ∑ jj : Fin 512, A (ix2 r (blockCol 0 jj)) * W12 (ix2 (blockCol 0 jj) o))
            + ∑ jj : Fin 512, A (ix2 r (blockCol 1 jj)) * W12 (ix2 (blockCol 1 jj) o))
            + ∑ jj : Fin 512, A (ix2 r (blockCol 2 jj)) * W12 (ix2 (blockCol 2 jj) o))
            + ∑ jj : Fin 512, A (ix2 r (blockCol 3 jj)) * W12 (ix2 (blockCol 3 jj) o))
          + B13 (ix2 (0 : Fin 1) o)) :
    ∀ (b : Fin 2) (s : Fin 2048) (o : Fin 256), O (ix2 (row b s) o) = attention x wq wk wv wo bo b s o := by
  -- the query, key and value columns of the fused projection
  have hQq : ∀ (b : Fin 2) (h : Fin 8) (s : Fin 2048) (d : Fin 256),
      Q (ix2 (row b s) (colQ (headCol h d))) = scaled x wq b h s d := fun b h s d => by
    rw [hQ]
    refine (Finset.sum_congr rfl fun e _ => by rw [hX, hWq]).trans ?_
    exact sum_mul_quarter (fun e : Fin 256 => x (ix3 b s e)) (fun e : Fin 256 => wq (ix2 (headCol h d) e)) (fun e => fx _) (fun e => fq _)
  have hQk : ∀ (b : Fin 2) (h : Fin 8) (s : Fin 2048) (d : Fin 256),
      Q (ix2 (row b s) (colK (headCol h d))) = scaled x wk b h s d := fun b h s d => by
    rw [hQ]
    refine (Finset.sum_congr rfl fun e _ => by rw [hX, hWk]).trans ?_
    exact sum_mul_quarter (fun e : Fin 256 => x (ix3 b s e)) (fun e : Fin 256 => wk (ix2 (headCol h d) e)) (fun e => fx _) (fun e => fk _)
  have hQv : ∀ (b : Fin 2) (h : Fin 8) (s : Fin 2048) (d : Fin 256),
      Q (ix2 (row b s) (colV (headCol h d))) = proj x wv b s (headCol h d) := fun b h s d => by
    rw [hQ]
    unfold proj
    exact Finset.sum_congr rfl fun e _ => by rw [hX, hWv]
  -- the scores
  have hsc : ∀ (b : Fin 2) (h : Fin 8) (s : Fin 2048),
      Cert.KernelIdeal.Hand.scores (fun d' : Fin 256 => Q (ix2 (row b s) (colQ (headCol h d'))))
          (fun (j' : Fin 2048) (d' : Fin 256) => Q (ix2 (row b j') (colK (headCol h d'))))
        = fun j' : Fin 2048 => Cert.Spec.scores x wq wk b h s j' := fun b h s => funext fun j' => by
    unfold Cert.KernelIdeal.Hand.scores Cert.Spec.scores
    refine Finset.sum_congr rfl fun d' _ => ?_
    show Q (ix2 (row b s) (colQ (headCol h d'))) * Q (ix2 (row b j') (colK (headCol h d'))) = _
    rw [hQq, hQk]
  -- a head's output, then the merged columns
  have hAh : ∀ (b : Fin 2) (s : Fin 2048) (h : Fin 8) (d : Fin 256),
      A (ix2 (row b s) (headCol h d)) = headOut x wq wk wv b h s d := fun b s h d => by
    rw [hA, hsc]
    unfold headOut
    exact Finset.sum_congr rfl fun j _ => by rw [weight_eq, hQv]
  have hAm : ∀ (b : Fin 2) (s n : Fin 2048), A (ix2 (row b s) n) = merged x wq wk wv b s n := fun b s n => by
    have e := hAh b s (colHead n) (colFeat n)
    rw [headCol_colHead_colFeat] at e
    exact e
  -- the output projection over the four blocks, and the bias
  intro b s o
  rw [hO]
  simp only [hAm, hW12, hB]
  unfold attention
  rw [← blocks_from_zero fun n : Fin 2048 => merged x wq wk wv b s n * wo (ix2 o n)]

end Cert.KernelForm

end
-- ==== Proof.Finite.lean ====
/-
  Finiteness: under the precondition `finite_inputs`, read at the ideal values, every entry of each of the six argument
  arrays is a real number.

  The precondition is the conjunction of six `jnp.all (|a| < +inf)`: each is a reduction by `and` of the comparisons'
  bits over the whole array, so when the conjunction is 1 every comparison bit is 1; and an extended real whose absolute
  value `max a (−a)` is strictly below the top is neither infinity.
-/
import proofs.«160521_j42159398978166_2_alg».proof.Pre_finite_inputs
import proofs.«160521_j42159398978166_2_alg».proof.Proof.Gen.Pre_finite_inputs
import Idealize.ShloMosaic.Lib.ReduceAll
import Idealize.ShloMosaic.Lib.ValueIdx
import Idealize.ShloMosaic.Lib.Pipeline.Value
import Idealize.ShloMosaic.PureOps.Ideal.Laws

set_option maxRecDepth 16384

noncomputable section

namespace Cert.Finite

open Idealize.ShloMosaic Cert.Pre_finite_inputs

/-- The scalar shape has one index. -/
instance : Subsingleton S_.Idx := ⟨fun a b => funext fun d => d.elim0⟩

/-- `+inf` denotes the top of the extended reals. -/
theorem posInf_eq : Ideal.ofBits .f32 0x7F800000#32 = ⊤ := by
  simp [Ideal.ofBits, Ideal.ieee]

/-- An extended real whose absolute value compares strictly below `+inf` is a real number. -/
theorem real_of_abs_lt (a : EReal)
    (h : FloatOps.cmpf (F := Ideal) (φ := .f32) .olt (FloatOps.hostAbsf a) (FloatOps.ofBits .f32 0x7F800000#32) = 1#1) :
    ∃ r : ℝ, a = (r : EReal) := by
  have h' : Ideal.cmp .olt (max a (-a)) ⊤ = 1#1 := by rw [← posInf_eq]; exact h
  induction a using EReal.rec with
  | bot => simp [Ideal.cmp] at h'
  | top => simp [Ideal.cmp] at h'
  | coe r => exact ⟨r, rfl⟩

/-- One `jnp.all (|a| < +inf)` that is 1 says every entry of `a` is a real number. -/
theorem all_real {s : Shape} {axes : List (Fin s.rank)} (a : FVec Ideal s .f32) (hb : S_.BroadcastsInDim s (![] : Fin 0 → Fin s.rank))
    (hr : s.ReducesTo axes S_) (hu : 0 < S_.numel)
    (h : Host.reduce IntOp.andi (cmpf .olt (Host.absf a) (broadcastInDim s ![] hb (constant (F := Ideal) S_ .f32 0x7F800000#32)))
        (constantI S_ 1 1#1) hr hu ValueIdx.ix0 = 1#1) (i : s.Idx) : ∃ r : ℝ, a i = (r : EReal) := by
  have hi := Host.reduce_andi_all _ _ hr hu ValueIdx.ix0 h i
  refine real_of_abs_lt (a i) ?_
  have hc : broadcastInDim s ![] hb (constant (F := Ideal) S_ .f32 0x7F800000#32) i = FloatOps.ofBits (F := Ideal) .f32 0x7F800000#32 :=
    broadcastInDim_apply _ hb _ i ValueIdx.ix0 (fun a => a.elim0)
  rw [← hc]
  exact hi

/-- Under the precondition every entry of each argument array is a real number. -/
theorem finite (a0 : FVec Ideal S2x2048x256 .f32) (a1 a2 a3 : FVec Ideal S2048x256 .f32) (a4 : FVec Ideal S256x2048 .f32)
    (a5 : FVec Ideal S256 .f32) (h : fn (F := Ideal) a0 a1 a2 a3 a4 a5 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal)) := by
  have h0 := congrFun h ValueIdx.ix0
  dsimp only [fn, fn_part1] at h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨all_real a0 _ _ _ e0, all_real a1 _ _ _ e1, all_real a2 _ _ _ e2, all_real a3 _ _ _ e3, all_real a4 _ _ _ e4,
    all_real a5 _ _ _ e5⟩

end Cert.Finite

end
-- ==== Proof.KI.KernelValue.lean ====
/- The kernel program's value at the ideal instance. The projection kernel leaves, in the array the attention
   kernel reads, the product of the flattened activations and the fused weights; the attention kernel leaves, per
   batch, head and query row, the softmax-weighted sum of the value rows; the last kernel leaves the four partial
   products over 512-column blocks, added from zero, plus the bias; the host reshapes the result. Read through the
   host operations, these are the hypotheses under which the kernel's arrangement of the computation equals the
   attention function of the six argument arrays (where the activations, query and key weights are real-valued: the
   factor 1/4 folded into the weights moves out of the contraction only then). -/
import proofs.«160521_j42159398978166_2_alg».proof.Proof.KI.Run
import proofs.«160521_j42159398978166_2_alg».proof.Proof.KI.Host
import proofs.«160521_j42159398978166_2_alg».proof.Proof.KI.Value0
import proofs.«160521_j42159398978166_2_alg».proof.Proof.KI.Value1
import proofs.«160521_j42159398978166_2_alg».proof.Proof.KI.Value2
import proofs.«160521_j42159398978166_2_alg».proof.Proof.KernelForm
import proofs.«160521_j42159398978166_2_alg».proof.Proof.Finite

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The projection array the attention kernel reads is the product of the flattened activations and the fused weights. -/
theorem v14_eq (c : Dev nD) : (Vb2 m ρ c main_v14 : S4096x6144.Idx → EReal) = qkvOf (Vb1 m ρ c main_v1) (Vb1 m ρ c main_v10) :=
  (W2_arr m ρ c 2).trans (final0 (Vb1 m ρ) c)

/-- The attention output the last kernel reads. -/
theorem v15_eq (c : Dev nD) : (Vb3 m ρ c main_v15 : S4096x2048.Idx → EReal) = attnOf (Vb2 m ρ c main_v14) :=
  (W3_out m ρ c).trans (final1 (Vb2 m ρ) c)

theorem v16_eq (c : Dev nD) : (W4 m ρ c (Proc.devRef .tc main_v16) : S4096x256.Idx → EReal) = outOf (Vb3 m ρ c main_v15) (Vb3 m ρ c main_v12) (Vb3 m ρ c main_v13) :=
  (W4_arr m ρ c 3).trans (final2 (Vb3 m ρ) c)

theorem v12_eq (c : Dev nD) : Vb3 m ρ c main_v12 = W1 m ρ c (Proc.devRef .tc main_v12) :=
  (W3_of_ne m ρ c main_v12 (by decide)).trans (W2_of_ne m ρ c main_v12 (by decide))
theorem v13_eq (c : Dev nD) : Vb3 m ρ c main_v13 = W1 m ρ c (Proc.devRef .tc main_v13) :=
  (W3_of_ne m ρ c main_v13 (by decide)).trans (W2_of_ne m ρ c main_v13 (by decide))

/-- THE KERNEL'S VALUE: on real-valued activations, query and key weights, the result array is the attention
    function of the six argument arrays, index by index. -/
theorem result_eq (c : Dev nD)
    (fx : ∀ i, ∃ r : ℝ, (m ((c : Thread nD τ).loc main_arg0) : S2x2048x256.Idx → EReal) i = (r : EReal))
    (fq : ∀ i, ∃ r : ℝ, (m ((c : Thread nD τ).loc main_arg1) : S2048x256.Idx → EReal) i = (r : EReal))
    (fk : ∀ i, ∃ r : ℝ, (m ((c : Thread nD τ).loc main_arg2) : S2048x256.Idx → EReal) i = (r : EReal)) :
    (W5 m ρ c (Proc.devRef .tc main_v17) : S2x2048x256.Idx → EReal)
      = Cert.Spec.G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  funext i
  obtain ⟨b, s, o, rfl⟩ : ∃ (b : Fin 2) (s : Fin 2048) (o : Fin 256), i = ix3 b s o := ⟨i 0, i 1, i 2, eq_ix3 i⟩
  rw [Cert.Spec.G_ix3]
  refine (host_v17 (W4 m ρ c) b s o).trans ?_
  rw [v16_eq]
  exact Cert.KernelForm.kernel_eq_attention _ _ _ _ _ _ fx fq fk
    (Vb1 m ρ c main_v1) (fun b s e => host_v1 (W0 m ρ c) b s e)
    (Vb1 m ρ c main_v10) (fun e n => host_v10_q (W0 m ρ c) _ rfl e n) (fun e n => host_v10_k (W0 m ρ c) _ rfl e n)
      (fun e n => host_v10_v (W0 m ρ c) _ rfl e n)
    (Vb2 m ρ c main_v14) (fun r n => by rw [v14_eq]; exact qkvOf_ix2 _ _ r n)
    (Vb3 m ρ c main_v15) (fun b s h d => by
      rw [v15_eq]
      exact attnOf_ix _ b s h d _ _ rfl rfl (fun j => Cert.KernelForm.row b j) (fun _ => rfl)
        (fun d' => Cert.KernelForm.colQ (Cert.Spec.headCol h d')) (fun d' => Cert.KernelForm.colK (Cert.Spec.headCol h d'))
        (fun _ => rfl) (fun d' => by show 2048 + (h.val * 256 + d'.val) = 2048 + h.val * 256 + d'.val; omega)
        (Cert.KernelForm.colV (Cert.Spec.headCol h d)) (by show 4096 + (h.val * 256 + d.val) = 4096 + h.val * 256 + d.val; omega))
    (Vb3 m ρ c main_v12) (fun n o => by rw [v12_eq]; exact host_v12 (W0 m ρ c) n o)
    (Vb3 m ρ c main_v13) (fun o => by rw [v13_eq]; exact host_v13 (W0 m ρ c) o)
    _ (fun r o => outOf_ix2 _ _ _ r o) b s o

end Cert.KernelIdeal.Hand

end
-- ==== Proof.RefModules.lean ====
/- The reference program's generated run and its read-at-an-index lemmas, brought into the build so that the
   modules about the reference's value can import them. -/
import proofs.«160521_j42159398978166_2_alg».proof.Proof.Gen.ReferenceIdeal.Run
import proofs.«160521_j42159398978166_2_alg».proof.Proof.Gen.ReferenceIdeal.Read
-- ==== Proof.RefValue.lean ====
/-
  The reference's value: the term its run leaves in the result array, read at an index stage by stage, is the
  specification `Cert.Spec.G` of the six argument arrays.

  Each stage of the reference is read at an index built from coordinates: a projection's head entry through the reshape
  [2, 2048, 2048] → [2, 2048, 8, 256] and the transpose to [2, 8, 2048, 256] (the row-major position of (b, s, h, d) is that of
  (b, s, h·256 + d)); the division by `4.0`; the scores; the row maximum (a fold of `max` over the key axis from `-inf`,
  then once more against `-inf`); the exponentials, their sum from `0.0`, the weights; the heads' outputs; the merge back
  (the row-major position of (b, s, n) is that of (b, s, n / 256, n % 256)); the output projection and the bias.
-/
import proofs.«160521_j42159398978166_2_alg».proof.Defs
import proofs.«160521_j42159398978166_2_alg».proof.Proof.RefModules
import proofs.«160521_j42159398978166_2_alg».proof.Proof.Gen.Pre_finite_inputs
import proofs.«160521_j42159398978166_2_alg».proof.Proof.Spec

set_option maxRecDepth 16384

noncomputable section

open scoped BigOperators

namespace Cert.ReferenceIdeal.RefValue

open Cert.ReferenceIdeal Cert.ReferenceIdeal.Gen Cert.ReferenceIdeal.Read Cert.Spec
open Idealize.ShloMosaic Idealize.ShloMosaic.TcCoe Idealize.SL.Sem Idealize.ShloMosaic.ValueIdx

variable (x0 : (⟨S2x2048x256, .f32⟩ : BufTy).Contents (Elt Ideal))
  (x1 x2 x3 : (⟨S2048x256, .f32⟩ : BufTy).Contents (Elt Ideal))
  (x4 : (⟨S256x2048, .f32⟩ : BufTy).Contents (Elt Ideal)) (x5 : (⟨S256, .f32⟩ : BufTy).Contents (Elt Ideal))

/-! ## Index equations -/

/-- Entry (b, h, s, d) of a transposed, reshaped projection is entry (b, s, h·256 + d) of the projection. -/
theorem split_idx (b : Fin 2) (h : Fin 8) (s : Fin 2048) (d : Fin 256) :
    idx_main_v1 (idx_main_v2 (ix4 b h s d)) = ix3 b s (headCol h d) := by
  have hb := b.isLt; have hh := h.isLt; have hs := s.isLt; have hd := d.isLt
  funext a
  apply Fin.ext
  match a with
  | ⟨0, _⟩ => show (((b.val * 2048 + s.val) * 8 + h.val) * 256 + d.val) / 4194304 = b.val; omega
  | ⟨1, _⟩ => show (((b.val * 2048 + s.val) * 8 + h.val) * 256 + d.val) / 2048 % 2048 = s.val; omega
  | ⟨2, _⟩ => show (((b.val * 2048 + s.val) * 8 + h.val) * 256 + d.val) % 2048 = h.val * 256 + d.val; omega

/-- Entry (b, s, n) of the merged heads is entry (b, n / 256, s, n % 256) of the heads' outputs. -/
theorem merge_idx (b : Fin 2) (s n : Fin 2048) :
    idx_main_v26 (idx_main_v27 (ix3 b s n)) = ix4 b (colHead n) s (colFeat n) := by
  have hb := b.isLt; have hs := s.isLt; have hn := n.isLt
  funext a
  apply Fin.ext
  match a with
  | ⟨0, _⟩ => show ((b.val * 2048 + s.val) * 2048 + n.val) / 4194304 = b.val; omega
  | ⟨1, _⟩ => show ((b.val * 2048 + s.val) * 2048 + n.val) / 256 % 8 = n.val / 256; omega
  | ⟨2, _⟩ => show ((b.val * 2048 + s.val) * 2048 + n.val) / 2048 % 2048 = s.val; omega
  | ⟨3, _⟩ => show ((b.val * 2048 + s.val) * 2048 + n.val) % 256 = n.val % 256; omega

theorem lidx0 (b : Fin 2) (s n : Fin 2048) (e : Fin 256) : lidx_main_v0 (ix3 b s n) e = ix3 b s e :=
  funext fun a => Fin.ext (by match a with | ⟨0, _⟩ => rfl | ⟨1, _⟩ => rfl | ⟨2, _⟩ => rfl)
theorem ridx0 (b : Fin 2) (s n : Fin 2048) (e : Fin 256) : ridx_main_v0 (ix3 b s n) e = ix2 n e :=
  funext fun a => Fin.ext (by match a with | ⟨0, _⟩ => rfl | ⟨1, _⟩ => rfl)
theorem lidx13 (b : Fin 2) (h : Fin 8) (s j : Fin 2048) (d : Fin 256) : lidx_main_v13 (ix4 b h s j) d = ix4 b h s d :=
  funext fun a => Fin.ext (by match a with | ⟨0, _⟩ => rfl | ⟨1, _⟩ => rfl | ⟨2, _⟩ => rfl | ⟨3, _⟩ => rfl)
theorem ridx13 (b : Fin 2) (h : Fin 8) (s j : Fin 2048) (d : Fin 256) : ridx_main_v13 (ix4 b h s j) d = ix4 b h j d :=
  funext fun a => Fin.ext (by match a with | ⟨0, _⟩ => rfl | ⟨1, _⟩ => rfl | ⟨2, _⟩ => rfl | ⟨3, _⟩ => rfl)
theorem idx18 (b : Fin 2) (h : Fin 8) (s j : Fin 2048) : idx_main_v17 (idx_main_v18 (ix4 b h s j)) = ix3 b h s :=
  funext fun a => Fin.ext (by match a with | ⟨0, _⟩ => rfl | ⟨1, _⟩ => rfl | ⟨2, _⟩ => rfl)
theorem idx23 (b : Fin 2) (h : Fin 8) (s j : Fin 2048) : idx_main_v22 (idx_main_v23 (ix4 b h s j)) = ix3 b h s :=
  funext fun a => Fin.ext (by match a with | ⟨0, _⟩ => rfl | ⟨1, _⟩ => rfl | ⟨2, _⟩ => rfl)
theorem idx21 (b : Fin 2) (h : Fin 8) (s j : Fin 2048) : idx_main_v21 (ix3 b h s) j = ix4 b h s j :=
  funext fun a => Fin.ext (by match a with | ⟨0, _⟩ => rfl | ⟨1, _⟩ => rfl | ⟨2, _⟩ => rfl | ⟨3, _⟩ => rfl)
theorem lidx25 (b : Fin 2) (h : Fin 8) (s j : Fin 2048) (d : Fin 256) : lidx_main_v25 (ix4 b h s d) j = ix4 b h s j :=
  funext fun a => Fin.ext (by match a with | ⟨0, _⟩ => rfl | ⟨1, _⟩ => rfl | ⟨2, _⟩ => rfl | ⟨3, _⟩ => rfl)
theorem ridx25 (b : Fin 2) (h : Fin 8) (s j : Fin 2048) (d : Fin 256) : ridx_main_v25 (ix4 b h s d) j = ix4 b h j d :=
  funext fun a => Fin.ext (by match a with | ⟨0, _⟩ => rfl | ⟨1, _⟩ => rfl | ⟨2, _⟩ => rfl | ⟨3, _⟩ => rfl)
theorem lidx28 (b : Fin 2) (s n : Fin 2048) (o : Fin 256) : lidx_main_v28 (ix3 b s o) n = ix3 b s n :=
  funext fun a => Fin.ext (by match a with | ⟨0, _⟩ => rfl | ⟨1, _⟩ => rfl | ⟨2, _⟩ => rfl)
theorem ridx28 (b : Fin 2) (s n : Fin 2048) (o : Fin 256) : ridx_main_v28 (ix3 b s o) n = ix2 o n :=
  funext fun a => Fin.ext (by match a with | ⟨0, _⟩ => rfl | ⟨1, _⟩ => rfl)
theorem idx30 (b : Fin 2) (s : Fin 2048) (o : Fin 256) : idx_main_v29 (idx_main_v30 (ix3 b s o)) = ix1 o :=
  funext fun a => Fin.ext (by match a with | ⟨0, _⟩ => rfl)

/-! ## The stages -/

/-- The three projections are one operation of different matrices; so are the two divisions by `4.0`. -/
theorem v7_eq : val_main_v7 (F := Ideal) x0 x2 = val_main_v2 (F := Ideal) x0 x2 := rfl
theorem v12_eq : val_main_v12 (F := Ideal) x0 x3 = val_main_v2 (F := Ideal) x0 x3 := rfl
theorem v9_eq : val_main_v9 (F := Ideal) x0 x2 = val_main_v4 (F := Ideal) x0 x2 := rfl

/-- A projection's head entry. -/
theorem v2_at (b : Fin 2) (h : Fin 8) (s : Fin 2048) (d : Fin 256) :
    val_main_v2 (F := Ideal) x0 x1 (ix4 b h s d) = proj x0 x1 b s (headCol h d) := by
  rw [val_main_v2_apply, val_main_v1_apply, split_idx, val_main_v0_apply]
  unfold proj
  refine Finset.sum_congr rfl fun e _ => ?_
  rw [lidx0, ridx0]

/-- A query or key entry. -/
theorem v4_at (b : Fin 2) (h : Fin 8) (s : Fin 2048) (d : Fin 256) :
    val_main_v4 (F := Ideal) x0 x1 (ix4 b h s d) = scaled x0 x1 b h s d := by
  rw [val_main_v4_apply, v2_at, val_main_v3_apply, val_main_cst_apply]
  rfl

/-- A score. -/
theorem v13_at (b : Fin 2) (h : Fin 8) (s j : Fin 2048) :
    val_main_v13 (F := Ideal) x0 x1 x2 (ix4 b h s j) = scores x0 x1 x2 b h s j := by
  rw [val_main_v13_apply]
  unfold scores
  refine Finset.sum_congr rfl fun d _ => ?_
  rw [lidx13, ridx13, v9_eq, v4_at, v4_at]

/-- The key axis put back into a reduced index: (b, h, s) with key position `k` inserted is (b, h, s, k). -/
theorem lift_key (hR : S2x8x2048x2048.Reduces [3] S2x8x2048) (b : Fin 2) (h : Fin 8) (s : Fin 2048)
    (k : Fin (S2x8x2048x2048.size 3)) : hR.lift (ix3 b h s) k = ix4 b h s (⟨k.val, k.isLt⟩ : Fin 2048) := by
  funext c; apply Fin.ext
  fin_cases c <;> rfl

/-- The row maximum's first stage: the fold of `max` over the key axis from `-inf`. -/
theorem v14_at (b : Fin 2) (h : Fin 8) (s : Fin 2048) :
    val_main_v14 (F := Ideal) x0 x1 x2 (ix3 b h s)
      = (Finset.univ : Finset (Fin 2048)).fold max negInf fun j => scores x0 x1 x2 b h s j := by
  unfold val_main_v14
  have hR : S2x8x2048x2048.Reduces [3] S2x8x2048 := by decide
  rw [Host.reduce_eq_fold_single FloatOps.maximumf _ _ reducesTo_S2x8x2048x2048_S2x8x2048_d3 hR h_S_]
  have hf : (val_main_v13 (F := Ideal) x0 x1 x2 ∘ hR.lift (ix3 b h s)) = fun j : Fin 2048 => scores x0 x1 x2 b h s j :=
    funext fun k => by
      show val_main_v13 (F := Ideal) x0 x1 x2 (hR.lift (ix3 b h s) k) = _
      rw [lift_key, v13_at]
      rfl
  exact congrArg (fun f => Finset.fold max negInf f (Finset.univ : Finset (Fin 2048))) hf

/-- The row maximum. -/
theorem v16_at (b : Fin 2) (h : Fin 8) (s : Fin 2048) :
    val_main_v16 (F := Ideal) x0 x1 x2 (ix3 b h s) = rowmax x0 x1 x2 b h s := by
  rw [val_main_v16_apply, val_main_v15_apply, val_main_cst_2_apply, v14_at]
  rfl

/-- The exponential of a score less its row's maximum. -/
theorem v20_at (b : Fin 2) (h : Fin 8) (s j : Fin 2048) :
    val_main_v20 (F := Ideal) x0 x1 x2 (ix4 b h s j) = expo x0 x1 x2 b h s j := by
  rw [val_main_v20_apply, val_main_v19_apply, v13_at, val_main_v18_apply, val_main_v17_apply, idx18, v16_at]
  rfl

/-- The softmax denominator. -/
theorem v21_at (b : Fin 2) (h : Fin 8) (s : Fin 2048) :
    val_main_v21 (F := Ideal) x0 x1 x2 (ix3 b h s) = denom x0 x1 x2 b h s := by
  rw [val_main_v21_apply, val_main_cst_3_apply]
  unfold denom
  refine congrArg (_ + ·) (Finset.sum_congr rfl fun j _ => ?_)
  rw [idx21, v20_at]

/-- A softmax weight. -/
theorem v24_at (b : Fin 2) (h : Fin 8) (s j : Fin 2048) :
    val_main_v24 (F := Ideal) x0 x1 x2 (ix4 b h s j) = weight x0 x1 x2 b h s j := by
  rw [val_main_v24_apply, v20_at, val_main_v23_apply, val_main_v22_apply, idx23, v21_at]
  rfl

/-- A head's output. -/
theorem v25_at (b : Fin 2) (h : Fin 8) (s : Fin 2048) (d : Fin 256) :
    val_main_v25 (F := Ideal) x0 x1 x2 x3 (ix4 b h s d) = headOut x0 x1 x2 x3 b h s d := by
  rw [val_main_v25_apply]
  unfold headOut
  refine Finset.sum_congr rfl fun j _ => ?_
  rw [lidx25, ridx25, v24_at, v12_eq, v2_at]

/-- The merged heads. -/
theorem v27_at (b : Fin 2) (s n : Fin 2048) :
    val_main_v27 (F := Ideal) x0 x1 x2 x3 (ix3 b s n) = merged x0 x1 x2 x3 b s n := by
  rw [val_main_v27_apply, val_main_v26_apply, merge_idx, v25_at]
  rfl

/-- The result. -/
theorem v31_at (b : Fin 2) (s : Fin 2048) (o : Fin 256) :
    val_main_v31 (F := Ideal) x0 x1 x2 x3 x4 x5 (ix3 b s o) = attention x0 x1 x2 x3 x4 x5 b s o := by
  rw [val_main_v31_apply, val_main_v28_apply, val_main_v30_apply, val_main_v29_apply, idx30]
  unfold attention
  refine congrArg (· + _) (Finset.sum_congr rfl fun n _ => ?_)
  rw [lidx28, ridx28, v27_at]

/-! ## The reference is the specification -/

/-- The reference's last stage, as a function of the six argument arrays, is the specification. -/
theorem ref_eq : val_main_v31 (F := Ideal) x0 x1 x2 x3 x4 x5 = G x0 x1 x2 x3 x4 x5 := by
  funext i
  obtain ⟨b, s, o, rfl⟩ : ∃ (b : Fin 2) (s : Fin 2048) (o : Fin 256), i = ix3 b s o := ⟨i 0, i 1, i 2, eq_ix3 i⟩
  rw [v31_at, G_ix3]

/-- The term the reference's run leaves in its result array is the specification of the launch contents of the arguments. -/
theorem res_eq (m : (ℓ : Loc nD τ sig) → Buf (Elt Ideal) ℓ) (c : Dev nD) :
    Cert.ReferenceIdeal.Value.res_main_v31 m c
      = G (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  rw [val_main_v31_eq, ref_eq]

end Cert.ReferenceIdeal.RefValue

/-! ## The reference's frame -/

namespace Cert.Proof.RefClaims

open Idealize.ShloMosaic Idealize.SL.Sem

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

end Cert.Proof.RefClaims

end
-- ==== Proof.lean ====
/- Multi-head attention as three kernels against its plain definition.

   The kernel program flattens the activations x to [4096, 256], fuses the transposed query, key and value weights
   (the first two scaled by 1/4 = 256^(-1/4)) into one [256, 6144] matrix, and runs three kernels: the fused
   projection x2d · W; per (batch, head, 512-row query tile) the exact softmax attention softmax(q kᵀ) v, reading the
   queries, keys and values as column blocks of the projection; and the output projection, accumulated over four
   512-column blocks in a scratch buffer that is reset at the first block and written out, with the bias added, at
   the last. The reference projects with each weight matrix, divides the queries and keys by 4 = 256^(1/4), applies
   softmax attention per head, and projects the merged heads with the output weights plus the bias.

   Frames: each kernel program's run is followed boundary by boundary (Proof/KI/Run.lean for the program read at
   the ideal instance, Proof/K/Run.lean for the word-level program: the same argument at the word-level instance), every
   argument array ending as launched; the reference's frame is its generated run.
   Preserves: the idealization rewrote nothing, so the conjunct is `True`.
   Algebraic: at the ideal instance a change of float format is the identity and every operation is exact, so the
   kernel program's result is the attention function of the six arrays (Proof/KI/KernelValue.lean), and so is the
   reference's (Proof/RefValue.lean). The one place the two arrangements differ in substance is the factor 1/4:
   ∑ₑ x·(w·¼) = (∑ₑ x·w)/4 needs the entries to be real numbers, which the precondition provides
   (Proof/Finite.lean); regrouping the last contraction into four blocks is associativity of addition. -/
import proofs.«160521_j42159398978166_2_alg».proof.Defs
import proofs.«160521_j42159398978166_2_alg».proof.Proof.Gen.Kernel
import proofs.«160521_j42159398978166_2_alg».proof.Proof.Gen.KernelIdeal
import proofs.«160521_j42159398978166_2_alg».proof.Proof.Gen.ReferenceIdeal
import proofs.«160521_j42159398978166_2_alg».proof.Proof.Gen.Pre_finite_inputs
import proofs.«160521_j42159398978166_2_alg».proof.Proof.K.Run
import proofs.«160521_j42159398978166_2_alg».proof.Proof.KI.Run
import proofs.«160521_j42159398978166_2_alg».proof.Proof.KI.KernelValue
import proofs.«160521_j42159398978166_2_alg».proof.Proof.RefValue
import proofs.«160521_j42159398978166_2_alg».proof.Proof.Finite
import Idealize.ShloMosaic.Adequacy
import Idealize.ShloMosaic.Init

noncomputable section

namespace Cert.Proof

open Idealize.ShloMosaic Idealize.SL.Sem

/-- The word-level kernel program runs to the end without a fault and leaves its arguments unchanged. -/
theorem frame_k : Cert.frame_Kernel := fun m ρ _ =>
  (θ_run Cert.Kernel.defs _ _).mono (fun _ h c => (h c).2) (Cert.Kernel.Hand.run (F := Bits) m ρ)

/-- So does the same program read at the ideal instance. -/
theorem frame_ki : Cert.frame_KernelIdeal := fun m ρ _ =>
  (θ_run Cert.KernelIdeal.defs _ _).mono (fun _ h c => (h c).2) (Cert.KernelIdeal.Hand.run (F := Ideal) m ρ)

/-- The idealization rewrote no operation. -/
theorem preserves : Cert.preserves_Kernel_KernelIdeal := trivial

/-- Both programs end with the attention function of the six argument arrays in their result array: the kernel
    program by its value under the precondition, the reference by its run; the arguments agree. -/
theorem algebraic : Cert.algebraic_KernelIdeal_ReferenceIdeal := by
  intro m ρ m' ρ' hpre hagree
  refine ⟨fun c => Cert.Spec.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · refine (θ_run Cert.KernelIdeal.defs _ _).mono (fun r h c => ⟨(h c).1.trans ?_, (h c).2⟩)
      (Cert.KernelIdeal.Hand.run (F := Ideal) m ρ)
    obtain ⟨f0, f1, f2, -, -, -⟩ := Cert.Finite.finite _ _ _ _ _ _ (hpre c)
    exact Cert.KernelIdeal.Hand.result_eq m ρ c f0 f1 f2
  · refine (θ_run Cert.ReferenceIdeal.defs _ _).mono
      (fun _ h c => ⟨(h c).1.trans ((Cert.ReferenceIdeal.RefValue.res_eq m' c).trans ?_), (h c).2⟩)
      (Cert.ReferenceIdeal.Value.run (F := Ideal) m' ρ')
    rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, Cert.Proof.RefClaims.frame_ri, preserves, algebraic⟩

end Cert.Proof

end
